-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x20000 : Shape := ⟨2, ![512, 20000]⟩
abbrev S20000 : Shape := ⟨1, ![20000]⟩
abbrev S200000x256 : Shape := ⟨2, ![200000, 256]⟩
abbrev S256 : Shape := ⟨1, ![256]⟩
abbrev S512x256 : Shape := ⟨2, ![512, 256]⟩
abbrev S512 : Shape := ⟨1, ![512]⟩
abbrev S256x512 : Shape := ⟨2, ![256, 512]⟩
abbrev S200000 : Shape := ⟨1, ![200000]⟩
abbrev S_ : Shape := ⟨0, ![]⟩

class Facts : Prop where
  bcast_S_S512x20000 : S_.BroadcastsInDim S512x20000 (![] : Fin 0 → Fin S512x20000.rank)
  reducesTo_S512x20000_S_d0_1 : S512x20000.ReducesTo [0, 1] S_
  h_S_ : 0 < S_.numel
  bcast_S_S200000x256 : S_.BroadcastsInDim S200000x256 (![] : Fin 0 → Fin S200000x256.rank)
  reducesTo_S200000x256_S_d0_1 : S200000x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S200000 : S_.BroadcastsInDim S200000 (![] : Fin 0 → Fin S200000.rank)
  reducesTo_S200000_S_d0 : S200000.ReducesTo [0] S_

variable [Facts]

def fn_part2 {F : FTy → Type} [FloatOps F] (main_arg8 : FVec F S200000x256 .f32) (main_arg9 : FVec F S200000 .f32) (main_v33 : IVec S_ 1) : IVec S_ 1 :=
  let main_v34 : FVec F S200000x256 .f32 := Host.absf main_arg8
  let main_cst_12 : FVec F S_ .f32 := constant S_ .f32 0x7F800000#32
  let main_v35 : FVec F S200000x256 .f32 := broadcastInDim S200000x256 ![] bcast_S_S200000x256 main_cst_12
  let main_v36 : IVec S200000x256 1 := cmpf .olt main_v34 main_v35
  let main_c_13 : IVec S_ 1 := constantI S_ 1 1#1
  let main_v37 : IVec S_ 1 := (fun x v => Host.reduce IntOp.andi x v reducesTo_S200000x256_S_d0_1 h_S_) main_v36 main_c_13
  let main_v38 : IVec S_ 1 := andi main_v33 main_v37
  let main_v39 : FVec F S200000 .f32 := Host.absf main_arg9
  let main_cst_14 : FVec F S_ .f32 := constant S_ .f32 0x7F800000#32
  let main_v40 : FVec F S200000 .f32 := broadcastInDim S200000 ![] bcast_S_S200000 main_cst_14
  let main_v41 : IVec S200000 1 := cmpf .olt main_v39 main_v40
  let main_c_15 : IVec S_ 1 := constantI S_ 1 1#1
  let main_v42 : IVec S_ 1 := (fun x v => Host.reduce IntOp.andi x v reducesTo_S200000_S_d0 h_S_) main_v41 main_c_15
  let main_v43 : IVec S_ 1 := andi main_v38 main_v42
  main_v43

def fn_part1 {F : FTy → Type} [FloatOps F] (main_arg5 : FVec F S512 .f32) (main_arg6 : FVec F S256x512 .f32) (main_arg7 : FVec F S256 .f32) (main_arg8 : FVec F S200000x256 .f32) (main_arg9 : FVec F S200000 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S512x20000 .f32) (main_arg1 : IVec S20000 32) (main_arg2 : FVec F S200000x256 .f32) (main_arg3 : FVec F S256 .f32) (main_arg4 : FVec F S512x256 .f32) (main_arg5 : FVec F S512 .f32) (main_arg6 : FVec F S256x512 .f32) (main_arg7 : FVec F S256 .f32) (main_arg8 : FVec F S200000x256 .f32) (main_arg9 : FVec F S200000 .f32) : IVec S_ 1 :=
  let main_v0 : FVec F S512x20000 .f32 := Host.absf main_arg0
  let main_cst : FVec F S_ .f32 := constant S_ .f32 0x7F800000#32
  let main_v1 : FVec F S512x20000 .f32 := broadcastInDim S512x20000 ![] bcast_S_S512x20000 main_cst
  let main_v2 : IVec S512x20000 1 := cmpf .olt main_v0 main_v1
  let main_c : IVec S_ 1 := constantI S_ 1 1#1
  let main_v3 : IVec S_ 1 := (fun x v => Host.reduce IntOp.andi x v reducesTo_S512x20000_S_d0_1 h_S_) main_v2 main_c
  let main_v4 : FVec F S200000x256 .f32 := Host.absf main_arg2
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg4
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg5 main_arg6 main_arg7 main_arg8 main_arg9 main_v13 main_v16
-- ==== Kernel.lean ====
abbrev S512x20000 : Shape := ⟨2, ![512, 20000]⟩
abbrev S20000 : Shape := ⟨1, ![20000]⟩
abbrev S200000x256 : Shape := ⟨2, ![200000, 256]⟩
abbrev S256 : Shape := ⟨1, ![256]⟩
abbrev S512x256 : Shape := ⟨2, ![512, 256]⟩
abbrev S512 : Shape := ⟨1, ![512]⟩
abbrev S256x512 : Shape := ⟨2, ![256, 512]⟩
abbrev S200000 : Shape := ⟨1, ![200000]⟩
abbrev S_ : Shape := ⟨0, ![]⟩
abbrev S20000x1 : Shape := ⟨2, ![20000, 1]⟩
abbrev S20000x256 : Shape := ⟨2, ![20000, 256]⟩
abbrev S1x256 : Shape := ⟨2, ![1, 256]⟩
abbrev S1x512 : Shape := ⟨2, ![1, 512]⟩
abbrev S1x200000 : Shape := ⟨2, ![1, 200000]⟩
abbrev S512x20480 : Shape := ⟨2, ![512, 20480]⟩
abbrev S20480x256 : Shape := ⟨2, ![20480, 256]⟩
abbrev S256x4096 : Shape := ⟨2, ![256, 4096]⟩
abbrev S4096x256 : Shape := ⟨2, ![4096, 256]⟩
abbrev S256x256 : Shape := ⟨2, ![256, 256]⟩
abbrev S512x200000 : Shape := ⟨2, ![512, 200000]⟩
abbrev S1x4096 : Shape := ⟨2, ![1, 4096]⟩
abbrev S512x4096 : Shape := ⟨2, ![512, 4096]⟩

abbrev nBuf : Space → Nat
  | .hbm => 31
  | .vmem => 19
  | .smem => 0
  | _ => 0

abbrev bufTy : (tb : Table) → Fin (tcTables nBuf tb) → BufTy
  | .hbm, ⟨0, _⟩ => ⟨S512x20000, .f32⟩
  | .hbm, ⟨1, _⟩ => ⟨S20000, .i32⟩
  | .hbm, ⟨2, _⟩ => ⟨S200000x256, .f32⟩
  | .hbm, ⟨3, _⟩ => ⟨S256, .f32⟩
  | .hbm, ⟨4, _⟩ => ⟨S512x256, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S200000x256, .f32⟩
  | .hbm, ⟨9, _⟩ => ⟨S200000, .f32⟩
  | .hbm, ⟨10, _⟩ => ⟨S_, .i32⟩
  | .hbm, ⟨11, _⟩ => ⟨S20000, .i32⟩
  | .hbm, ⟨12, _⟩ => ⟨S20000, .i1⟩
  | .hbm, ⟨13, _⟩ => ⟨S_, .i32⟩
  | .hbm, ⟨14, _⟩ => ⟨S20000, .i32⟩
  | .hbm, ⟨15, _⟩ => ⟨S20000, .i32⟩
  | .hbm, ⟨16, _⟩ => ⟨S20000, .i32⟩
  | .hbm, ⟨17, _⟩ => ⟨S20000x1, .i32⟩
  | .hbm, ⟨18, _⟩ => ⟨S20000x256, .f32⟩
  | .hbm, ⟨19, _⟩ => ⟨S1x256, .f32⟩
  | .hbm, ⟨20, _⟩ => ⟨S1x512, .f32⟩
  | .hbm, ⟨21, _⟩ => ⟨S1x256, .f32⟩
  | .hbm, ⟨22, _⟩ => ⟨S1x200000, .f32⟩
  | .hbm, ⟨23, _⟩ => ⟨S_, .i32⟩
  | .hbm, ⟨24, _⟩ => ⟨S_, .f32⟩
  | .hbm, ⟨25, _⟩ => ⟨S512x20480, .f32⟩
  | .hbm, ⟨26, _⟩ => ⟨S_, .i32⟩
  | .hbm, ⟨27, _⟩ => ⟨S_, .f32⟩
  | .hbm, ⟨28, _⟩ => ⟨S20480x256, .f32⟩
  | .hbm, ⟨29, _⟩ => ⟨S512x256, .f32⟩
  | .hbm, ⟨30, _⟩ => ⟨S512x200000, .f32⟩
  | .local _ .vmem, ⟨0, _⟩ => ⟨S256x4096, .f32⟩
  | .local _ .vmem, ⟨1, _⟩ => ⟨S256x4096, .f32⟩
  | .local _ .vmem, ⟨2, _⟩ => ⟨S4096x256, .f32⟩
  | .local _ .vmem, ⟨3, _⟩ => ⟨S4096x256, .f32⟩
  | .local _ .vmem, ⟨4, _⟩ => ⟨S1x256, .f32⟩
  | .local _ .vmem, ⟨5, _⟩ => ⟨S512x256, .f32⟩
  | .local _ .vmem, ⟨6, _⟩ => ⟨S1x512, .f32⟩
  | .local _ .vmem, ⟨7, _⟩ => ⟨S256x512, .f32⟩
  | .local _ .vmem, ⟨8, _⟩ => ⟨S1x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S512x256, .f32⟩
  | .local _ .vmem, ⟨13, _⟩ => ⟨S4096x256, .f32⟩
  | .local _ .vmem, ⟨14, _⟩ => ⟨S4096x256, .f32⟩
  | .local _ .vmem, ⟨15, _⟩ => ⟨S1x4096, .f32⟩
  | .local _ .vmem, ⟨16, _⟩ => ⟨S1x4096, .f32⟩
  | .local _ .vmem, ⟨17, _⟩ => ⟨S512x4096, .f32⟩
  | .local _ .vmem, ⟨18, _⟩ => ⟨S512x4096, .f32⟩
  | _, _ => ⟨S512x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_call0_v0 : Ref sig .tc := ⟨.hbm, 24, rfl⟩
abbrev main_v11 : Ref sig .tc := ⟨.hbm, 25, rfl⟩
abbrev main_c_2 : Ref sig .tc := ⟨.hbm, 26, rfl⟩
abbrev main_call1_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S512x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  shapeCasts_S256_S1x256 : S256.ShapeCasts S1x256
  shapeCasts_S512_S1x512 : S512.ShapeCasts S1x512
  shapeCasts_S200000_S1x200000 : S200000.ShapeCasts S1x200000
  pads_S512x20000_S512x20480_000_04800 : S512x20000.Pads (![0, 0] : Fin 2 → Nat) ![0, 480] ![0, 0] S512x20480
  h_S_ : 0 < S_.numel
  pads_S20000x256_S20480x256_04800_000 : S20000x256.Pads (![0, 0] : Fin 2 → Nat) ![480, 0] ![0, 0] S20480x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  shapeCasts_S512x256_S512x256 : S512x256.ShapeCasts S512x256
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  gather_S200000x256_S20000x1_S20000x256_1_0_n_n_0_1_1256_wf : GatherDims.WF S200000x256 S20000x1 S20000x256 [1] [0] [] [0] [] 1 ![1, 256]
  dot_S256x4096_S4096x256_S256x256_1_0_0_1_n_n_wf : DotDims.WF S256x4096 S4096x256 S256x256 [1] [0] [0] [1] [] []
  dot_S256x256_S512x256_S256x512_1_1_0_0_n_n_wf : DotDims.WF S256x256 S512x256 S256x512 [1] [1] [0] [0] [] []
  dot_S256x512_S256x512_S256x256_1_1_0_0_n_n_wf : DotDims.WF S256x512 S256x512 S256x256 [1] [1] [0] [0] [] []
  dot_S512x256_S4096x256_S512x4096_1_1_0_0_n_n_wf : DotDims.WF S512x256 S4096x256 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x20480.size a
  hwx0_0 : ∀ i : grid0.Coords, EltTy.bits .f32 = 32 ∨ (Rect.block (s := S512x20480) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S20480x256.size a
  hwx0_1 : ∀ i : grid0.Coords, EltTy.bits .f32 = 32 ∨ (Rect.block (s := S20480x256) S4096x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S512x256.size a
  hwx0_7 : ∀ i : grid0.Coords, EltTy.bits .f32 = 32 ∨ (Rect.block (s := S512x256) S256x256.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S512x256.size a
  hwx1_0 : ∀ i : grid1.Coords, EltTy.bits .f32 = 32 ∨ (Rect.block (s := S512x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S4096x256.size a < S200000x256.size a
  hwx1_1 : ∀ i : grid1.Coords, EltTy.bits .f32 = 32 ∨ (Rect.unit (s := S200000x256) (fun a => cc1_transform_1 i a * S4096x256.size a) (fun a => (Pipeline.Clip.of (cc1_transform_1 i a) (S4096x256.size a) (S200000x256.size a)).extent (S4096x256.size a)) fun a => Pipeline.Clip.inb (Pipeline.Clip.ok_of (hstart1_1 i a))).WholeWords (EltTy.packing .f32)
  hwxs1_1 : ∀ i : grid1.Coords, EltTy.bits .f32 = 32 ∨ (Rect.unit (s := S4096x256) (fun _ => 0) (fun a => (Pipeline.Clip.of (cc1_transform_1 i a) (S4096x256.size a) (S200000x256.size a)).extent (S4096x256.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x4096.size a < S1x200000.size a
  hwx1_2 : ∀ i : grid1.Coords, EltTy.bits .f32 = 32 ∨ (Rect.unit (s := S1x200000) (fun a => cc1_transform_2 i a * S1x4096.size a) (fun a => (Pipeline.Clip.of (cc1_transform_2 i a) (S1x4096.size a) (S1x200000.size a)).extent (S1x4096.size a)) fun a => Pipeline.Clip.inb (Pipeline.Clip.ok_of (hstart1_2 i a))).WholeWords (EltTy.packing .f32)
  hwxs1_2 : ∀ i : grid1.Coords, EltTy.bits .f32 = 32 ∨ (Rect.unit (s := S1x4096) (fun _ => 0) (fun a => (Pipeline.Clip.of (cc1_transform_2 i a) (S1x4096.size a) (S1x200000.size a)).extent (S1x4096.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S512x4096.size a < S512x200000.size a
  hwx1_3 : ∀ i : grid1.Coords, EltTy.bits .f32 = 32 ∨ (Rect.unit (s := S512x200000) (fun a => cc1_transform_3 i a * S512x4096.size a) (fun a => (Pipeline.Clip.of (cc1_transform_3 i a) (S512x4096.size a) (S512x200000.size a)).extent (S512x4096.size a)) fun a => Pipeline.Clip.inb (Pipeline.Clip.ok_of (hstart1_3 i a))).WholeWords (EltTy.packing .f32)
  hwxs1_3 : ∀ i : grid1.Coords, EltTy.bits .f32 = 32 ∨ (Rect.unit (s := S512x4096) (fun _ => 0) (fun a => (Pipeline.Clip.of (cc1_transform_3 i a) (S512x4096.size a) (S512x200000.size a)).extent (S512x4096.size a)) fun a => (Nat.zero_add _).trans_le (Pipeline.Clip.extent_le (Pipeline.Clip.ok_of (hstart1_3 i a)))).WholeWords (EltTy.packing .f32)

variable [Facts₀]

def gather_S200000x256_S20000x1_S20000x256_1_0_n_n_0_1_1256 : GatherDims S200000x256 S20000x1 S20000x256 where
  offsetDims := [1]
  collapsedSliceDims := [0]
  operandBatchingDims := []
  startIndicesBatchingDims := []
  startIndexMap := [0]
  indexVectorDim := 1
  sliceSizes := ![1, 256]
  wf := gather_S200000x256_S20000x1_S20000x256_1_0_n_n_0_1_1256_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S512x256_S256x512_1_1_0_0_n_n : DotDims S256x256 S512x256 S256x512 where
  lhsContracting := [1]
  rhsContracting := [1]
  lhsNonContracting := [0]
  rhsNonContracting := [0]
  lhsBatch := []
  rhsBatch := []
  wf := dot_S256x256_S512x256_S256x512_1_1_0_0_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def dot_S512x256_S4096x256_S512x4096_1_1_0_0_n_n : DotDims S512x256 S4096x256 S512x4096 where
  lhsContracting := [1]
  rhsContracting := [1]
  lhsNonContracting := [0]
  rhsNonContracting := [0]
  lhsBatch := []
  rhsBatch := []
  wf := dot_S512x256_S4096x256_S512x4096_1_1_0_0_n_n_wf

abbrev win0_0 : Pipeline.Window sig grid0 :=
  Pipeline.Window.ofSpec (Memref.whole main_v11) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v13) S512x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_arg8) S4096x256.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v10) S1x4096.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v14) S512x4096.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x20000 : Shape := ⟨2, ![512, 20000]⟩
abbrev S20000 : Shape := ⟨1, ![20000]⟩
abbrev S200000x256 : Shape := ⟨2, ![200000, 256]⟩
abbrev S256 : Shape := ⟨1, ![256]⟩
abbrev S512x256 : Shape := ⟨2, ![512, 256]⟩
abbrev S512 : Shape := ⟨1, ![512]⟩
abbrev S256x512 : Shape := ⟨2, ![256, 512]⟩
abbrev S200000 : Shape := ⟨1, ![200000]⟩
abbrev S_ : Shape := ⟨0, ![]⟩
abbrev S20000x1 : Shape := ⟨2, ![20000, 1]⟩
abbrev S20000x256 : Shape := ⟨2, ![20000, 256]⟩
abbrev S1x256 : Shape := ⟨2, ![1, 256]⟩
abbrev S512x512 : Shape := ⟨2, ![512, 512]⟩
abbrev S1x512 : Shape := ⟨2, ![1, 512]⟩
abbrev S256x200000 : Shape := ⟨2, ![256, 200000]⟩
abbrev S512x200000 : Shape := ⟨2, ![512, 200000]⟩
abbrev S1x200000 : Shape := ⟨2, ![1, 200000]⟩

abbrev nBuf : Space → Nat
  | .hbm => 95
  | .vmem => 0
  | .smem => 0
  | _ => 0

abbrev bufTy : (tb : Table) → Fin (tcTables nBuf tb) → BufTy
  | .hbm, ⟨0, _⟩ => ⟨S512x20000, .f32⟩
  | .hbm, ⟨1, _⟩ => ⟨S20000, .i32⟩
  | .hbm, ⟨2, _⟩ => ⟨S200000x256, .f32⟩
  | .hbm, ⟨3, _⟩ => ⟨S256, .f32⟩
  | .hbm, ⟨4, _⟩ => ⟨S512x256, .f32⟩
  | .hbm, ⟨5, _⟩ => ⟨S512, .f32⟩
  | .hbm, ⟨6, _⟩ => ⟨S256x512, .f32⟩
  | .hbm, ⟨7, _⟩ => ⟨S256, .f32⟩
  | .hbm, ⟨8, _⟩ => ⟨S200000x256, .f32⟩
  | .hbm, ⟨9, _⟩ => ⟨S200000, .f32⟩
  | .hbm, ⟨10, _⟩ => ⟨S_, .i32⟩
  | .hbm, ⟨11, _⟩ => ⟨S20000, .i32⟩
  | .hbm, ⟨12, _⟩ => ⟨S20000, .i1⟩
  | .hbm, ⟨13, _⟩ => ⟨S_, .i32⟩
  | .hbm, ⟨14, _⟩ => ⟨S20000, .i32⟩
  | .hbm, ⟨15, _⟩ => ⟨S20000, .i32⟩
  | .hbm, ⟨16, _⟩ => ⟨S20000, .i32⟩
  | .hbm, ⟨17, _⟩ => ⟨S20000x1, .i32⟩
  | .hbm, ⟨18, _⟩ => ⟨S20000x256, .f32⟩
  | .hbm, ⟨19, _⟩ => ⟨S512x256, .f32⟩
  | .hbm, ⟨20, _⟩ => ⟨S1x256, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S_, .f32⟩
  | .hbm, ⟨25, _⟩ => ⟨S512x256, .f32⟩
  | .hbm, ⟨26, _⟩ => ⟨S512x256, .i1⟩
  | .hbm, ⟨27, _⟩ => ⟨S_, .f32⟩
  | .hbm, ⟨28, _⟩ => ⟨S512x256, .f32⟩
  | .hbm, ⟨29, _⟩ => ⟨S512x256, .i1⟩
  | .hbm, ⟨30, _⟩ => ⟨S_, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | .hbm, ⟨38, _⟩ => ⟨S512x256, .f32⟩
  | .hbm, ⟨39, _⟩ => ⟨S_, .f32⟩
  | .hbm, ⟨40, _⟩ => ⟨S512x256, .f32⟩
  | .hbm, ⟨41, _⟩ => ⟨S512x256, .f32⟩
  | .hbm, ⟨42, _⟩ => ⟨S256x512, .f32⟩
  | .hbm, ⟨43, _⟩ => ⟨S512x512, .f32⟩
  | .hbm, ⟨44, _⟩ => ⟨S1x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S_, .f32⟩
  | .hbm, ⟨49, _⟩ => ⟨S512x512, .f32⟩
  | .hbm, ⟨50, _⟩ => ⟨S512x512, .i1⟩
  | .hbm, ⟨51, _⟩ => ⟨S_, .f32⟩
  | .hbm, ⟨52, _⟩ => ⟨S512x512, .f32⟩
  | .hbm, ⟨53, _⟩ => ⟨S512x512, .i1⟩
  | .hbm, ⟨54, _⟩ => ⟨S_, .f32⟩
  | .hbm, ⟨55, _⟩ => ⟨S_, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S_, .f32⟩
  | .hbm, ⟨64, _⟩ => ⟨S512x512, .f32⟩
  | .hbm, ⟨65, _⟩ => ⟨S512x512, .f32⟩
  | .hbm, ⟨66, _⟩ => ⟨S512x256, .f32⟩
  | .hbm, ⟨67, _⟩ => ⟨S512x256, .f32⟩
  | .hbm, ⟨68, _⟩ => ⟨S1x256, .f32⟩
  | .hbm, ⟨69, _⟩ => ⟨S512x256, .f32⟩
  | .hbm, ⟨70, _⟩ => ⟨S512x256, .f32⟩
  | .hbm, ⟨71, _⟩ => ⟨S_, .f32⟩
  | .hbm, ⟨72, _⟩ => ⟨S_, .f32⟩
  | .hbm, ⟨73, _⟩ => ⟨S512x256, .f32⟩
  | .hbm, ⟨74, _⟩ => ⟨S512x256, .i1⟩
  | .hbm, ⟨75, _⟩ => ⟨S_, .f32⟩
  | .hbm, ⟨76, _⟩ => ⟨S512x256, .f32⟩
  | .hbm, ⟨77, _⟩ => ⟨S512x256, .i1⟩
  | .hbm, ⟨78, _⟩ => ⟨S_, .f32⟩
  | .hbm, ⟨79, _⟩ => ⟨S_, .f32⟩
  | .hbm, ⟨80, _⟩ => ⟨S512x256, .f32⟩
  | .hbm, ⟨81, _⟩ => ⟨S512x256, .f32⟩
  | .hbm, ⟨82, _⟩ => ⟨S512x256, .f32⟩
  | .hbm, ⟨83, _⟩ => ⟨S_, .f32⟩
  | .hbm, ⟨84, _⟩ => ⟨S512x256, .f32⟩
  | .hbm, ⟨85, _⟩ => ⟨S512x256, .f32⟩
  | .hbm, ⟨86, _⟩ => ⟨S512x256, .f32⟩
  | .hbm, ⟨87, _⟩ => ⟨S_, .f32⟩
  | .hbm, ⟨88, _⟩ => ⟨S512x256, .f32⟩
  | .hbm, ⟨89, _⟩ => ⟨S512x256, .f32⟩
  | .hbm, ⟨90, _⟩ => ⟨S256x200000, .f32⟩
  | .hbm, ⟨91, _⟩ => ⟨S512x200000, .f32⟩
  | .hbm, ⟨92, _⟩ => ⟨S1x200000, .f32⟩
  | .hbm, ⟨93, _⟩ => ⟨S512x200000, .f32⟩
  | .hbm, ⟨94, _⟩ => ⟨S512x200000, .f32⟩
  | _, _ => ⟨S512x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_cst_0 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_cst_1 : Ref sig .tc := ⟨.hbm, 30, rfl⟩
abbrev main_call0_call0_call0_v0 : Ref sig .tc := ⟨.hbm, 31, rfl⟩
abbrev main_call0_call0_call0_v1 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_v7 : Ref sig .tc := ⟨.hbm, 36, rfl⟩
abbrev main_call0_call0_v8 : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_call1_cst : Ref sig .tc := ⟨.hbm, 47, rfl⟩
abbrev main_call1_call0_cst : Ref sig .tc := ⟨.hbm, 48, rfl⟩
abbrev main_call1_call0_v0 : Ref sig .tc := ⟨.hbm, 49, rfl⟩
abbrev main_call1_call0_v1 : Ref sig .tc := ⟨.hbm, 50, rfl⟩
abbrev main_call1_call0_cst_0 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_cst_1 : Ref sig .tc := ⟨.hbm, 54, rfl⟩
abbrev main_call1_call0_call0_v0 : Ref sig .tc := ⟨.hbm, 55, rfl⟩
abbrev main_call1_call0_call0_v1 : Ref sig .tc := ⟨.hbm, 56, rfl⟩
abbrev main_call1_call0_v4 : Ref sig .tc := ⟨.hbm, 57, rfl⟩
abbrev main_call1_call0_v5 : Ref sig .tc := ⟨.hbm, 58, rfl⟩
abbrev main_call1_call0_v6 : Ref sig .tc := ⟨.hbm, 59, rfl⟩
abbrev main_call1_call0_v7 : Ref sig .tc := ⟨.hbm, 60, rfl⟩
abbrev main_call1_call0_v8 : Ref sig .tc := ⟨.hbm, 61, rfl⟩
abbrev main_call1_v0 : Ref sig .tc := ⟨.hbm, 62, rfl⟩
abbrev main_call1_cst_0 : Ref sig .tc := ⟨.hbm, 63, rfl⟩
abbrev main_call1_v1 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_call2_cst : Ref sig .tc := ⟨.hbm, 71, rfl⟩
abbrev main_call2_call0_cst : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_cst_0 : Ref sig .tc := ⟨.hbm, 75, rfl⟩
abbrev main_call2_call0_v2 : Ref sig .tc := ⟨.hbm, 76, rfl⟩
abbrev main_call2_call0_v3 : Ref sig .tc := ⟨.hbm, 77, rfl⟩
abbrev main_call2_call0_cst_1 : Ref sig .tc := ⟨.hbm, 78, rfl⟩
abbrev main_call2_call0_call0_v0 : Ref sig .tc := ⟨.hbm, 79, rfl⟩
abbrev main_call2_call0_call0_v1 : Ref sig .tc := ⟨.hbm, 80, rfl⟩
abbrev main_call2_call0_v4 : Ref sig .tc := ⟨.hbm, 81, rfl⟩
abbrev main_call2_call0_v5 : Ref sig .tc := ⟨.hbm, 82, rfl⟩
abbrev main_call2_call0_v6 : Ref sig .tc := ⟨.hbm, 83, rfl⟩
abbrev main_call2_call0_v7 : Ref sig .tc := ⟨.hbm, 84, rfl⟩
abbrev main_call2_call0_v8 : Ref sig .tc := ⟨.hbm, 85, rfl⟩
abbrev main_call2_v0 : Ref sig .tc := ⟨.hbm, 86, rfl⟩
abbrev main_call2_cst_0 : Ref sig .tc := ⟨.hbm, 87, rfl⟩
abbrev main_call2_v1 : Ref sig .tc := ⟨.hbm, 88, rfl⟩
abbrev main_v23 : Ref sig .tc := ⟨.hbm, 89, rfl⟩
abbrev main_v24 : Ref sig .tc := ⟨.hbm, 90, rfl⟩
abbrev main_v25 : Ref sig .tc := ⟨.hbm, 91, rfl⟩
abbrev main_v26 : Ref sig .tc := ⟨.hbm, 92, rfl⟩
abbrev main_v27 : Ref sig .tc := ⟨.hbm, 93, rfl⟩
abbrev main_v28 : Ref sig .tc := ⟨.hbm, 94, rfl⟩

abbrev nD : Nat := 1
abbrev τ : Topo := Topo.v7x

variable {F : FTy → Type} [FloatOps F]

class Facts₀ : Prop where
  bcast_S_S20000 : S_.BroadcastsInDim S20000 (![] : Fin 0 → Fin S20000.rank)
  bcast_S20000_S20000x1_0 : S20000.BroadcastsInDim S20000x1 (![0] : Fin 1 → Fin S20000x1.rank)
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  transposes_S512x256_S256x512_1_0 : S512x256.Transposes [1, 0] S256x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S256x512_S512x256_1_0 : S256x512.Transposes [1, 0] S512x256
  transposes_S200000x256_S256x200000_1_0 : S200000x256.Transposes [1, 0] S256x200000
  bcast_S200000_S1x200000_1 : S200000.BroadcastsInDim S1x200000 (![1] : Fin 1 → Fin S1x200000.rank)
  bcast_S1x200000_S512x200000_0_1 : S1x200000.BroadcastsInDim S512x200000 (![0, 1] : Fin 2 → Fin S512x200000.rank)
  gather_S200000x256_S20000x1_S20000x256_1_0_n_n_0_1_1256_wf : GatherDims.WF S200000x256 S20000x1 S20000x256 [1] [0] [] [0] [] 1 ![1, 256]
  dot_S512x20000_S20000x256_S512x256_1_0_0_1_n_n_wf : DotDims.WF S512x20000 S20000x256 S512x256 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S512x256_S256x200000_S512x200000_1_0_0_1_n_n_wf : DotDims.WF S512x256 S256x200000 S512x200000 [1] [0] [0] [1] [] []

variable [Facts₀]

def gather_S200000x256_S20000x1_S20000x256_1_0_n_n_0_1_1256 : GatherDims S200000x256 S20000x1 S20000x256 where
  offsetDims := [1]
  collapsedSliceDims := [0]
  operandBatchingDims := []
  startIndicesBatchingDims := []
  startIndexMap := [0]
  indexVectorDim := 1
  sliceSizes := ![1, 256]
  wf := gather_S200000x256_S20000x1_S20000x256_1_0_n_n_0_1_1256_wf
def dot_S512x20000_S20000x256_S512x256_1_0_0_1_n_n : DotDims S512x20000 S20000x256 S512x256 where
  lhsContracting := [1]
  rhsContracting := [0]
  lhsNonContracting := [0]
  rhsNonContracting := [1]
  lhsBatch := []
  rhsBatch := []
  wf := dot_S512x20000_S20000x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x200000_S512x200000_1_0_0_1_n_n : DotDims S512x256 S256x200000 S512x200000 where
  lhsContracting := [1]
  rhsContracting := [0]
  lhsNonContracting := [0]
  rhsNonContracting := [1]
  lhsBatch := []
  rhsBatch := []
  wf := dot_S512x256_S256x200000_S512x200000_1_0_0_1_n_n_wf

class Facts : Prop extends Facts₀ where

variable [Facts]
-- ==== Proof.KEncDefs.lean ====
/-
  The first region (the encoder) as pure functions of what it finds in its operands' arrays.

  The grid is 2 × 5: point `t = 5·h + k` works on batch half `h` (256 rows) and K-tile `k` (4096 columns of the
  padded input against 4096 padded embedding rows). A 256 × 256 accumulator is carried from point to point:
  it restarts from zero at `k = 0` and gains one tile's product at every point (`accAt`); at `k = 4` the three
  selu layers are applied to it and the result is the half's output block (`outAt`).
-/
import proofs.«178345_j73899207295094_2_alg».proof.Proof.Gen.Kernel.Launch
import proofs.«178345_j73899207295094_2_alg».proof.Proof.Gen.Kernel.Skeleton
import proofs.«178345_j73899207295094_2_alg».proof.Proof.Gen.Kernel.Points

noncomputable section

namespace Cert.Kernel.Enc

open Idealize.ShloMosaic Idealize.ShloMosaic.TcCoe
open Idealize.SL Idealize.SL.Sem
open Cert.Kernel Cert.Kernel.Gen

variable {F : FTy → Type} [FloatOps F]

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: one tile's product added to zero at the first K-tile of a batch half
    (`n ≡ 0 mod 5`), to what the point before left otherwise. -/
def accAt (c : Dev nD) : (n : ℕ) → n < cfg0.N → Vec F S256x256 .f32
  | 0, h => k0_pay2 (iblk0 V c 0 ⟨0, h⟩) (iblk0 V c 1 ⟨0, h⟩) (k0_pay1 (F := F))
  | n + 1, h =>
    if (n + 1) % 5 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (accAt c n (Nat.lt_of_succ_lt h))

/-- The three selu layers applied to the accumulator after point `t` (the output block, where `t ≡ 4 mod 5`). -/
def outAt (c : Dev nD) (t : Fin cfg0.N) : Vec F S256x256 .f32 :=
  k0_pay3 (k0_pay4 (accAt V c t.val t.isLt) (iblk0 V c 2 t) (iblk0 V c 3 t) (iblk0 V c 4 t) (iblk0 V c 5 t)) (iblk0 V c 6 t)

theorem accAt_reset (c : Dev nD) (t : Fin cfg0.N) (h0 : t.val % 5 = 0) :
    accAt V c t.val t.isLt = k0_pay2 (iblk0 V c 0 t) (iblk0 V c 1 t) (k0_pay1 (F := F)) := by
  obtain ⟨n, hn⟩ := t
  cases n with
  | zero => rfl
  | succ n => exact if_pos h0

theorem accAt_step (c : Dev nD) (t : Fin cfg0.N) (h0 : ¬t.val % 5 = 0) :
    accAt V c t.val t.isLt = k0_pay2 (iblk0 V c 0 t) (iblk0 V c 1 t)
      (accAt V c (t.val - 1) (Nat.lt_of_le_of_lt (Nat.sub_le _ _) t.isLt)) := by
  obtain ⟨n, hn⟩ := t
  cases n with
  | zero => exact absurd (Nat.zero_mod _) h0
  | succ n => exact if_neg h0

end Cert.Kernel.Enc

end
-- ==== Proof.KEncSched.lean ====
/-
  The first region's schedule facts: which of its two conditionals a point takes, where its output window is idle,
  that every input's staging buffer holds the input's block at every point, and the region's invariant spelt out.
-/
import proofs.«178345_j73899207295094_2_alg».proof.Proof.KEncDefs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Every input's staging buffer holds its block -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals over the grid -/

/-- "This is the first K-tile of the batch half": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last K-tile of the batch half": the three layers are applied and the output block stored. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last K-tile the output window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The staging memrefs at a point, and the accumulator's buffer -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
/-- The accumulator's buffer. -/
abbrev scM : Memref sig .tc .vmem S256x256 .f32 := Memref.whole cc0_scratch0

/-- The scoped buffers of the other region, each at some contents: they ride through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant spelt out: the accumulator's buffer at some contents, the other region's scoped buffers,
    the generator register at some state. -/
theorem PhiA0_eq (c : Dev nD) :
    (Pipeline.ΦA spec0 c : sProp 𝕄)
      = iprop(iprop((∃ d, owns (c : Thread nD τ) scM fullShare d) ∗ otherScoped (F := F) c) ∗ (∃ r, prngReg c r)) := by
  unfold Pipeline.ΦA otherScoped; rw [scopedRest0_eq]; simp only [scM, owns_whole]; try rfl

end Cert.Kernel.Enc

end
-- ==== Proof.KEncRunA.lean ====
/-
  The encoder body at the first K-tile of a batch half: the accumulator is reset, then gains the tile's product.
  What the body's stores leave in the accumulator's buffer is found by running the body.
-/
import proofs.«178345_j73899207295094_2_alg».proof.Proof.KEncSched

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging buffers, the two matrix operands' at their contents and the accumulator's at anything, the body
    runs to the end with the operands untouched and the accumulator's buffer holding its stores `LS`. -/
noncomputable def kernelRun0_A (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (hc0 : cond0_0 i) (hc1 : ¬cond0_1 i)
    (x0 : Vec F S256x4096 .f32) (x1 : Vec F S4096x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Enc

end
-- ==== Proof.KEncRunB.lean ====
/-
  The encoder body at a middle K-tile: the accumulator gains the tile's product, nothing else is touched.
-/
import proofs.«178345_j73899207295094_2_alg».proof.Proof.KEncRunA

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole staging buffers, the two matrix operands' at their contents and the accumulator's at what the point
    before left (`xs`), the body runs to the end with the operands untouched and the accumulator's buffer holding its
    stores `LS`. -/
noncomputable def kernelRun0_B (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (hc0 : ¬cond0_0 i) (hc1 : ¬cond0_1 i)
    (x0 : Vec F S256x4096 .f32) (x1 : Vec F S4096x256 .f32) (xs : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg10 fullShare xs
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Enc

end
-- ==== Proof.KEncRunC.lean ====
/-
  The encoder body at the last K-tile of a batch half: the accumulator gains the tile's product, the three selu
  layers are applied to it, and the result is stored whole into the output block.
-/
import proofs.«178345_j73899207295094_2_alg».proof.Proof.KEncRunB

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- On whole staging buffers, the seven operands' at their contents, the output's at anything and the accumulator's at
    what the point before left (`xs`), the body runs to the end with the operands untouched, the output's buffer holding
    its stores `L7` and the accumulator's its stores `LS`. -/
noncomputable def kernelRun0_C (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (hc0 : ¬cond0_0 i) (hc1 : cond0_1 i)
    (x0 : Vec F S256x4096 .f32) (x1 : Vec F S4096x256 .f32) (x2 : Vec F S1x256 .f32) (x3 : Vec F S512x256 .f32) (x4 : Vec F S1x512 .f32) (x5 : Vec F S256x512 .f32) (x6 : Vec F S1x256 .f32) (xs : Vec F S256x256 .f32) :
    Σ' (L7 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10) K } := by
  refine ⟨?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.Kernel.Enc

end
-- ==== Proof.KEncVals.lean ====
/-
  What the encoder body's stores amount to. Every store of the body covers its whole buffer, so a buffer ends at the
  last store's value: the accumulator at "previous contents (zero after a reset) plus the tile's product", the
  output block at the three selu layers of the new accumulator.
-/
import proofs.«178345_j73899207295094_2_alg».proof.Proof.KEncRunC
import Idealize.ShloMosaic.Lib.Pipeline.Value

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

section
variable (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole)

/-! ## First K-tile -/

theorem scover_A (hc0 : cond0_0 i) (hc1 : ¬cond0_1 i) (x0 : Vec F S256x4096 .f32) (x1 : Vec F S4096x256 .f32) (y : S256x256.Idx) :
    ∃ pc ∈ (kernelRun0_A c i arg2 harg2 arg3 harg3 arg4 harg4 arg5 harg5 arg6 harg6 arg7 harg7 arg8 harg8 arg9 harg9 arg10 harg10 hc0 hc1 x0 x1).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1).1 S256x256.size (by sl_kernel_rfl) y

theorem sval_A (hc0 : cond0_0 i) (hc1 : ¬cond0_1 i) (x0 : Vec F S256x4096 .f32) (x1 : Vec F S4096x256 .f32) (f) :
    arg10.view.read (Elt F) (arg10.view.writes (Elt F) f (kernelRun0_A c i arg2 harg2 arg3 harg3 arg4 harg4 arg5 harg5 arg6 harg6 arg7 harg7 arg8 harg8 arg9 harg9 arg10 harg10 hc0 hc1 x0 x1).1) = k0_pay2 x0 x1 (k0_pay1 (F := F)) := by
  rw [View.read_writes_eq_canon _ _ _ (scover_A c i arg2 harg2 arg3 harg3 arg4 harg4 arg5 harg5 arg6 harg6 arg7 harg7 arg8 harg8 arg9 harg9 arg10 harg10 hc0 hc1 x0 x1)]
  unfold kernelRun0_A; dsimp only
  sl_unfold_words
  rw [View.canon_cons_unit_zero hz2, View.readCov_unit_zero _ hz2]
  simp only [View.readAt_eq_ld, harg2.read_unread, harg3.read_unread, harg4.read_unread, harg5.read_unread, harg6.read_unread, harg7.read_unread, harg8.read_unread, harg10.read_unread, View.ld_unit_zero (S := S256x4096) hz2, View.ld_unit_zero (S := S4096x256) hz2, View.ld_unit_zero (S := S256x256) hz2, View.ld_unit_zero (S := S1x256) hz2, View.ld_unit_zero (S := S512x256) hz2, View.ld_unit_zero (S := S1x512) hz2, View.ld_unit_zero (S := S256x512) hz2]

/-! ## Middle K-tiles -/

theorem scover_B (hc0 : ¬cond0_0 i) (hc1 : ¬cond0_1 i) (x0 : Vec F S256x4096 .f32) (x1 : Vec F S4096x256 .f32) (xs : Vec F S256x256 .f32) (y : S256x256.Idx) :
    ∃ pc ∈ (kernelRun0_B c i arg2 harg2 arg3 harg3 arg4 harg4 arg5 harg5 arg6 harg6 arg7 harg7 arg8 harg8 arg9 harg9 arg10 harg10 hc0 hc1 x0 x1 xs).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 xs).1 S256x256.size (by sl_kernel_rfl) y

theorem sval_B (hc0 : ¬cond0_0 i) (hc1 : ¬cond0_1 i) (x0 : Vec F S256x4096 .f32) (x1 : Vec F S4096x256 .f32) (xs : Vec F S256x256 .f32) (f) :
    arg10.view.read (Elt F) (arg10.view.writes (Elt F) f (kernelRun0_B c i arg2 harg2 arg3 harg3 arg4 harg4 arg5 harg5 arg6 harg6 arg7 harg7 arg8 harg8 arg9 harg9 arg10 harg10 hc0 hc1 x0 x1 xs).1) = k0_pay2 x0 x1 xs := by
  rw [View.read_writes_eq_canon _ _ _ (scover_B c i arg2 harg2 arg3 harg3 arg4 harg4 arg5 harg5 arg6 harg6 arg7 harg7 arg8 harg8 arg9 harg9 arg10 harg10 hc0 hc1 x0 x1 xs)]
  unfold kernelRun0_B; dsimp only
  rw [View.canon_unit_zero hz2]
  simp only [View.readAt_eq_ld, harg2.read_unread, harg3.read_unread, harg10.read_unread, View.ld_unit_zero (S := S256x4096) hz2, View.ld_unit_zero (S := S4096x256) hz2, View.ld_unit_zero (S := S256x256) hz2]

/-! ## Last K-tile -/

section
variable (hc0 : ¬cond0_0 i) (hc1 : cond0_1 i) (x0 : Vec F S256x4096 .f32) (x1 : Vec F S4096x256 .f32) (x2 : Vec F S1x256 .f32) (x3 : Vec F S512x256 .f32) (x4 : Vec F S1x512 .f32) (x5 : Vec F S256x512 .f32) (x6 : Vec F S1x256 .f32) (xs : Vec F S256x256 .f32)

theorem scover_C (y : S256x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs).2.1 S256x256.size (by sl_kernel_rfl) y

theorem ocover_C (y : S256x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs).1 S256x256.size (by sl_kernel_rfl) y

theorem sval_C (f) :
    arg10.view.read (Elt F) (arg10.view.writes (Elt F) f (kernelRun0_C c i arg2 harg2 arg3 harg3 arg4 harg4 arg5 harg5 arg6 harg6 arg7 harg7 arg8 harg8 arg9 harg9 arg10 harg10 hc0 hc1 x0 x1 x2 x3 x4 x5 x6 xs).2.1) = k0_pay2 x0 x1 xs := by
  rw [View.read_writes_eq_canon _ _ _ (scover_C c i arg2 harg2 arg3 harg3 arg4 harg4 arg5 harg5 arg6 harg6 arg7 harg7 arg8 harg8 arg9 harg9 arg10 harg10 hc0 hc1 x0 x1 x2 x3 x4 x5 x6 xs)]
  unfold kernelRun0_C; dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S256x4096) hz2, View.ld_unit_zero (S := S4096x256) hz2, View.ld_unit_zero (S := S256x256) hz2, View.ld_unit_zero (S := S1x256) hz2, View.ld_unit_zero (S := S512x256) hz2, View.ld_unit_zero (S := S1x512) hz2, View.ld_unit_zero (S := S256x512) hz2]

theorem oval_C (f) :
    arg9.view.read (Elt F) (arg9.view.writes (Elt F) f (kernelRun0_C c i arg2 harg2 arg3 harg3 arg4 harg4 arg5 harg5 arg6 harg6 arg7 harg7 arg8 harg8 arg9 harg9 arg10 harg10 hc0 hc1 x0 x1 x2 x3 x4 x5 x6 xs).1)
      = k0_pay3 (k0_pay4 (k0_pay2 x0 x1 xs) x2 x3 x4 x5) x6 := by
  rw [View.read_writes_eq_canon _ _ _ (ocover_C c i arg2 harg2 arg3 harg3 arg4 harg4 arg5 harg5 arg6 harg6 arg7 harg7 arg8 harg8 arg9 harg9 arg10 harg10 hc0 hc1 x0 x1 x2 x3 x4 x5 x6 xs)]
  unfold kernelRun0_C; dsimp only
  sl_unfold_words
  rw [View.canon_unit_zero hz2, View.readCov_unit_zero _ hz2]
  simp only [View.readAt_eq_ld, harg2.read_unread, harg3.read_unread, harg4.read_unread, harg5.read_unread, harg6.read_unread, harg7.read_unread, harg8.read_unread, harg10.read_unread, View.ld_unit_zero (S := S256x4096) hz2, View.ld_unit_zero (S := S4096x256) hz2, View.ld_unit_zero (S := S256x256) hz2, View.ld_unit_zero (S := S1x256) hz2, View.ld_unit_zero (S := S512x256) hz2, View.ld_unit_zero (S := S1x512) hz2, View.ld_unit_zero (S := S256x512) hz2]

end
end

end Cert.Kernel.Enc

end
-- ==== Proof.KEnc.lean ====
/-
  The first region's proof data and body obligation.

  After point `t` every input window's staging buffer still holds the input's block; the accumulator's buffer holds
  `accAt` (carried in the region's invariant from one point to the next, and forgotten again at the region's end);
  the output window's buffer holds `outAt` at the last K-tile of a batch half and is idle — handed back untouched,
  not written back — at every other point.
-/
import proofs.«178345_j73899207295094_2_alg».proof.Proof.KEncVals

set_option maxRecDepth 16384

noncomputable section

namespace Cert.Kernel.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's invariant before point `n`: at the start the class's (every scoped buffer at anything); afterwards the
    accumulator's buffer at what the point before left, the other region's scoped buffers, the generator register. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped (F := F) c) ∗ (∃ r, prngReg c r)) := by
  cases n with
  | zero => exact absurd rfl hz
  | succ n => rfl

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- An input window is never idle: what the body leaves in its buffer is the block, exactly. -/
theorem leaves_in (c : Dev nD) (t : Fin cfg0.N) (w : Fin cfg0.W) (hl : cfg0.idle w (grid0.coords t) = false) :
    (dat0 V c).leavesExact w t = owns (c : Thread nD τ) ((cfg0.win w).stage (cfg0.slots t w)) fullShare ((dat0 V c).after w t) := by
  unfold Dat.leavesExact; rw [hl]; try rfl

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [leaves_in V c t 0 (liveAt0_0 t), leaves_in V c t 1 (liveAt0_1 t), leaves_in V c t 2 (liveAt0_2 t), leaves_in V c t 3 (liveAt0_3 t),
    leaves_in V c t 4 (liveAt0_4 t), leaves_in V c t 5 (liveAt0_5 t), leaves_in V c t 6 (liveAt0_6 t),
    after0_0, after0_1, after0_2, after0_3, after0_4, after0_5, after0_6]
  by_cases h1 : t.val % 5 = 4
  · -- the last K-tile: the output block is stored
    have h0 : ¬t.val % 5 = 0 := by omega
    have hz : t.val ≠ 0 := by omega
    have hc0 : ¬cond0_0 (grid0.coords t) := fun h => h0 ((hcond0_0 t).mp h)
    have hc1 : cond0_1 (grid0.coords t) := (hcond0_1 t).mpr h1
    rw [leaves_in V c t 7 (liveAt0_7 t hc1), after0_7]
    rw [PhiS_castSucc V c t, PhiS_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t) (iblk0 V c 2 t) (iblk0 V c 3 t) (iblk0 V c 4 t) (iblk0 V c 5 t) (iblk0 V c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS Hoth Hg]
    · isplitl [HS Hoth]
      · isplitl [HS]
        · unfold owns; iexists _; isplitr
          swap; · iexact HS
          ipureintro
          rw [accAt_step V c t h0]
          exact sval_C c _ _ _ _ _ _ _ _ _ _ _ _ _ _ _ _ _ _ _ hc0 hc1 _ _ _ _ _ _ _ _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    unfold outAt
    rw [accAt_step V c t h0]
    exact oval_C c _ _ _ _ _ _ _ _ _ _ _ _ _ _ _ _ _ _ _ hc0 hc1 _ _ _ _ _ _ _ _ _
  · have hc1 : ¬cond0_1 (grid0.coords t) := fun h => h1 ((hcond0_1 t).mp h)
    rw [Dat.leavesExact_idle (dat0 V c) 7 t (idleAt0_7 t hc1) (noFlush0_7 t hc1)]
    by_cases h0 : t.val % 5 = 0
    · -- the first K-tile: the accumulator is reset
      have hc0 : cond0_0 (grid0.coords t) := (hcond0_0 t).mpr h0
      by_cases hz : t.val = 0
      · rw [PhiS_castSucc V c t, PhiS_zero V c _ _ hz, PhiA0_eq]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS Hoth]
          · isplitl [HS]
            · unfold owns; iexists _; isplitr
              swap; · iexact HS
              ipureintro
              rw [accAt_reset V c t h0]
              exact sval_A c _ _ _ _ _ _ _ _ _ _ _ _ _ _ _ _ _ _ _ hc0 hc1 _ _ _
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS Hoth]
          · isplitl [HS]
            · unfold owns; iexists _; isplitr
              swap; · iexact HS
              ipureintro
              rw [accAt_reset V c t h0]
              exact sval_A c _ _ _ _ _ _ _ _ _ _ _ _ _ _ _ _ _ _ _ hc0 hc1 _ _ _
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
    · -- a middle K-tile
      have hc0 : ¬cond0_0 (grid0.coords t) := fun h => h0 ((hcond0_0 t).mp h)
      have hz : t.val ≠ 0 := fun h => h0 (by rw [h])
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro
            rw [accAt_step V c t h0]
            exact sval_B c _ _ _ _ _ _ _ _ _ _ _ _ _ _ _ _ _ _ _ hc0 hc1 _ _ _ _
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS, Hoth⟩, Hg⟩
  isplitl [HS Hoth]
  · isplitl [HS]; · iexists _; iexact HS
    iexact Hoth
  iexact Hg

end Cert.Kernel.Enc

end
-- ==== Proof.KDec.lean ====
/-
  The decoder call (the second pallas_call): its grid of 49 points, one per block of 4096 output columns.
  At point `t` the body reads the whole 512 × 256 code matrix, block `t` of the table (rows 4096·t … of
  200000) and block `t` of the bias row, and stores `code · blockᵀ + bias` into the 512 × 4096 output block.
  49 · 4096 overhangs 200000 by 704: at the last point only the first 3392 rows of the table's staging buffer
  (and the first 3392 entries of the bias's) are the array's; the rest holds words nothing names, and only
  the first 3392 columns of the output block are written back.

  This module is generic in the float instance. It states the proof data of the call at a parameter `V`
  (the buffers' contents when the call is entered), the body's triple, and the body obligation in two forms:
  with the output window forgotten (nothing is said of the output block: enough for a frame), and in full
  under the hypothesis `PayCut` — the part of the stored value that is written back does not depend on the
  unnamed words of the two cut input buffers —, which an instance with an exact contraction satisfies.
-/
import proofs.«178345_j73899207295094_2_alg».proof.Proof.Gen.Kernel.Launch
import proofs.«178345_j73899207295094_2_alg».proof.Proof.Gen.Kernel.Skeleton
import proofs.«178345_j73899207295094_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dec

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`): for a block that overhangs
    the array, its part inside. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The code matrix's staging buffer holds the whole matrix at every point, fetched there (the first point) or not:
    its index never moves and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each of the four buffers whole -/

abbrev r1_0 : Rect S512x256 := Rect.unit (s := S512x256) ![0, 0] S512x256.size inb_S512x256_S512x256_0_0
abbrev r1_1 : Rect S4096x256 := Rect.unit (s := S4096x256) ![0, 0] S4096x256.size inb_S4096x256_S4096x256_0_0
abbrev r1_2 : Rect S1x4096 := Rect.unit (s := S1x4096) ![0, 0] S1x4096.size inb_S1x4096_S1x4096_0_0
abbrev r1_3 : Rect S512x4096 := Rect.unit (s := S512x4096) ![0, 0] S512x4096.size inb_S512x4096_S512x4096_0_0

/-- What the body leaves in the output buffer, from what the three input buffers hold: its one store. -/
def out1_3 (x0 : Vec F S512x256 .f32) (x1 : Vec F S4096x256 .f32) (x2 : Vec F S1x4096 .f32) : Vec F S512x4096 .f32 :=
  View.canon [⟨r1_3, k1_pay1 (View.ld x0 r1_0) (View.ld x1 r1_1) (View.ld x2 r1_2)⟩]

/-- The store is of the whole buffer. -/
theorem cover1_3 (p0 : Vec F S512x4096 .f32) (y : S512x4096.Idx) :
    ∃ pc ∈ ([⟨r1_3, p0⟩] : List (View.Piece (Elt F) S512x4096 .f32)), y ∈ pc.1.set :=
  View.cover_of_tiled [⟨r1_3, p0⟩] S512x4096.size (by rfl) y

/-- Whole-buffer accesses read and write the contents themselves: the stored value is the payload of the three
    buffers' contents. -/
theorem out1_3_eq (x0 : Vec F S512x256 .f32) (x1 : Vec F S4096x256 .f32) (x2 : Vec F S1x4096 .f32) :
    out1_3 x0 x1 x2 = k1_pay1 x0 x1 x2 := by
  have hz : (![0, 0] : Fin 2 → Nat) = fun _ => 0 := funext fun a => by fin_cases a <;> rfl
  unfold out1_3
  rw [View.canon_unit_zero hz]
  simp only [View.ld_unit_zero (S := S512x256) hz, View.ld_unit_zero (S := S4096x256) hz, View.ld_unit_zero (S := S1x4096) hz]

/-! ## The body's triple -/

set_option maxHeartbeats 1000000 in
/-- The body on whole staging memrefs, the inputs' at read contents `x0`, `x1`, `x2` and the output's at anything, runs to the
    continuation holding the inputs' as they were and the output's at the payload of the three. -/
theorem sound_kernel1 (c : Dev nD) (E : Set ℕ) (i : grid1.Coords)
    (arg1 : Memref sig .tc .vmem S512x256 .f32) (harg1 : arg1.IsWhole) (arg2 : Memref sig .tc .vmem S4096x256 .f32) (harg2 : arg2.IsWhole)
    (arg3 : Memref sig .tc .vmem S1x4096 .f32) (harg3 : arg3.IsWhole) (arg4 : Memref sig .tc .vmem S512x4096 .f32) (harg4 : arg4.IsWhole)
    (x0 : Vec F S512x256 .f32) (x1 : Vec F S4096x256 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__decoder_kernel i arg1 harg1 arg2 harg2 arg3 harg3 arg4 harg4) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The table's block at point `t` as the proof data name the staging buffer after the body: the block's rows
    inside the array, filled out past the array's end (the last point only) with the zero word. Nothing reads
    the filler: every obligation states this buffer on the rows inside the array only. -/
def tblk (c : Dev nD) (t : Fin cfg1.N) : S4096x256.Idx → Elt F .f32 :=
  win1_1.fill (grid1.coords t) (fun _ => Scalar.ofBits .f32 0#32) (iblk1 V c 1 t)
/-- The bias row's block likewise. -/
def bblk (c : Dev nD) (t : Fin cfg1.N) : S1x4096.Idx → Elt F .f32 :=
  win1_2.fill (grid1.coords t) (fun _ => Scalar.ofBits .f32 0#32) (iblk1 V c 2 t)
/-- The output block: the body's value of the code matrix and the two filled-out blocks. Only its columns inside
    the array are written back, and are all the obligation states. -/
def oblk (c : Dev nD) (t : Fin cfg1.N) : S512x4096.Idx → Elt F .f32 :=
  k1_pay1 (iblk1 V c 0 t) (tblk V c t) (bblk V c t)

/-- The proof data of the decoder call on core `c`: the arrays as the call finds them (`V`); after the body at
    point `t` the code matrix's buffer at the matrix, the table's and the bias's at their blocks, the output's
    at the body's value of them; the invariant the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => tblk V c t
    | ⟨2, _⟩ => bblk V c t
    | ⟨3, _⟩ => oblk V c t
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = tblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = oblk V c t := by dsimp only [dat1]

/-! ## What the body finds in each buffer -/

/-- The code matrix, at every point. -/
theorem before1_0 (c : Dev nD) (t : Fin cfg1.N) (d) : (dat1 V c).before 0 t d = iblk1 V c 0 t :=
  before1_0_of V (dat1 V c) (A_eq1 V c 0) (after1_0 V c) t d

/-- The table's buffer, fetched at every point: the block on the rows inside the array, `d` — anything — past it. -/
theorem before1_1 (c : Dev nD) (t : Fin cfg1.N) (d) :
    (dat1 V c).before 1 t d = win1_1.fill (grid1.coords t) d (iblk1 V c 1 t) := by
  rw [(dat1 V c).before_fetched 1 t (fetch1_1 t)]; unfold Dat.fetched Dat.blockOf iblk1; rw [A_eq1]

/-- The bias row's buffer likewise. -/
theorem before1_2 (c : Dev nD) (t : Fin cfg1.N) (d) :
    (dat1 V c).before 2 t d = win1_2.fill (grid1.coords t) d (iblk1 V c 2 t) := by
  rw [(dat1 V c).before_fetched 2 t (fetch1_2 t)]; unfold Dat.fetched Dat.blockOf iblk1; rw [A_eq1]

/-- The output's buffer is fresh at every point: each point writes its block back. -/
theorem before1_3 (c : Dev nD) (t : Fin cfg1.N) (d) : (dat1 V c).before 3 t d = d :=
  (dat1 V c).before_out_reset 3 rfl t
    (by by_cases h : t.val = 0
        · exact .inl h
        · exact .inr ⟨h, flush1_3 _⟩) d

/-! ## The body obligation -/

/-- The part of the body's value that is written back — its columns inside the array — does not depend on what the
    two cut input buffers hold past the array's end. True of a float instance whose contraction reads, for output
    column `n`, row `n` of the right operand only; not a law of every instance. -/
def PayCut : Prop :=
  ∀ (t : Fin cfg1.N) (x0 : Vec F S512x256 .f32)
    (b1 : (win1_1.xblock (grid1.coords t)).Idx → Elt F .f32) (b2 : (win1_2.xblock (grid1.coords t)).Idx → Elt F .f32)
    (d1 d1' : S4096x256.Idx → Elt F .f32) (d2 d2' : S1x4096.Idx → Elt F .f32),
    win1_3.cut (grid1.coords t) (k1_pay1 x0 (win1_1.fill (grid1.coords t) d1 b1) (win1_2.fill (grid1.coords t) d2 b2))
      = win1_3.cut (grid1.coords t) (k1_pay1 x0 (win1_1.fill (grid1.coords t) d1' b1) (win1_2.fill (grid1.coords t) d2' b2))

/-- The windows a frame forgets: the output's. -/
abbrev fgt1 : Fin cfg1.W → Bool := fun | 0 => false | 1 => false | 2 => false | 3 => true | ⟨_ + 4, h⟩ => absurd h (Nat.not_lt.2 (Nat.le_add_left _ _))

/-- What the body is called with at point `t`, the windows one by one; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- what it returns: the code matrix's buffer as named, the three cut windows' on their parts inside the arrays; -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

/-- and the two with the output window forgotten: handed over at anything, handed back at anything. -/
def bodyPre1F (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

def bodyPost1F (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ X, owns (c : Thread nD τ) (st1_3 t) fullShare X))

/-- The cut input buffers are handed back as found: the block on the part inside the array, the same unnamed words past it. -/
theorem keep1_1 (c : Dev nD) (t : Fin cfg1.N) (d : S4096x256.Idx → Elt F .f32) :
    win1_1.fill (grid1.coords t) d (win1_1.cut (grid1.coords t) (tblk V c t)) = win1_1.fill (grid1.coords t) d (iblk1 V c 1 t) := by
  unfold tblk; rw [Window.cut_fill]
theorem keep1_2 (c : Dev nD) (t : Fin cfg1.N) (d : S1x4096.Idx → Elt F .f32) :
    win1_2.fill (grid1.coords t) d (win1_2.cut (grid1.coords t) (bblk V c t)) = win1_2.fill (grid1.coords t) d (iblk1 V c 2 t) := by
  unfold bblk; rw [Window.cut_fill]

/-- The body at any point, the output window forgotten: the three input buffers hold the matrix and the two blocks
    filled out with unnamed words, so the body's triple applies; they come back as they were. -/
theorem sound_body1F (c : Dev nD) (t : Fin cfg1.N) :
    bodyPre1F V c t ⊢ wp frame (wpE (defs₀ (F := F)) Variants.none c none) Set.univ (bodyAt1 t) (fun _ => bodyPost1F V c t) := by
  unfold bodyPre1F bodyPost1F bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 (F := F) c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; rw [keep1_1]; iexact H1
  isplitl [H2]; · iexists d2; rw [keep1_2]; iexact H2
  iexists _; iexact H3

/-- The body at any point, in full, for an instance whose written-back value ignores the unnamed words (`PayCut`):
    the output buffer holds the value of the buffers as found, which on the columns inside the array is the value
    the proof data name. -/
theorem sound_body1 (hcut : PayCut (F := F)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 (F := F) c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; rw [keep1_1]; iexact H1
  isplitl [H2]; · iexists d2; rw [keep1_2]; iexact H2
  have h : win1_3.cut (grid1.coords t) (out1_3 (iblk1 V c 0 t) (win1_1.fill (grid1.coords t) d1 (iblk1 V c 1 t)) (win1_2.fill (grid1.coords t) d2 (iblk1 V c 2 t)))
      = win1_3.cut (grid1.coords t) (oblk V c t) := by
    rw [out1_3_eq]; unfold oblk tblk bblk; exact hcut t _ _ _ _ _ _ _
  iexists (out1_3 (iblk1 V c 0 t) (win1_1.fill (grid1.coords t) d1 (iblk1 V c 1 t)) (win1_2.fill (grid1.coords t) d2 (iblk1 V c 2 t)))
  rw [win1_3.fill_congr_cut (grid1.coords t) h]; iexact H3

/-- The library's body obligation with the output window forgotten, at every point, for any float instance: what a
    frame of the call takes. -/
theorem body_obligation1_fgt (c : Dev nD) :
    BodyObligationLoose (dat1 (F := F) V c) (defs₀ (F := F)) Variants.none () Set.univ fgt1 := fun t => by
  rw [bigSep_W1, bigSep_W1]
  exact sound_body1F V c t

/-- The library's body obligation in full, at every point, under `PayCut`. -/
theorem body_obligation1_of (hcut : PayCut (F := F)) (c : Dev nD) :
    BodyObligationLoose (dat1 (F := F) V c) (defs₀ (F := F)) Variants.none () Set.univ := fun t => by
  rw [bigSep_W1, bigSep_W1]
  exact sound_body1 V hcut c t

end Cert.Kernel.Dec

end
-- ==== Proof.KEntry.lean ====
/-
  What the first region finds in the unscoped buffers: the launch contents after the host operations before it
  (the index fix-up and the gather of the active embedding rows, the four bias reshapes, the two zero paddings).
-/
import proofs.«178345_j73899207295094_2_alg».proof.Proof.Gen.Kernel.Regions

noncomputable section

namespace Cert.Kernel.Enc

open Idealize.ShloMosaic Idealize.ShloMosaic.TcCoe
open Idealize.SL Idealize.SL.Sem
open Cert.Kernel Cert.Kernel.Gen

variable {F : FTy → Type} [FloatOps F]

/-- The buffers' contents at the first region's entry, read at a TensorCore reference. -/
abbrev E0 (m : (ℓ : Loc nD τ sig) → Buf (Elt F) ℓ) (c : Dev nD) (b : Ref sig .tc) : Buf (Elt F) ((c : Thread nD τ).loc b) :=
  V4 m c (Proc.devRef .tc b)

end Cert.Kernel.Enc

end
-- ==== Proof.KRunGen.lean ====
/-
  The whole program as a chain of segments: four stretches of host operations (the index fix-up, gather and bias
  reshapes; the two zero paddings with their constants), the encoder region, the decoder region.

  Between two segments every unscoped buffer is held at a named valuation. The host stretches advance it by their
  operations; the encoder region replaces its arrays by what its write-backs leave (its inputs as entered, the code
  matrix assembled from the two half blocks); the decoder region's arrays end at SOME contents its write-backs allow
  (for an array it only reads: the contents at entry; for the result: exactly the blocks written back, unless the
  caller chooses to forget them). Every final memory agrees with that last valuation on every unscoped buffer.
-/
import proofs.«178345_j73899207295094_2_alg».proof.Proof.KEnc
import proofs.«178345_j73899207295094_2_alg».proof.Proof.KDec
import proofs.«178345_j73899207295094_2_alg».proof.Proof.KEntry

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Enc
open Idealize.ShloMosaic.Pipeline (RDat)

variable (m : (ℓ : Loc nD τ sig) → Buf (Elt F) ℓ) (ρ : Dev nD → PrngReg)

/-! ## The buffers' contents at the regions' boundaries -/

/-- After the encoder region: its arrays at what the pipeline leaves, every other buffer as entered. -/
def W5 (c : Dev nD) : Valuation τ sig (Elt F) :=
  Pipeline.withArrays spec0 c (V4 m c) fun w => (dat0 (E0 m) c).arrAt w cfg0.N
theorem W5_arr (c : Dev nD) (w : Fin cfg0.W) :
    W5 m c (Proc.devRef .tc (Pipeline.arrRef spec0 w)) = (dat0 (E0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = V4 m c (Proc.devRef .tc b) := by
  unfold W5; exact Pipeline.withArrays_of_ne spec0 c _ _ b hb
/-- The same read at the TensorCore's references: what the decoder region finds. -/
abbrev E1 (c : Dev nD) (b : Ref sig .tc) : Buf (Elt F) ((c : Thread nD τ).loc b) := W5 m c (Proc.devRef .tc b)
theorem hF0 (c : Dev nD) (w : Fin cfg0.W) : (dat0 (E0 m) c).arrAt w cfg0.N = E1 m c (Pipeline.arrRef spec0 w) :=
  (W5_arr m c w).symm
theorem hrest0 (c : Dev nD) : ∀ b, b ∉ Finset.univ.image (Pipeline.arrRef spec0) → E1 m c b = E0 m c b :=
  fun b hb => W5_of_ne m c b fun w e => hb (Finset.mem_image.mpr ⟨w, Finset.mem_univ _, e⟩)

/-- After the decoder region, its arrays at contents `A`: every other buffer as it entered. -/
def W6 (c : Dev nD) (A : (w : Fin cfg1.W) → Buf (Elt F) ((cfg1.win w).arr.view.loc (c : Thread nD τ))) : Valuation τ sig (Elt F) :=
  Pipeline.withArrays spec1 c (W5 m c) A
theorem W6_arr (c : Dev nD) (A) (w : Fin cfg1.W) : W6 m c A (Proc.devRef .tc (Pipeline.arrRef spec1 w)) = A w := by
  unfold W6; exact Pipeline.withArrays_arr spec1 launch1.win.arr_inj c _ _ w
theorem W6_of_ne (c : Dev nD) (A) (b : Ref sig .tc) (hb : ∀ w, Pipeline.arrRef spec1 w ≠ b) :
    W6 m c A (Proc.devRef .tc b) = W5 m c (Proc.devRef .tc b) := by
  unfold W6; exact Pipeline.withArrays_of_ne spec1 c _ _ b hb

/-! ## The proof data -/

/-- The two pipelines' exact proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => Dec.dat1 (E1 m) c

/-- The same read relationally, the decoder's windows `fgt` marks left unnamed. -/
def rdats (fgt : Fin cfg1.W → Bool) : (p : Fin 2) → (c : Dev nD) → RDat τ (Elt F) Unit ℕ (UR sig nD τ) ℕ (Pipeline.pin (pcfgs (F := F)) adm p) c
  | ⟨0, _⟩ => fun c => (dat0 (E0 m) c).toR
  | ⟨1, _⟩ => fun c => (Dec.dat1 (E1 m) c).toRForget fgt

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: the decoder's arrays at some contents their write-backs allow, every unscoped buffer held
    accordingly, the generator register at some state. -/
def Tn (fgt : Fin cfg1.W → Bool) (c : Dev nD) : sProp 𝕄 :=
  iprop(∃ A : (w : Fin cfg1.W) → Buf (Elt F) ((cfg1.win w).arr.view.loc (c : Thread nD τ)),
    ⌜∀ w, (rdats m fgt 1 c).ArrAt w cfg1.N (A w)⌝ ∗ StableHlo.held (c : Thread nD τ) (Pipeline.ucRefs τ sig) (W6 m c A) ∗ ∃ r, prngReg c r)

/-! ## The regions as segments -/

set_option backward.isDefEq.respectTransparency.types false in
/-- The encoder region over the thread state. -/
def reg0 (fgt : Fin cfg1.W → Bool) : RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).toR
  hwaits := RDat.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := RDat.arrays_of_unscopedBufs (p := 0) (pcfgs (F := F)) adm (rdats m fgt) launch0.win launch0.arr_whole c
      ((dat0 (E0 m) c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    rw [show (rdats m fgt 0 c).arraysAt (Pipeline.pin (pcfgs (F := F)) adm 0).N = ((pdats m 0 c).arrays ((pdats m 0 c).arrAt · cfg0.N) : sProp 𝕄)
      from (dat0 (E0 m) c).toR_arraysAt_eq cfg0.N]
    iintro ⟨Ha, HO, HY, Hrest⟩
    imodintro
    isplitl [Ha Hrest]
    · iapply hjoin; isplitl [Ha]; · iexact Ha
      iexact Hrest
    isplitl [HY]; · iexact HY
    unfold RDat.owesAt Pipeline.owesWithin
    icases HO with ⟨%W, -, HO⟩; iexists W; iexact HO

set_option backward.isDefEq.respectTransparency.types false in
/-- The decoder region over the thread state. -/
def reg1 (fgt : Fin cfg1.W → Bool)
    (hb1 : ∀ c, Pipeline.BodyObligationLoose (Dec.dat1 (E1 m) c) (defs₀ (F := F)) Variants.none () Set.univ fgt) :
    RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := RDat.hwaits_of_owed_zero _ _ _ _ L lv 1 fun _ _ => rfl
  pre c := iprop(StableHlo.held (c : Thread nD τ) (Pipeline.ucRefs τ sig) (W5 m c) ∗ R c)
  post c := iprop(Tn m fgt c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := RDat.arrays_of_unscopedBufs (p := 1) (pcfgs (F := F)) adm (rdats m fgt) launch1.win launch1.arr_whole c
      ((Dec.dat1 (E1 m) c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun A => Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W6 m c A (Proc.devRef .tc b)) A (fun w => (W6_arr m c A w).symm)
      (fun b hb => W6_of_ne m c A b fun w e => hb (Finset.mem_image.mpr ⟨w, Finset.mem_univ _, e⟩))
    simp only [Pipeline.unscopedBufs_held] at hjoin
    unfold RDat.arraysAt
    iintro ⟨Ha, HO, HY, Hrest⟩
    ihave Ha' := (BI.bigSep_exists_pi Finset.univ _) $$ Ha
    icases Ha' with ⟨%A, Ha⟩
    ihave Ha'' := (BI.bigSep_pure_sep Finset.univ _ _) $$ Ha
    icases Ha'' with ⟨%hA, Ha⟩
    imodintro
    isplitr [HO]
    · unfold Tn
      iexists A
      isplitr; · ipureintro; exact fun w => hA w (Finset.mem_univ w)
      isplitl [Ha Hrest]
      · have hj := hjoin A
        unfold Pipeline.Dat.arrays at hj
        iapply hj; isplitl [Ha]; · iexact Ha
        iexact Hrest
      iexact HY
    unfold RDat.owesAt Pipeline.owesWithin
    icases HO with ⟨%W, -, HO⟩; iexists W; iexact HO

/-! ## The program as segments, and the launch -/

abbrev segs (fgt : Fin cfg1.W → Bool)
    (hb1 : ∀ c, Pipeline.BodyObligationLoose (Dec.dat1 (E1 m) c) (defs₀ (F := F)) Variants.none () Set.univ fgt) :
    List (RDat.Seg (pcfgs (F := F)) adm (rdats m fgt) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m fgt),
    .region (reg1 m fgt hb1) ]

set_option backward.isDefEq.respectTransparency.types false in
/-- From any memory with zero counters every weakly fair execution terminates, and on every core the final memory
    holds, at every unscoped buffer, the last boundary's contents: the decoder's arrays at some contents `A` their
    write-backs allow, everything else as the encoder region left it. -/
theorem run_gen (fgt : Fin cfg1.W → Bool)
    (hb1 : ∀ c, Pipeline.BodyObligationLoose (Dec.dat1 (E1 m) c) (defs₀ (F := F)) Variants.none () Set.univ fgt) :
    θ_run defs (onTc (τ := τ) (main (F := F))) ⟨m, fun _ => 0, ρ⟩ (fun r => ∀ c : Dev nD,
      ∃ A : (w : Fin cfg1.W) → Buf (Elt F) ((cfg1.win w).arr.view.loc (c : Thread nD τ)),
        (∀ w, (rdats m fgt 1 c).ArrAt w cfg1.N (A w))
        ∧ ∀ b ∈ Pipeline.ucRefs τ sig, r.2.mem (((c : Thread nD τ)).1, b) = W6 m c A b) :=
  RDat.θ_run_regions_kit (pcfgs (F := F)) adm (rdats m fgt) () cellOf_inj emb₁ defs₀ 𝒱₀ L lv m ρ main (segs m fgt hb1)
    (fun c Q => by
      rewrite [main_chain c, RDat.Seg.run_eq_chain,
        show (segs m fgt hb1).map RDat.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()) ] from rfl]
      exact .rfl)
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tn m fgt)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ A : (w : Fin cfg1.W) → Buf (Elt F) ((cfg1.win w).arr.view.loc (c : Thread nD τ)),
        (∀ w, (rdats m fgt 1 c).ArrAt w cfg1.N (A w))
        ∧ ∀ b ∈ Pipeline.ucRefs τ sig, s.mem (((c : Thread nD τ)).1, b) = W6 m c A b)
    (hfin := fun c s' => by
      unfold Tn
      iintro ⟨⟨%A, %hA, Hh, -⟩, HSI⟩
      unfold StableHlo.held
      ihave Hr := (pointsTo_read_all (Pipeline.ucRefs τ sig) (fun b => (((c : Thread nD τ)).1, b)) (W6 m c A) s') $$ [Hh HSI]
      · isplitl [Hh] <;> iassumption
      icases Hr with ⟨%h, HSI⟩
      imodintro
      isplitr; · ipureintro; exact ⟨A, hA, h⟩
      iexact HSI)
    (hQ := fun _ h => h)

end Cert.Kernel.Run

end
-- ==== Proof.KRunFrame.lean ====
/-
  What the whole-program run says of the arguments and of the result.

  The run ends with every unscoped buffer at the last boundary's contents. An argument that neither region windows
  (the sparse input, the index vector, the embedding table, the three bias vectors of the encoder, the decoder's bias)
  is written by no host operation either, so it reads back its launch contents through every boundary. The two encoder
  weight matrices are input arrays of the encoder region and the decoder's table is an input array of the decoder
  region: an input array is never written back, so it holds what it held when its region was entered, which again is
  the launch contents. The result array is the decoder region's output array: it holds exactly the blocks written back.
-/
import proofs.«178345_j73899207295094_2_alg».proof.Proof.KRunGen

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open Cert.Kernel.Enc
open Idealize.ShloMosaic.Pipeline (RDat)

variable {F : FTy → Type} [FloatOps F]

variable (m : (ℓ : Loc nD τ sig) → Buf (Elt F) ℓ) (ρ : Dev nD → PrngReg)

/-! ## A buffer no host operation writes holds its launch contents at the encoder region's entry -/

theorem V4_to_m (c : Dev nD) (r : Ref sig .tc) (h0 : r ∉ hostOps0_W) (h1 : r ∉ hostOps0_1_W) (h2 : r ∉ hostOps0_2_W)
    (h3 : r ∉ hostOps0_3_W) : V4 m c r = m ((c : Thread nD τ).loc r) :=
  (V4_of m c r h3).trans <| (V3_of m c r h2).trans <| (V2_of m c r h1).trans <| (V1_of m c r h0).trans rfl

section LastBoundary

variable (fgt : Fin cfg1.W → Bool) (c : Dev nD)
  (A : (w : Fin cfg1.W) → Buf (Elt F) ((cfg1.win w).arr.view.loc (c : Thread nD τ)))

/-! ## The arguments neither region windows -/

theorem W6_main_arg0 : W6 m c A (Proc.devRef .tc main_arg0) = m ((c : Thread nD τ).loc main_arg0) :=
  (W6_of_ne m c A main_arg0 (by decide)).trans <| (W5_of_ne m c main_arg0 (by decide)).trans
    (V4_to_m m c main_arg0 (by decide) (by decide) (by decide) (by decide))
theorem W6_main_arg1 : W6 m c A (Proc.devRef .tc main_arg1) = m ((c : Thread nD τ).loc main_arg1) :=
  (W6_of_ne m c A main_arg1 (by decide)).trans <| (W5_of_ne m c main_arg1 (by decide)).trans
    (V4_to_m m c main_arg1 (by decide) (by decide) (by decide) (by decide))
theorem W6_main_arg2 : W6 m c A (Proc.devRef .tc main_arg2) = m ((c : Thread nD τ).loc main_arg2) :=
  (W6_of_ne m c A main_arg2 (by decide)).trans <| (W5_of_ne m c main_arg2 (by decide)).trans
    (V4_to_m m c main_arg2 (by decide) (by decide) (by decide) (by decide))
theorem W6_main_arg3 : W6 m c A (Proc.devRef .tc main_arg3) = m ((c : Thread nD τ).loc main_arg3) :=
  (W6_of_ne m c A main_arg3 (by decide)).trans <| (W5_of_ne m c main_arg3 (by decide)).trans
    (V4_to_m m c main_arg3 (by decide) (by decide) (by decide) (by decide))
theorem W6_main_arg5 : W6 m c A (Proc.devRef .tc main_arg5) = m ((c : Thread nD τ).loc main_arg5) :=
  (W6_of_ne m c A main_arg5 (by decide)).trans <| (W5_of_ne m c main_arg5 (by decide)).trans
    (V4_to_m m c main_arg5 (by decide) (by decide) (by decide) (by decide))
theorem W6_main_arg7 : W6 m c A (Proc.devRef .tc main_arg7) = m ((c : Thread nD τ).loc main_arg7) :=
  (W6_of_ne m c A main_arg7 (by decide)).trans <| (W5_of_ne m c main_arg7 (by decide)).trans
    (V4_to_m m c main_arg7 (by decide) (by decide) (by decide) (by decide))
theorem W6_main_arg9 : W6 m c A (Proc.devRef .tc main_arg9) = m ((c : Thread nD τ).loc main_arg9) :=
  (W6_of_ne m c A main_arg9 (by decide)).trans <| (W5_of_ne m c main_arg9 (by decide)).trans
    (V4_to_m m c main_arg9 (by decide) (by decide) (by decide) (by decide))

/-! ## The encoder's two weight matrices: input arrays of the encoder region -/

theorem W6_main_arg4 : W6 m c A (Proc.devRef .tc main_arg4) = m ((c : Thread nD τ).loc main_arg4) :=
  calc W6 m c A (Proc.devRef .tc main_arg4)
    _ = W5 m c (Proc.devRef .tc main_arg4) := W6_of_ne m c A main_arg4 (by decide)
    _ = (dat0 (E0 m) c).arrAt 3 cfg0.N := W5_arr m c 3
    _ = E0 m c main_arg4 := ((dat0 (E0 m) c).arrAt_in 3 rfl _).trans (A_eq0 (E0 m) c 3)
    _ = m ((c : Thread nD τ).loc main_arg4) := V4_to_m m c main_arg4 (by decide) (by decide) (by decide) (by decide)

theorem W6_main_arg6 : W6 m c A (Proc.devRef .tc main_arg6) = m ((c : Thread nD τ).loc main_arg6) :=
  calc W6 m c A (Proc.devRef .tc main_arg6)
    _ = W5 m c (Proc.devRef .tc main_arg6) := W6_of_ne m c A main_arg6 (by decide)
    _ = (dat0 (E0 m) c).arrAt 5 cfg0.N := W5_arr m c 5
    _ = E0 m c main_arg6 := ((dat0 (E0 m) c).arrAt_in 5 rfl _).trans (A_eq0 (E0 m) c 5)
    _ = m ((c : Thread nD τ).loc main_arg6) := V4_to_m m c main_arg6 (by decide) (by decide) (by decide) (by decide)

/-! ## The decoder's table: an input array of the decoder region -/

theorem W6_main_arg8 (hA : (rdats m fgt 1 c).ArrAt 1 cfg1.N (A 1)) :
    W6 m c A (Proc.devRef .tc main_arg8) = m ((c : Thread nD τ).loc main_arg8) :=
  calc W6 m c A (Proc.devRef .tc main_arg8)
    _ = A 1 := W6_arr m c A 1
    _ = (Dec.dat1 (E1 m) c).A 1 :=
      Eq.mp (congrFun (((Dec.dat1 (E1 m) c).toRForget fgt).ArrAt_in 1 rfl cfg1.N) (A 1)) hA
    _ = E1 m c main_arg8 := Dec.A_eq1 (E1 m) c 1
    _ = V4 m c (Proc.devRef .tc main_arg8) := W5_of_ne m c main_arg8 (by decide)
    _ = m ((c : Thread nD τ).loc main_arg8) := V4_to_m m c main_arg8 (by decide) (by decide) (by decide) (by decide)

/-! ## The result: the decoder region's output array -/

theorem W6_main_v14 (h3 : fgt 3 = false) (hA : (rdats m fgt 1 c).ArrAt 3 cfg1.N (A 3)) :
    W6 m c A (Proc.devRef .tc main_v14) = (Dec.dat1 (E1 m) c).arrAt 3 cfg1.N :=
  (W6_arr m c A 3).trans (((Dec.dat1 (E1 m) c).toRForget_arrAt_iff h3 cfg1.N (A 3)).mp hA)

end LastBoundary

/-! ## The frame and the result -/

/-- Every weakly fair execution terminates, and the ten argument arrays end as launched. -/
theorem frame_gen (fgt : Fin cfg1.W → Bool)
    (hb1 : ∀ c, Pipeline.BodyObligationLoose (Dec.dat1 (E1 m) c) (defs₀ (F := F)) Variants.none () Set.univ fgt) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨A, hA, hm⟩ := h c
    exact ⟨(hm _ (mem_uc main_arg0 (by decide))).trans (W6_main_arg0 m c A),
      (hm _ (mem_uc main_arg1 (by decide))).trans (W6_main_arg1 m c A),
      (hm _ (mem_uc main_arg2 (by decide))).trans (W6_main_arg2 m c A),
      (hm _ (mem_uc main_arg3 (by decide))).trans (W6_main_arg3 m c A),
      (hm _ (mem_uc main_arg4 (by decide))).trans (W6_main_arg4 m c A),
      (hm _ (mem_uc main_arg5 (by decide))).trans (W6_main_arg5 m c A),
      (hm _ (mem_uc main_arg6 (by decide))).trans (W6_main_arg6 m c A),
      (hm _ (mem_uc main_arg7 (by decide))).trans (W6_main_arg7 m c A),
      (hm _ (mem_uc main_arg8 (by decide))).trans (W6_main_arg8 m fgt c A (hA 1)),
      (hm _ (mem_uc main_arg9 (by decide))).trans (W6_main_arg9 m c A)⟩)
    (run_gen m ρ fgt hb1)

/-- The same run with the result named: when the output window is not forgotten, the result array ends holding the
    decoder region's written-back blocks, and the ten argument arrays end as launched. -/
theorem result_gen (fgt : Fin cfg1.W → Bool)
    (hb1 : ∀ c, Pipeline.BodyObligationLoose (Dec.dat1 (E1 m) c) (defs₀ (F := F)) Variants.none () Set.univ fgt)
    (h3 : fgt 3 = false) :
    θ_run defs (onTc (τ := τ) (main (F := F))) ⟨m, fun _ => 0, ρ⟩ (fun r => ∀ c : Dev nD,
      r.2.mem ((c.tc : Thread nD τ).loc main_v14) = (Dec.dat1 (E1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨A, hA, hm⟩ := h c
    exact ⟨(hm _ (mem_uc main_v14 (by decide))).trans (W6_main_v14 m fgt c A h3 (hA 3)),
      (hm _ (mem_uc main_arg0 (by decide))).trans (W6_main_arg0 m c A),
      (hm _ (mem_uc main_arg1 (by decide))).trans (W6_main_arg1 m c A),
      (hm _ (mem_uc main_arg2 (by decide))).trans (W6_main_arg2 m c A),
      (hm _ (mem_uc main_arg3 (by decide))).trans (W6_main_arg3 m c A),
      (hm _ (mem_uc main_arg4 (by decide))).trans (W6_main_arg4 m c A),
      (hm _ (mem_uc main_arg5 (by decide))).trans (W6_main_arg5 m c A),
      (hm _ (mem_uc main_arg6 (by decide))).trans (W6_main_arg6 m c A),
      (hm _ (mem_uc main_arg7 (by decide))).trans (W6_main_arg7 m c A),
      (hm _ (mem_uc main_arg8 (by decide))).trans (W6_main_arg8 m fgt c A (hA 1)),
      (hm _ (mem_uc main_arg9 (by decide))).trans (W6_main_arg9 m c A)⟩)
    (run_gen m ρ fgt hb1)

end Cert.Kernel.Run

end
-- ==== Proof.EncDefs.lean ====
/-
  The first region (the encoder) as pure functions of what it finds in its operands' arrays.

  The grid is 2 × 5: point `t = 5·h + k` works on batch half `h` (256 rows) and K-tile `k` (4096 columns of the
  padded input against 4096 padded embedding rows). A 256 × 256 accumulator is carried from point to point:
  it restarts from zero at `k = 0` and gains one tile's product at every point (`accAt`); at `k = 4` the three
  selu layers are applied to it and the result is the half's output block (`outAt`).
-/
import proofs.«178345_j73899207295094_2_alg».proof.Proof.Gen.KernelIdeal.Launch
import proofs.«178345_j73899207295094_2_alg».proof.Proof.Gen.KernelIdeal.Skeleton
import proofs.«178345_j73899207295094_2_alg».proof.Proof.Gen.KernelIdeal.Points

noncomputable section

namespace Cert.KernelIdeal.Enc

open Idealize.ShloMosaic Idealize.ShloMosaic.TcCoe
open Idealize.SL Idealize.SL.Sem
open Cert.KernelIdeal Cert.KernelIdeal.Gen

variable {F : FTy → Type} [FloatOps F]

-- the buffers' contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after point `n`: one tile's product added to zero at the first K-tile of a batch half
    (`n ≡ 0 mod 5`), to what the point before left otherwise. -/
def accAt (c : Dev nD) : (n : ℕ) → n < cfg0.N → Vec F S256x256 .f32
  | 0, h => k0_pay2 (iblk0 V c 0 ⟨0, h⟩) (iblk0 V c 1 ⟨0, h⟩) (k0_pay1 (F := F))
  | n + 1, h =>
    if (n + 1) % 5 = 0 then k0_pay2 (iblk0 V c 0 ⟨n + 1, h⟩) (iblk0 V c 1 ⟨n + 1, h⟩) (k0_pay1 (F := F))
    else k0_pay2 (iblk0 V c 0 ⟨n + 1, h⟩) (iblk0 V c 1 ⟨n + 1, h⟩) (accAt c n (Nat.lt_of_succ_lt h))

/-- The three selu layers applied to the accumulator after point `t` (the output block, where `t ≡ 4 mod 5`). -/
def outAt (c : Dev nD) (t : Fin cfg0.N) : Vec F S256x256 .f32 :=
  k0_pay3 (k0_pay4 (accAt V c t.val t.isLt) (iblk0 V c 2 t) (iblk0 V c 3 t) (iblk0 V c 4 t) (iblk0 V c 5 t)) (iblk0 V c 6 t)

theorem accAt_reset (c : Dev nD) (t : Fin cfg0.N) (h0 : t.val % 5 = 0) :
    accAt V c t.val t.isLt = k0_pay2 (iblk0 V c 0 t) (iblk0 V c 1 t) (k0_pay1 (F := F)) := by
  obtain ⟨n, hn⟩ := t
  cases n with
  | zero => rfl
  | succ n => exact if_pos h0

theorem accAt_step (c : Dev nD) (t : Fin cfg0.N) (h0 : ¬t.val % 5 = 0) :
    accAt V c t.val t.isLt = k0_pay2 (iblk0 V c 0 t) (iblk0 V c 1 t)
      (accAt V c (t.val - 1) (Nat.lt_of_le_of_lt (Nat.sub_le _ _) t.isLt)) := by
  obtain ⟨n, hn⟩ := t
  cases n with
  | zero => exact absurd (Nat.zero_mod _) h0
  | succ n => exact if_neg h0

end Cert.KernelIdeal.Enc

end
-- ==== Proof.EncSched.lean ====
/-
  The first region's schedule facts: which of its two conditionals a point takes, where its output window is idle,
  that every input's staging buffer holds the input's block at every point, and the region's invariant spelt out.
-/
import proofs.«178345_j73899207295094_2_alg».proof.Proof.EncDefs
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Every input's staging buffer holds its block -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditionals over the grid -/

/-- "This is the first K-tile of the batch half": the accumulator is reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 5 = 0 :=
  (by decide +kernel : ∀ t : Fin grid0.N, cond0_0 (grid0.coords t) ↔ t.val % 5 = 0)

/-- "This is the last K-tile of the batch half": the three layers are applied and the output block stored. -/
abbrev cond0_1 (i : grid0.Coords) : Prop := k0_cond2 i = 1#1
theorem hcond0_1 : ∀ t : Fin cfg0.N, cond0_1 (grid0.coords t) ↔ t.val % 5 = 4 :=
  (by decide +kernel : ∀ t : Fin grid0.N, cond0_1 (grid0.coords t) ↔ t.val % 5 = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
/-- Away from the last K-tile the output window is idle and not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7 : ∀ t : Fin cfg0.N, cond0_1 (grid0.coords t) → cfg0.idle 7 (grid0.coords t) = false := by decide +kernel

/-! ## The staging memrefs at a point, and the accumulator's buffer -/

abbrev ms0_0 (t : Fin cfg0.N) : Memref sig .tc .vmem S256x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
/-- The accumulator's buffer. -/
abbrev scM : Memref sig .tc .vmem S256x256 .f32 := Memref.whole cc0_scratch0

/-- The scoped buffers of the other region, each at some contents: they ride through this region untouched. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The class invariant spelt out: the accumulator's buffer at some contents, the other region's scoped buffers,
    the generator register at some state. -/
theorem PhiA0_eq (c : Dev nD) :
    (Pipeline.ΦA spec0 c : sProp 𝕄)
      = iprop(iprop((∃ d, owns (c : Thread nD τ) scM fullShare d) ∗ otherScoped (F := F) c) ∗ (∃ r, prngReg c r)) := by
  unfold Pipeline.ΦA otherScoped; rw [scopedRest0_eq]; simp only [scM, owns_whole]; try rfl

end Cert.KernelIdeal.Enc

end
-- ==== Proof.EncRunA.lean ====
/-
  The encoder body at the first K-tile of a batch half: the accumulator is reset, then gains the tile's product.
  What the body's stores leave in the accumulator's buffer is found by running the body.
-/
import proofs.«178345_j73899207295094_2_alg».proof.Proof.EncSched

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging buffers, the two matrix operands' at their contents and the accumulator's at anything, the body
    runs to the end with the operands untouched and the accumulator's buffer holding its stores `LS`. -/
noncomputable def kernelRun0_A (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (hc0 : cond0_0 i) (hc1 : ¬cond0_1 i)
    (x0 : Vec F S256x4096 .f32) (x1 : Vec F S4096x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ (∃ d, owns (c : Thread nD τ) arg10 fullShare d)
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Enc

end
-- ==== Proof.EncRunB.lean ====
/-
  The encoder body at a middle K-tile: the accumulator gains the tile's product, nothing else is touched.
-/
import proofs.«178345_j73899207295094_2_alg».proof.Proof.EncRunA

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole staging buffers, the two matrix operands' at their contents and the accumulator's at what the point
    before left (`xs`), the body runs to the end with the operands untouched and the accumulator's buffer holding its
    stores `LS`. -/
noncomputable def kernelRun0_B (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (hc0 : ¬cond0_0 i) (hc1 : ¬cond0_1 i)
    (x0 : Vec F S256x4096 .f32) (x1 : Vec F S4096x256 .f32) (xs : Vec F S256x256 .f32) :
    { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg10 fullShare xs
            ∗ (iprop(owns (c : Thread nD τ) arg2 fullShare x0 ∗ owns (c : Thread nD τ) arg3 fullShare x1 ∗ (∃ f, arg10.view.loc (c : Thread nD τ) ↦[arg10.view.set]{fullShare} arg10.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10) K } := by
  refine ⟨?_, fun E K => ?run⟩
  case run =>
    simp only [cc0__encoder_kernel_eq_skeleton]; unfold cc0__encoder_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Enc

end
-- ==== Proof.EncRunC.lean ====
/-
  The encoder body at the last K-tile of a batch half: the accumulator gains the tile's product, the three selu
  layers are applied to it, and the result is stored whole into the output block.
-/
import proofs.«178345_j73899207295094_2_alg».proof.Proof.EncRunB

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- On whole staging buffers, the seven operands' at their contents, the output's at anything and the accumulator's at
    what the point before left (`xs`), the body runs to the end with the operands untouched, the output's buffer holding
    its stores `L7` and the accumulator's its stores `LS`. -/
noncomputable def kernelRun0_C (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole) (hc0 : ¬cond0_0 i) (hc1 : cond0_1 i)
    (x0 : Vec F S256x4096 .f32) (x1 : Vec F S4096x256 .f32) (x2 : Vec F S1x256 .f32) (x3 : Vec F S512x256 .f32) (x4 : Vec F S1x512 .f32) (x5 : Vec F S256x512 .f32) (x6 : Vec F S1x256 .f32) (xs : Vec F S256x256 .f32) :
    Σ' (L7 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ owns (c : Thread nD τ) arg10 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E (cc0__encoder_kernel i arg2 harg2 arg3 harg3 arg4 harg4 arg5 harg5 arg6 harg6 arg7 harg7 arg8 harg8 arg9 harg9 arg10 harg10) K } := by
  refine ⟨?_, ?_, fun E K => ?run⟩
  case run =>
    simp only [cc0__encoder_kernel_eq_skeleton]; unfold cc0__encoder_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact HS

end Cert.KernelIdeal.Enc

end
-- ==== Proof.EncVals.lean ====
/-
  What the encoder body's stores amount to. Every store of the body covers its whole buffer, so a buffer ends at the
  last store's value: the accumulator at "previous contents (zero after a reset) plus the tile's product", the
  output block at the three selu layers of the new accumulator.
-/
import proofs.«178345_j73899207295094_2_alg».proof.Proof.EncRunC
import Idealize.ShloMosaic.Lib.Pipeline.Value

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

section
variable (c : Dev nD) (i : grid0.Coords) (arg2 : Memref sig .tc .vmem S256x4096 .f32) (harg2 : arg2.IsWhole) (arg3 : Memref sig .tc .vmem S4096x256 .f32) (harg3 : arg3.IsWhole) (arg4 : Memref sig .tc .vmem S1x256 .f32) (harg4 : arg4.IsWhole) (arg5 : Memref sig .tc .vmem S512x256 .f32) (harg5 : arg5.IsWhole) (arg6 : Memref sig .tc .vmem S1x512 .f32) (harg6 : arg6.IsWhole) (arg7 : Memref sig .tc .vmem S256x512 .f32) (harg7 : arg7.IsWhole) (arg8 : Memref sig .tc .vmem S1x256 .f32) (harg8 : arg8.IsWhole) (arg9 : Memref sig .tc .vmem S256x256 .f32) (harg9 : arg9.IsWhole) (arg10 : Memref sig .tc .vmem S256x256 .f32) (harg10 : arg10.IsWhole)

/-! ## First K-tile -/

theorem scover_A (hc0 : cond0_0 i) (hc1 : ¬cond0_1 i) (x0 : Vec F S256x4096 .f32) (x1 : Vec F S4096x256 .f32) (y : S256x256.Idx) :
    ∃ pc ∈ (kernelRun0_A c i arg2 harg2 arg3 harg3 arg4 harg4 arg5 harg5 arg6 harg6 arg7 harg7 arg8 harg8 arg9 harg9 arg10 harg10 hc0 hc1 x0 x1).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1).1 S256x256.size (by sl_kernel_rfl) y

theorem sval_A (hc0 : cond0_0 i) (hc1 : ¬cond0_1 i) (x0 : Vec F S256x4096 .f32) (x1 : Vec F S4096x256 .f32) (f) :
    arg10.view.read (Elt F) (arg10.view.writes (Elt F) f (kernelRun0_A c i arg2 harg2 arg3 harg3 arg4 harg4 arg5 harg5 arg6 harg6 arg7 harg7 arg8 harg8 arg9 harg9 arg10 harg10 hc0 hc1 x0 x1).1) = k0_pay2 x0 x1 (k0_pay1 (F := F)) := by
  rw [View.read_writes_eq_canon _ _ _ (scover_A c i arg2 harg2 arg3 harg3 arg4 harg4 arg5 harg5 arg6 harg6 arg7 harg7 arg8 harg8 arg9 harg9 arg10 harg10 hc0 hc1 x0 x1)]
  unfold kernelRun0_A; dsimp only
  sl_unfold_words
  rw [View.canon_cons_unit_zero hz2, View.readCov_unit_zero _ hz2]
  simp only [View.readAt_eq_ld, harg2.read_unread, harg3.read_unread, harg4.read_unread, harg5.read_unread, harg6.read_unread, harg7.read_unread, harg8.read_unread, harg10.read_unread, View.ld_unit_zero (S := S256x4096) hz2, View.ld_unit_zero (S := S4096x256) hz2, View.ld_unit_zero (S := S256x256) hz2, View.ld_unit_zero (S := S1x256) hz2, View.ld_unit_zero (S := S512x256) hz2, View.ld_unit_zero (S := S1x512) hz2, View.ld_unit_zero (S := S256x512) hz2]

/-! ## Middle K-tiles -/

theorem scover_B (hc0 : ¬cond0_0 i) (hc1 : ¬cond0_1 i) (x0 : Vec F S256x4096 .f32) (x1 : Vec F S4096x256 .f32) (xs : Vec F S256x256 .f32) (y : S256x256.Idx) :
    ∃ pc ∈ (kernelRun0_B c i arg2 harg2 arg3 harg3 arg4 harg4 arg5 harg5 arg6 harg6 arg7 harg7 arg8 harg8 arg9 harg9 arg10 harg10 hc0 hc1 x0 x1 xs).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 xs).1 S256x256.size (by sl_kernel_rfl) y

theorem sval_B (hc0 : ¬cond0_0 i) (hc1 : ¬cond0_1 i) (x0 : Vec F S256x4096 .f32) (x1 : Vec F S4096x256 .f32) (xs : Vec F S256x256 .f32) (f) :
    arg10.view.read (Elt F) (arg10.view.writes (Elt F) f (kernelRun0_B c i arg2 harg2 arg3 harg3 arg4 harg4 arg5 harg5 arg6 harg6 arg7 harg7 arg8 harg8 arg9 harg9 arg10 harg10 hc0 hc1 x0 x1 xs).1) = k0_pay2 x0 x1 xs := by
  rw [View.read_writes_eq_canon _ _ _ (scover_B c i arg2 harg2 arg3 harg3 arg4 harg4 arg5 harg5 arg6 harg6 arg7 harg7 arg8 harg8 arg9 harg9 arg10 harg10 hc0 hc1 x0 x1 xs)]
  unfold kernelRun0_B; dsimp only
  rw [View.canon_unit_zero hz2]
  simp only [View.readAt_eq_ld, harg2.read_unread, harg3.read_unread, harg10.read_unread, View.ld_unit_zero (S := S256x4096) hz2, View.ld_unit_zero (S := S4096x256) hz2, View.ld_unit_zero (S := S256x256) hz2]

/-! ## Last K-tile -/

section
variable (hc0 : ¬cond0_0 i) (hc1 : cond0_1 i) (x0 : Vec F S256x4096 .f32) (x1 : Vec F S4096x256 .f32) (x2 : Vec F S1x256 .f32) (x3 : Vec F S512x256 .f32) (x4 : Vec F S1x512 .f32) (x5 : Vec F S256x512 .f32) (x6 : Vec F S1x256 .f32) (xs : Vec F S256x256 .f32)

theorem scover_C (y : S256x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs).2.1 S256x256.size (by sl_kernel_rfl) y

theorem ocover_C (y : S256x256.Idx) :
    ∃ pc ∈ (kernelRun0_C c i arg2 harg2 arg3 harg3 arg4 harg4 arg5 harg5 arg6 harg6 arg7 harg7 arg8 harg8 arg9 harg9 arg10 harg10 hc0 hc1 x0 x1 x2 x3 x4 x5 x6 xs).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 x5 x6 xs).1 S256x256.size (by sl_kernel_rfl) y

theorem sval_C (f) :
    arg10.view.read (Elt F) (arg10.view.writes (Elt F) f (kernelRun0_C c i arg2 harg2 arg3 harg3 arg4 harg4 arg5 harg5 arg6 harg6 arg7 harg7 arg8 harg8 arg9 harg9 arg10 harg10 hc0 hc1 x0 x1 x2 x3 x4 x5 x6 xs).2.1) = k0_pay2 x0 x1 xs := by
  rw [View.read_writes_eq_canon _ _ _ (scover_C c i arg2 harg2 arg3 harg3 arg4 harg4 arg5 harg5 arg6 harg6 arg7 harg7 arg8 harg8 arg9 harg9 arg10 harg10 hc0 hc1 x0 x1 x2 x3 x4 x5 x6 xs)]
  unfold kernelRun0_C; dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S256x4096) hz2, View.ld_unit_zero (S := S4096x256) hz2, View.ld_unit_zero (S := S256x256) hz2, View.ld_unit_zero (S := S1x256) hz2, View.ld_unit_zero (S := S512x256) hz2, View.ld_unit_zero (S := S1x512) hz2, View.ld_unit_zero (S := S256x512) hz2]

theorem oval_C (f) :
    arg9.view.read (Elt F) (arg9.view.writes (Elt F) f (kernelRun0_C c i arg2 harg2 arg3 harg3 arg4 harg4 arg5 harg5 arg6 harg6 arg7 harg7 arg8 harg8 arg9 harg9 arg10 harg10 hc0 hc1 x0 x1 x2 x3 x4 x5 x6 xs).1)
      = k0_pay3 (k0_pay4 (k0_pay2 x0 x1 xs) x2 x3 x4 x5) x6 := by
  rw [View.read_writes_eq_canon _ _ _ (ocover_C c i arg2 harg2 arg3 harg3 arg4 harg4 arg5 harg5 arg6 harg6 arg7 harg7 arg8 harg8 arg9 harg9 arg10 harg10 hc0 hc1 x0 x1 x2 x3 x4 x5 x6 xs)]
  unfold kernelRun0_C; dsimp only
  sl_unfold_words
  rw [View.canon_unit_zero hz2, View.readCov_unit_zero _ hz2]
  simp only [View.readAt_eq_ld, harg2.read_unread, harg3.read_unread, harg4.read_unread, harg5.read_unread, harg6.read_unread, harg7.read_unread, harg8.read_unread, harg10.read_unread, View.ld_unit_zero (S := S256x4096) hz2, View.ld_unit_zero (S := S4096x256) hz2, View.ld_unit_zero (S := S256x256) hz2, View.ld_unit_zero (S := S1x256) hz2, View.ld_unit_zero (S := S512x256) hz2, View.ld_unit_zero (S := S1x512) hz2, View.ld_unit_zero (S := S256x512) hz2]

end
end

end Cert.KernelIdeal.Enc

end
-- ==== Proof.Enc.lean ====
/-
  The first region's proof data and body obligation.

  After point `t` every input window's staging buffer still holds the input's block; the accumulator's buffer holds
  `accAt` (carried in the region's invariant from one point to the next, and forgotten again at the region's end);
  the output window's buffer holds `outAt` at the last K-tile of a batch half and is idle — handed back untouched,
  not written back — at every other point.
-/
import proofs.«178345_j73899207295094_2_alg».proof.Proof.EncVals

set_option maxRecDepth 16384

noncomputable section

namespace Cert.KernelIdeal.Enc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region's invariant before point `n`: at the start the class's (every scoped buffer at anything); afterwards the
    accumulator's buffer at what the point before left, the other region's scoped buffers, the generator register. -/
def PhiS (c : Dev nD) : (n : ℕ) → n ≤ cfg0.N → sProp 𝕄
  | 0, _ => Pipeline.ΦA spec0 c
  | n + 1, hn => iprop(iprop(owns (c : Thread nD τ) scM fullShare (accAt V c n hn) ∗ otherScoped (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM fullShare (accAt V c n hn) ∗ otherScoped (F := F) c) ∗ (∃ r, prngReg c r)) := rfl

theorem PhiS_pos (c : Dev nD) (n : ℕ) (h : n ≤ cfg0.N) (hz : n ≠ 0) :
    PhiS V c n h = iprop(iprop(owns (c : Thread nD τ) scM fullShare (accAt V c (n - 1) (by omega)) ∗ otherScoped (F := F) c) ∗ (∃ r, prngReg c r)) := by
  cases n with
  | zero => exact absurd rfl hz
  | succ n => rfl

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = outAt V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- An input window is never idle: what the body leaves in its buffer is the block, exactly. -/
theorem leaves_in (c : Dev nD) (t : Fin cfg0.N) (w : Fin cfg0.W) (hl : cfg0.idle w (grid0.coords t) = false) :
    (dat0 V c).leavesExact w t = owns (c : Thread nD τ) ((cfg0.win w).stage (cfg0.slots t w)) fullShare ((dat0 V c).after w t) := by
  unfold Dat.leavesExact; rw [hl]; try rfl

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t
    ∗ (dat0 V c).leavesExact 4 t ∗ (dat0 V c).leavesExact 5 t ∗ (dat0 V c).leavesExact 6 t ∗ (dat0 V c).leavesExact 7 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 10 := lt_of_lt_of_eq t.isLt (show cfg0.N = 10 from N_0)
  rw [leaves_in V c t 0 (liveAt0_0 t), leaves_in V c t 1 (liveAt0_1 t), leaves_in V c t 2 (liveAt0_2 t), leaves_in V c t 3 (liveAt0_3 t),
    leaves_in V c t 4 (liveAt0_4 t), leaves_in V c t 5 (liveAt0_5 t), leaves_in V c t 6 (liveAt0_6 t),
    after0_0, after0_1, after0_2, after0_3, after0_4, after0_5, after0_6]
  by_cases h1 : t.val % 5 = 4
  · -- the last K-tile: the output block is stored
    have h0 : ¬t.val % 5 = 0 := by omega
    have hz : t.val ≠ 0 := by omega
    have hc0 : ¬cond0_0 (grid0.coords t) := fun h => h0 ((hcond0_0 t).mp h)
    have hc1 : cond0_1 (grid0.coords t) := (hcond0_1 t).mpr h1
    rw [leaves_in V c t 7 (liveAt0_7 t hc1), after0_7]
    rw [PhiS_castSucc V c t, PhiS_pos V c _ _ hz]
    iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t) (iblk0 V c 2 t) (iblk0 V c 3 t) (iblk0 V c 4 t) (iblk0 V c 5 t) (iblk0 V c 6 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS]; · iexact HS
    iintro ⟨H0, H1, H2, H3, H4, H5, H6, ⟨%e7, H7⟩, ⟨%es, HS⟩⟩
    isplitl [HS Hoth Hg]
    · isplitl [HS Hoth]
      · isplitl [HS]
        · unfold owns; iexists _; isplitr
          swap; · iexact HS
          ipureintro
          rw [accAt_step V c t h0]
          exact sval_C c _ _ _ _ _ _ _ _ _ _ _ _ _ _ _ _ _ _ _ hc0 hc1 _ _ _ _ _ _ _ _ _
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro
    unfold outAt
    rw [accAt_step V c t h0]
    exact oval_C c _ _ _ _ _ _ _ _ _ _ _ _ _ _ _ _ _ _ _ hc0 hc1 _ _ _ _ _ _ _ _ _
  · have hc1 : ¬cond0_1 (grid0.coords t) := fun h => h1 ((hcond0_1 t).mp h)
    rw [Dat.leavesExact_idle (dat0 V c) 7 t (idleAt0_7 t hc1) (noFlush0_7 t hc1)]
    by_cases h0 : t.val % 5 = 0
    · -- the first K-tile: the accumulator is reset
      have hc0 : cond0_0 (grid0.coords t) := (hcond0_0 t).mpr h0
      by_cases hz : t.val = 0
      · rw [PhiS_castSucc V c t, PhiS_zero V c _ _ hz, PhiA0_eq]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t)).2 Set.univ _)
        isplitl [H0]; · iexact H0
        isplitl [H1]; · iexact H1
        isplitl [HS]; · iexact HS
        iintro ⟨H0, H1, ⟨%es, HS⟩⟩
        isplitl [HS Hoth Hg]
        · isplitl [HS Hoth]
          · isplitl [HS]
            · unfold owns; iexists _; isplitr
              swap; · iexact HS
              ipureintro
              rw [accAt_reset V c t h0]
              exact sval_A c _ _ _ _ _ _ _ _ _ _ _ _ _ _ _ _ _ _ _ hc0 hc1 _ _ _
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
      · rw [PhiS_castSucc V c t, PhiS_pos V c _ _ hz]
        iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t)).2 Set.univ _)
        isplitl [H0]; · iexact H0
        isplitl [H1]; · iexact H1
        isplitl [HS]; · iexists _; iexact HS
        iintro ⟨H0, H1, ⟨%es, HS⟩⟩
        isplitl [HS Hoth Hg]
        · isplitl [HS Hoth]
          · isplitl [HS]
            · unfold owns; iexists _; isplitr
              swap; · iexact HS
              ipureintro
              rw [accAt_reset V c t h0]
              exact sval_A c _ _ _ _ _ _ _ _ _ _ _ _ _ _ _ _ _ _ _ hc0 hc1 _ _ _
            iexact Hoth
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7
    · -- a middle K-tile
      have hc0 : ¬cond0_0 (grid0.coords t) := fun h => h0 ((hcond0_0 t).mp h)
      have hz : t.val ≠ 0 := fun h => h0 (by rw [h])
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM (Memref.isWhole_whole _) hc0 hc1 (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro
            rw [accAt_step V c t h0]
            exact sval_B c _ _ _ _ _ _ _ _ _ _ _ _ _ _ _ _ _ _ _ hc0 hc1 _ _ _ _
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 10 := N_0; omega), PhiA0_eq]
  iintro ⟨⟨HS, Hoth⟩, Hg⟩
  isplitl [HS Hoth]
  · isplitl [HS]; · iexists _; iexact HS
    iexact Hoth
  iexact Hg

end Cert.KernelIdeal.Enc

end
-- ==== Proof.Dec.lean ====
/-
  The decoder call (the second pallas_call): its grid of 49 points, one per block of 4096 output columns.
  At point `t` the body reads the whole 512 × 256 code matrix, block `t` of the table (rows 4096·t … of
  200000) and block `t` of the bias row, and stores `code · blockᵀ + bias` into the 512 × 4096 output block.
  49 · 4096 overhangs 200000 by 704: at the last point only the first 3392 rows of the table's staging buffer
  (and the first 3392 entries of the bias's) are the array's; the rest holds words nothing names, and only
  the first 3392 columns of the output block are written back.

  This module is generic in the float instance. It states the proof data of the call at a parameter `V`
  (the buffers' contents when the call is entered), the body's triple, and the body obligation in two forms:
  with the output window forgotten (nothing is said of the output block: enough for a frame), and in full
  under the hypothesis `PayCut` — the part of the stored value that is written back does not depend on the
  unnamed words of the two cut input buffers —, which an instance with an exact contraction satisfies.
-/
import proofs.«178345_j73899207295094_2_alg».proof.Proof.Gen.KernelIdeal.Launch
import proofs.«178345_j73899207295094_2_alg».proof.Proof.Gen.KernelIdeal.Skeleton
import proofs.«178345_j73899207295094_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dec

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it (`V`): for a block that overhangs
    the array, its part inside. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The code matrix's staging buffer holds the whole matrix at every point, fetched there (the first point) or not:
    its index never moves and the body leaves it in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each of the four buffers whole -/

abbrev r1_0 : Rect S512x256 := Rect.unit (s := S512x256) ![0, 0] S512x256.size inb_S512x256_S512x256_0_0
abbrev r1_1 : Rect S4096x256 := Rect.unit (s := S4096x256) ![0, 0] S4096x256.size inb_S4096x256_S4096x256_0_0
abbrev r1_2 : Rect S1x4096 := Rect.unit (s := S1x4096) ![0, 0] S1x4096.size inb_S1x4096_S1x4096_0_0
abbrev r1_3 : Rect S512x4096 := Rect.unit (s := S512x4096) ![0, 0] S512x4096.size inb_S512x4096_S512x4096_0_0

/-- What the body leaves in the output buffer, from what the three input buffers hold: its one store. -/
def out1_3 (x0 : Vec F S512x256 .f32) (x1 : Vec F S4096x256 .f32) (x2 : Vec F S1x4096 .f32) : Vec F S512x4096 .f32 :=
  View.canon [⟨r1_3, k1_pay1 (View.ld x0 r1_0) (View.ld x1 r1_1) (View.ld x2 r1_2)⟩]

/-- The store is of the whole buffer. -/
theorem cover1_3 (p0 : Vec F S512x4096 .f32) (y : S512x4096.Idx) :
    ∃ pc ∈ ([⟨r1_3, p0⟩] : List (View.Piece (Elt F) S512x4096 .f32)), y ∈ pc.1.set :=
  View.cover_of_tiled [⟨r1_3, p0⟩] S512x4096.size (by rfl) y

/-- Whole-buffer accesses read and write the contents themselves: the stored value is the payload of the three
    buffers' contents. -/
theorem out1_3_eq (x0 : Vec F S512x256 .f32) (x1 : Vec F S4096x256 .f32) (x2 : Vec F S1x4096 .f32) :
    out1_3 x0 x1 x2 = k1_pay1 x0 x1 x2 := by
  have hz : (![0, 0] : Fin 2 → Nat) = fun _ => 0 := funext fun a => by fin_cases a <;> rfl
  unfold out1_3
  rw [View.canon_unit_zero hz]
  simp only [View.ld_unit_zero (S := S512x256) hz, View.ld_unit_zero (S := S4096x256) hz, View.ld_unit_zero (S := S1x4096) hz]

/-! ## The body's triple -/

set_option maxHeartbeats 1000000 in
/-- The body on whole staging memrefs, the inputs' at read contents `x0`, `x1`, `x2` and the output's at anything, runs to the
    continuation holding the inputs' as they were and the output's at the payload of the three. -/
theorem sound_kernel1 (c : Dev nD) (E : Set ℕ) (i : grid1.Coords)
    (arg1 : Memref sig .tc .vmem S512x256 .f32) (harg1 : arg1.IsWhole) (arg2 : Memref sig .tc .vmem S4096x256 .f32) (harg2 : arg2.IsWhole)
    (arg3 : Memref sig .tc .vmem S1x4096 .f32) (harg3 : arg3.IsWhole) (arg4 : Memref sig .tc .vmem S512x4096 .f32) (harg4 : arg4.IsWhole)
    (x0 : Vec F S512x256 .f32) (x1 : Vec F S4096x256 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__decoder_kernel i arg1 harg1 arg2 harg2 arg3 harg3 arg4 harg4) K := by
  simp only [cc1__decoder_kernel_eq_skeleton]; unfold cc1__decoder_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data -/

/-- The table's block at point `t` as the proof data name the staging buffer after the body: the block's rows
    inside the array, filled out past the array's end (the last point only) with the zero word. Nothing reads
    the filler: every obligation states this buffer on the rows inside the array only. -/
def tblk (c : Dev nD) (t : Fin cfg1.N) : S4096x256.Idx → Elt F .f32 :=
  win1_1.fill (grid1.coords t) (fun _ => Scalar.ofBits .f32 0#32) (iblk1 V c 1 t)
/-- The bias row's block likewise. -/
def bblk (c : Dev nD) (t : Fin cfg1.N) : S1x4096.Idx → Elt F .f32 :=
  win1_2.fill (grid1.coords t) (fun _ => Scalar.ofBits .f32 0#32) (iblk1 V c 2 t)
/-- The output block: the body's value of the code matrix and the two filled-out blocks. Only its columns inside
    the array are written back, and are all the obligation states. -/
def oblk (c : Dev nD) (t : Fin cfg1.N) : S512x4096.Idx → Elt F .f32 :=
  k1_pay1 (iblk1 V c 0 t) (tblk V c t) (bblk V c t)

/-- The proof data of the decoder call on core `c`: the arrays as the call finds them (`V`); after the body at
    point `t` the code matrix's buffer at the matrix, the table's and the bias's at their blocks, the output's
    at the body's value of them; the invariant the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => tblk V c t
    | ⟨2, _⟩ => bblk V c t
    | ⟨3, _⟩ => oblk V c t
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = tblk V c t := by dsimp only [dat1]
theorem after1_2 (c : Dev nD) (t : Fin cfg1.N) : (dat1 V c).after 2 t = bblk V c t := by dsimp only [dat1]
theorem after1_3 (c : Dev nD) (t : Fin cfg1.N) : (dat1 V c).after 3 t = oblk V c t := by dsimp only [dat1]

/-! ## What the body finds in each buffer -/

/-- The code matrix, at every point. -/
theorem before1_0 (c : Dev nD) (t : Fin cfg1.N) (d) : (dat1 V c).before 0 t d = iblk1 V c 0 t :=
  before1_0_of V (dat1 V c) (A_eq1 V c 0) (after1_0 V c) t d

/-- The table's buffer, fetched at every point: the block on the rows inside the array, `d` — anything — past it. -/
theorem before1_1 (c : Dev nD) (t : Fin cfg1.N) (d) :
    (dat1 V c).before 1 t d = win1_1.fill (grid1.coords t) d (iblk1 V c 1 t) := by
  rw [(dat1 V c).before_fetched 1 t (fetch1_1 t)]; unfold Dat.fetched Dat.blockOf iblk1; rw [A_eq1]

/-- The bias row's buffer likewise. -/
theorem before1_2 (c : Dev nD) (t : Fin cfg1.N) (d) :
    (dat1 V c).before 2 t d = win1_2.fill (grid1.coords t) d (iblk1 V c 2 t) := by
  rw [(dat1 V c).before_fetched 2 t (fetch1_2 t)]; unfold Dat.fetched Dat.blockOf iblk1; rw [A_eq1]

/-- The output's buffer is fresh at every point: each point writes its block back. -/
theorem before1_3 (c : Dev nD) (t : Fin cfg1.N) (d) : (dat1 V c).before 3 t d = d :=
  (dat1 V c).before_out_reset 3 rfl t
    (by by_cases h : t.val = 0
        · exact .inl h
        · exact .inr ⟨h, flush1_3 _⟩) d

/-! ## The body obligation -/

/-- The part of the body's value that is written back — its columns inside the array — does not depend on what the
    two cut input buffers hold past the array's end. True of a float instance whose contraction reads, for output
    column `n`, row `n` of the right operand only; not a law of every instance. -/
def PayCut : Prop :=
  ∀ (t : Fin cfg1.N) (x0 : Vec F S512x256 .f32)
    (b1 : (win1_1.xblock (grid1.coords t)).Idx → Elt F .f32) (b2 : (win1_2.xblock (grid1.coords t)).Idx → Elt F .f32)
    (d1 d1' : S4096x256.Idx → Elt F .f32) (d2 d2' : S1x4096.Idx → Elt F .f32),
    win1_3.cut (grid1.coords t) (k1_pay1 x0 (win1_1.fill (grid1.coords t) d1 b1) (win1_2.fill (grid1.coords t) d2 b2))
      = win1_3.cut (grid1.coords t) (k1_pay1 x0 (win1_1.fill (grid1.coords t) d1' b1) (win1_2.fill (grid1.coords t) d2' b2))

/-- The windows a frame forgets: the output's. -/
abbrev fgt1 : Fin cfg1.W → Bool := fun | 0 => false | 1 => false | 2 => false | 3 => true | ⟨_ + 4, h⟩ => absurd h (Nat.not_lt.2 (Nat.le_add_left _ _))

/-- What the body is called with at point `t`, the windows one by one; -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- what it returns: the code matrix's buffer as named, the three cut windows' on their parts inside the arrays; -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ d, owns (c : Thread nD τ) (st1_3 t) fullShare (win1_3.fill (grid1.coords t) d (win1_3.cut (grid1.coords t) ((dat1 V c).after 3 t)))))

/-- and the two with the output window forgotten: handed over at anything, handed back at anything. -/
def bodyPre1F (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ X, owns (c : Thread nD τ) (st1_3 t) fullShare X))

def bodyPost1F (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ (∃ d, owns (c : Thread nD τ) (st1_1 t) fullShare (win1_1.fill (grid1.coords t) d (win1_1.cut (grid1.coords t) ((dat1 V c).after 1 t))))
    ∗ (∃ d, owns (c : Thread nD τ) (st1_2 t) fullShare (win1_2.fill (grid1.coords t) d (win1_2.cut (grid1.coords t) ((dat1 V c).after 2 t))))
    ∗ (∃ X, owns (c : Thread nD τ) (st1_3 t) fullShare X))

/-- The cut input buffers are handed back as found: the block on the part inside the array, the same unnamed words past it. -/
theorem keep1_1 (c : Dev nD) (t : Fin cfg1.N) (d : S4096x256.Idx → Elt F .f32) :
    win1_1.fill (grid1.coords t) d (win1_1.cut (grid1.coords t) (tblk V c t)) = win1_1.fill (grid1.coords t) d (iblk1 V c 1 t) := by
  unfold tblk; rw [Window.cut_fill]
theorem keep1_2 (c : Dev nD) (t : Fin cfg1.N) (d : S1x4096.Idx → Elt F .f32) :
    win1_2.fill (grid1.coords t) d (win1_2.cut (grid1.coords t) (bblk V c t)) = win1_2.fill (grid1.coords t) d (iblk1 V c 2 t) := by
  unfold bblk; rw [Window.cut_fill]

/-- The body at any point, the output window forgotten: the three input buffers hold the matrix and the two blocks
    filled out with unnamed words, so the body's triple applies; they come back as they were. -/
theorem sound_body1F (c : Dev nD) (t : Fin cfg1.N) :
    bodyPre1F V c t ⊢ wp frame (wpE (defs₀ (F := F)) Variants.none c none) Set.univ (bodyAt1 t) (fun _ => bodyPost1F V c t) := by
  unfold bodyPre1F bodyPost1F bodyAt1
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩, ⟨%d3, H3⟩⟩
  rw [before1_0 V c t d0, before1_1 V c t d1, before1_2 V c t d2]
  iapply (sound_kernel1 (F := F) c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; rw [keep1_1]; iexact H1
  isplitl [H2]; · iexists d2; rw [keep1_2]; iexact H2
  iexists _; iexact H3

/-- The body at any point, in full, for an instance whose written-back value ignores the unnamed words (`PayCut`):
    the output buffer holds the value of the buffers as found, which on the columns inside the array is the value
    the proof data name. -/
theorem sound_body1 (hcut : PayCut (F := F)) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  rw [before1_0 V c t d0, before1_1 V c t d1, before1_2 V c t d2, before1_3 V c t d3]
  iapply (sound_kernel1 (F := F) c Set.univ (grid1.coords t) _ _ _ _ _ _ _ _ (iblk1 V c 0 t)
    (win1_1.fill (grid1.coords t) d1 (iblk1 V c 1 t)) (win1_2.fill (grid1.coords t) d2 (iblk1 V c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; rw [keep1_1]; iexact H1
  isplitl [H2]; · iexists d2; rw [keep1_2]; iexact H2
  have h : win1_3.cut (grid1.coords t) (out1_3 (iblk1 V c 0 t) (win1_1.fill (grid1.coords t) d1 (iblk1 V c 1 t)) (win1_2.fill (grid1.coords t) d2 (iblk1 V c 2 t)))
      = win1_3.cut (grid1.coords t) (oblk V c t) := by
    rw [out1_3_eq]; unfold oblk tblk bblk; exact hcut t _ _ _ _ _ _ _
  iexists (out1_3 (iblk1 V c 0 t) (win1_1.fill (grid1.coords t) d1 (iblk1 V c 1 t)) (win1_2.fill (grid1.coords t) d2 (iblk1 V c 2 t)))
  rw [win1_3.fill_congr_cut (grid1.coords t) h]; iexact H3

/-- The library's body obligation with the output window forgotten, at every point, for any float instance: what a
    frame of the call takes. -/
theorem body_obligation1_fgt (c : Dev nD) :
    BodyObligationLoose (dat1 (F := F) V c) (defs₀ (F := F)) Variants.none () Set.univ fgt1 := fun t => by
  rw [bigSep_W1, bigSep_W1]
  exact sound_body1F V c t

/-- The library's body obligation in full, at every point, under `PayCut`. -/
theorem body_obligation1_of (hcut : PayCut (F := F)) (c : Dev nD) :
    BodyObligationLoose (dat1 (F := F) V c) (defs₀ (F := F)) Variants.none () Set.univ := fun t => by
  rw [bigSep_W1, bigSep_W1]
  exact sound_body1 V hcut c t

end Cert.KernelIdeal.Dec

end
-- ==== Proof.Entry.lean ====
/-
  What the first region finds in the unscoped buffers: the launch contents after the host operations before it
  (the index fix-up and the gather of the active embedding rows, the four bias reshapes, the two zero paddings).
-/
import proofs.«178345_j73899207295094_2_alg».proof.Proof.Gen.KernelIdeal.Regions

noncomputable section

namespace Cert.KernelIdeal.Enc

open Idealize.ShloMosaic Idealize.ShloMosaic.TcCoe
open Idealize.SL Idealize.SL.Sem
open Cert.KernelIdeal Cert.KernelIdeal.Gen

variable {F : FTy → Type} [FloatOps F]

/-- The buffers' contents at the first region's entry, read at a TensorCore reference. -/
abbrev E0 (m : (ℓ : Loc nD τ sig) → Buf (Elt F) ℓ) (c : Dev nD) (b : Ref sig .tc) : Buf (Elt F) ((c : Thread nD τ).loc b) :=
  V4 m c (Proc.devRef .tc b)

end Cert.KernelIdeal.Enc

end
-- ==== Proof.RunGen.lean ====
/-
  The whole program as a chain of segments: four stretches of host operations (the index fix-up, gather and bias
  reshapes; the two zero paddings with their constants), the encoder region, the decoder region.

  Between two segments every unscoped buffer is held at a named valuation. The host stretches advance it by their
  operations; the encoder region replaces its arrays by what its write-backs leave (its inputs as entered, the code
  matrix assembled from the two half blocks); the decoder region's arrays end at SOME contents its write-backs allow
  (for an array it only reads: the contents at entry; for the result: exactly the blocks written back, unless the
  caller chooses to forget them). Every final memory agrees with that last valuation on every unscoped buffer.
-/
import proofs.«178345_j73899207295094_2_alg».proof.Proof.Enc
import proofs.«178345_j73899207295094_2_alg».proof.Proof.Dec
import proofs.«178345_j73899207295094_2_alg».proof.Proof.Entry

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Enc
open Idealize.ShloMosaic.Pipeline (RDat)

variable (m : (ℓ : Loc nD τ sig) → Buf (Elt F) ℓ) (ρ : Dev nD → PrngReg)

/-! ## The buffers' contents at the regions' boundaries -/

/-- After the encoder region: its arrays at what the pipeline leaves, every other buffer as entered. -/
def W5 (c : Dev nD) : Valuation τ sig (Elt F) :=
  Pipeline.withArrays spec0 c (V4 m c) fun w => (dat0 (E0 m) c).arrAt w cfg0.N
theorem W5_arr (c : Dev nD) (w : Fin cfg0.W) :
    W5 m c (Proc.devRef .tc (Pipeline.arrRef spec0 w)) = (dat0 (E0 m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = V4 m c (Proc.devRef .tc b) := by
  unfold W5; exact Pipeline.withArrays_of_ne spec0 c _ _ b hb
/-- The same read at the TensorCore's references: what the decoder region finds. -/
abbrev E1 (c : Dev nD) (b : Ref sig .tc) : Buf (Elt F) ((c : Thread nD τ).loc b) := W5 m c (Proc.devRef .tc b)
theorem hF0 (c : Dev nD) (w : Fin cfg0.W) : (dat0 (E0 m) c).arrAt w cfg0.N = E1 m c (Pipeline.arrRef spec0 w) :=
  (W5_arr m c w).symm
theorem hrest0 (c : Dev nD) : ∀ b, b ∉ Finset.univ.image (Pipeline.arrRef spec0) → E1 m c b = E0 m c b :=
  fun b hb => W5_of_ne m c b fun w e => hb (Finset.mem_image.mpr ⟨w, Finset.mem_univ _, e⟩)

/-- After the decoder region, its arrays at contents `A`: every other buffer as it entered. -/
def W6 (c : Dev nD) (A : (w : Fin cfg1.W) → Buf (Elt F) ((cfg1.win w).arr.view.loc (c : Thread nD τ))) : Valuation τ sig (Elt F) :=
  Pipeline.withArrays spec1 c (W5 m c) A
theorem W6_arr (c : Dev nD) (A) (w : Fin cfg1.W) : W6 m c A (Proc.devRef .tc (Pipeline.arrRef spec1 w)) = A w := by
  unfold W6; exact Pipeline.withArrays_arr spec1 launch1.win.arr_inj c _ _ w
theorem W6_of_ne (c : Dev nD) (A) (b : Ref sig .tc) (hb : ∀ w, Pipeline.arrRef spec1 w ≠ b) :
    W6 m c A (Proc.devRef .tc b) = W5 m c (Proc.devRef .tc b) := by
  unfold W6; exact Pipeline.withArrays_of_ne spec1 c _ _ b hb

/-! ## The proof data -/

/-- The two pipelines' exact proof data, each at its region's entry contents. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => Dec.dat1 (E1 m) c

/-- The same read relationally, the decoder's windows `fgt` marks left unnamed. -/
def rdats (fgt : Fin cfg1.W → Bool) : (p : Fin 2) → (c : Dev nD) → RDat τ (Elt F) Unit ℕ (UR sig nD τ) ℕ (Pipeline.pin (pcfgs (F := F)) adm p) c
  | ⟨0, _⟩ => fun c => (dat0 (E0 m) c).toR
  | ⟨1, _⟩ => fun c => (Dec.dat1 (E1 m) c).toRForget fgt

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: the decoder's arrays at some contents their write-backs allow, every unscoped buffer held
    accordingly, the generator register at some state. -/
def Tn (fgt : Fin cfg1.W → Bool) (c : Dev nD) : sProp 𝕄 :=
  iprop(∃ A : (w : Fin cfg1.W) → Buf (Elt F) ((cfg1.win w).arr.view.loc (c : Thread nD τ)),
    ⌜∀ w, (rdats m fgt 1 c).ArrAt w cfg1.N (A w)⌝ ∗ StableHlo.held (c : Thread nD τ) (Pipeline.ucRefs τ sig) (W6 m c A) ∗ ∃ r, prngReg c r)

/-! ## The regions as segments -/

set_option backward.isDefEq.respectTransparency.types false in
/-- The encoder region over the thread state. -/
def reg0 (fgt : Fin cfg1.W → Bool) : RDat.RegionSeg (pcfgs (F := F)) adm (rdats m fgt) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).toR
  hwaits := RDat.hwaits_of_owed_zero _ _ _ _ L lv 0 fun _ _ => rfl
  pre c := iprop(StableHlo.held (c : Thread nD τ) (Pipeline.ucRefs τ sig) (V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := RDat.arrays_of_unscopedBufs (p := 0) (pcfgs (F := F)) adm (rdats m fgt) launch0.win launch0.arr_whole c
      ((dat0 (E0 m) c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 0 c).Φ 0 = Pipeline.ΦA spec0 c from rfl]; unfold Pipeline.ΦA
    iintro ⟨Hp, -, Hr⟩
    isplitl [Hr]; · iexact Hr
    iexact Hp
  hout c := by
    refine (hout0 (E0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    rw [show (rdats m fgt 0 c).arraysAt (Pipeline.pin (pcfgs (F := F)) adm 0).N = ((pdats m 0 c).arrays ((pdats m 0 c).arrAt · cfg0.N) : sProp 𝕄)
      from (dat0 (E0 m) c).toR_arraysAt_eq cfg0.N]
    iintro ⟨Ha, HO, HY, Hrest⟩
    imodintro
    isplitl [Ha Hrest]
    · iapply hjoin; isplitl [Ha]; · iexact Ha
      iexact Hrest
    isplitl [HY]; · iexact HY
    unfold RDat.owesAt Pipeline.owesWithin
    icases HO with ⟨%W, -, HO⟩; iexists W; iexact HO

set_option backward.isDefEq.respectTransparency.types false in
/-- The decoder region over the thread state. -/
def reg1 (fgt : Fin cfg1.W → Bool)
    (hb1 : ∀ c, Pipeline.BodyObligationLoose (Dec.dat1 (E1 m) c) (defs₀ (F := F)) Variants.none () Set.univ fgt) :
    RDat.RegionSeg (pcfgs (F := F)) adm (rdats m fgt) () defs₀ 𝒱₀ L lv 1 where
  win := launch1.win.to₀
  block_pos := launch1.block_pos
  stage_whole := launch1.stage_whole
  K := PEmpty
  osem k := k.elim
  ho := Pipeline.OwnSemFacts.none _
  hbody c := (hb1 c).toRForget
  hwaits := RDat.hwaits_of_owed_zero _ _ _ _ L lv 1 fun _ _ => rfl
  pre c := iprop(StableHlo.held (c : Thread nD τ) (Pipeline.ucRefs τ sig) (W5 m c) ∗ R c)
  post c := iprop(Tn m fgt c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := RDat.arrays_of_unscopedBufs (p := 1) (pcfgs (F := F)) adm (rdats m fgt) launch1.win launch1.arr_whole c
      ((Dec.dat1 (E1 m) c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m fgt 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m fgt 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun A => Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => W6 m c A (Proc.devRef .tc b)) A (fun w => (W6_arr m c A w).symm)
      (fun b hb => W6_of_ne m c A b fun w e => hb (Finset.mem_image.mpr ⟨w, Finset.mem_univ _, e⟩))
    simp only [Pipeline.unscopedBufs_held] at hjoin
    unfold RDat.arraysAt
    iintro ⟨Ha, HO, HY, Hrest⟩
    ihave Ha' := (BI.bigSep_exists_pi Finset.univ _) $$ Ha
    icases Ha' with ⟨%A, Ha⟩
    ihave Ha'' := (BI.bigSep_pure_sep Finset.univ _ _) $$ Ha
    icases Ha'' with ⟨%hA, Ha⟩
    imodintro
    isplitr [HO]
    · unfold Tn
      iexists A
      isplitr; · ipureintro; exact fun w => hA w (Finset.mem_univ w)
      isplitl [Ha Hrest]
      · have hj := hjoin A
        unfold Pipeline.Dat.arrays at hj
        iapply hj; isplitl [Ha]; · iexact Ha
        iexact Hrest
      iexact HY
    unfold RDat.owesAt Pipeline.owesWithin
    icases HO with ⟨%W, -, HO⟩; iexists W; iexact HO

/-! ## The program as segments, and the launch -/

abbrev segs (fgt : Fin cfg1.W → Bool)
    (hb1 : ∀ c, Pipeline.BodyObligationLoose (Dec.dat1 (E1 m) c) (defs₀ (F := F)) Variants.none () Set.univ fgt) :
    List (RDat.Seg (pcfgs (F := F)) adm (rdats m fgt) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .region (reg0 m fgt),
    .region (reg1 m fgt hb1) ]

set_option backward.isDefEq.respectTransparency.types false in
/-- From any memory with zero counters every weakly fair execution terminates, and on every core the final memory
    holds, at every unscoped buffer, the last boundary's contents: the decoder's arrays at some contents `A` their
    write-backs allow, everything else as the encoder region left it. -/
theorem run_gen (fgt : Fin cfg1.W → Bool)
    (hb1 : ∀ c, Pipeline.BodyObligationLoose (Dec.dat1 (E1 m) c) (defs₀ (F := F)) Variants.none () Set.univ fgt) :
    θ_run defs (onTc (τ := τ) (main (F := F))) ⟨m, fun _ => 0, ρ⟩ (fun r => ∀ c : Dev nD,
      ∃ A : (w : Fin cfg1.W) → Buf (Elt F) ((cfg1.win w).arr.view.loc (c : Thread nD τ)),
        (∀ w, (rdats m fgt 1 c).ArrAt w cfg1.N (A w))
        ∧ ∀ b ∈ Pipeline.ucRefs τ sig, r.2.mem (((c : Thread nD τ)).1, b) = W6 m c A b) :=
  RDat.θ_run_regions_kit (pcfgs (F := F)) adm (rdats m fgt) () cellOf_inj emb₁ defs₀ 𝒱₀ L lv m ρ main (segs m fgt hb1)
    (fun c Q => by
      rewrite [main_chain c, RDat.Seg.run_eq_chain,
        show (segs m fgt hb1).map RDat.Seg.prog = [
          StableHlo.seq hostOps0,
          StableHlo.seq hostOps0_1,
          StableHlo.seq hostOps0_2,
          StableHlo.seq hostOps0_3,
          Prog.lift (.customCall (Pipeline.entry 0) ()),
          Prog.lift (.customCall (Pipeline.entry 1) ()) ] from rfl]
      exact .rfl)
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tn m fgt)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ A : (w : Fin cfg1.W) → Buf (Elt F) ((cfg1.win w).arr.view.loc (c : Thread nD τ)),
        (∀ w, (rdats m fgt 1 c).ArrAt w cfg1.N (A w))
        ∧ ∀ b ∈ Pipeline.ucRefs τ sig, s.mem (((c : Thread nD τ)).1, b) = W6 m c A b)
    (hfin := fun c s' => by
      unfold Tn
      iintro ⟨⟨%A, %hA, Hh, -⟩, HSI⟩
      unfold StableHlo.held
      ihave Hr := (pointsTo_read_all (Pipeline.ucRefs τ sig) (fun b => (((c : Thread nD τ)).1, b)) (W6 m c A) s') $$ [Hh HSI]
      · isplitl [Hh] <;> iassumption
      icases Hr with ⟨%h, HSI⟩
      imodintro
      isplitr; · ipureintro; exact ⟨A, hA, h⟩
      iexact HSI)
    (hQ := fun _ h => h)

end Cert.KernelIdeal.Run

end
-- ==== Proof.RunFrame.lean ====
/-
  What the whole-program run says of the arguments and of the result.

  The run ends with every unscoped buffer at the last boundary's contents. An argument that neither region windows
  (the sparse input, the index vector, the embedding table, the three bias vectors of the encoder, the decoder's bias)
  is written by no host operation either, so it reads back its launch contents through every boundary. The two encoder
  weight matrices are input arrays of the encoder region and the decoder's table is an input array of the decoder
  region: an input array is never written back, so it holds what it held when its region was entered, which again is
  the launch contents. The result array is the decoder region's output array: it holds exactly the blocks written back.
-/
import proofs.«178345_j73899207295094_2_alg».proof.Proof.RunGen

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Enc
open Idealize.ShloMosaic.Pipeline (RDat)

variable {F : FTy → Type} [FloatOps F]

variable (m : (ℓ : Loc nD τ sig) → Buf (Elt F) ℓ) (ρ : Dev nD → PrngReg)

/-! ## A buffer no host operation writes holds its launch contents at the encoder region's entry -/

theorem V4_to_m (c : Dev nD) (r : Ref sig .tc) (h0 : r ∉ hostOps0_W) (h1 : r ∉ hostOps0_1_W) (h2 : r ∉ hostOps0_2_W)
    (h3 : r ∉ hostOps0_3_W) : V4 m c r = m ((c : Thread nD τ).loc r) :=
  (V4_of m c r h3).trans <| (V3_of m c r h2).trans <| (V2_of m c r h1).trans <| (V1_of m c r h0).trans rfl

section LastBoundary

variable (fgt : Fin cfg1.W → Bool) (c : Dev nD)
  (A : (w : Fin cfg1.W) → Buf (Elt F) ((cfg1.win w).arr.view.loc (c : Thread nD τ)))

/-! ## The arguments neither region windows -/

theorem W6_main_arg0 : W6 m c A (Proc.devRef .tc main_arg0) = m ((c : Thread nD τ).loc main_arg0) :=
  (W6_of_ne m c A main_arg0 (by decide)).trans <| (W5_of_ne m c main_arg0 (by decide)).trans
    (V4_to_m m c main_arg0 (by decide) (by decide) (by decide) (by decide))
theorem W6_main_arg1 : W6 m c A (Proc.devRef .tc main_arg1) = m ((c : Thread nD τ).loc main_arg1) :=
  (W6_of_ne m c A main_arg1 (by decide)).trans <| (W5_of_ne m c main_arg1 (by decide)).trans
    (V4_to_m m c main_arg1 (by decide) (by decide) (by decide) (by decide))
theorem W6_main_arg2 : W6 m c A (Proc.devRef .tc main_arg2) = m ((c : Thread nD τ).loc main_arg2) :=
  (W6_of_ne m c A main_arg2 (by decide)).trans <| (W5_of_ne m c main_arg2 (by decide)).trans
    (V4_to_m m c main_arg2 (by decide) (by decide) (by decide) (by decide))
theorem W6_main_arg3 : W6 m c A (Proc.devRef .tc main_arg3) = m ((c : Thread nD τ).loc main_arg3) :=
  (W6_of_ne m c A main_arg3 (by decide)).trans <| (W5_of_ne m c main_arg3 (by decide)).trans
    (V4_to_m m c main_arg3 (by decide) (by decide) (by decide) (by decide))
theorem W6_main_arg5 : W6 m c A (Proc.devRef .tc main_arg5) = m ((c : Thread nD τ).loc main_arg5) :=
  (W6_of_ne m c A main_arg5 (by decide)).trans <| (W5_of_ne m c main_arg5 (by decide)).trans
    (V4_to_m m c main_arg5 (by decide) (by decide) (by decide) (by decide))
theorem W6_main_arg7 : W6 m c A (Proc.devRef .tc main_arg7) = m ((c : Thread nD τ).loc main_arg7) :=
  (W6_of_ne m c A main_arg7 (by decide)).trans <| (W5_of_ne m c main_arg7 (by decide)).trans
    (V4_to_m m c main_arg7 (by decide) (by decide) (by decide) (by decide))
theorem W6_main_arg9 : W6 m c A (Proc.devRef .tc main_arg9) = m ((c : Thread nD τ).loc main_arg9) :=
  (W6_of_ne m c A main_arg9 (by decide)).trans <| (W5_of_ne m c main_arg9 (by decide)).trans
    (V4_to_m m c main_arg9 (by decide) (by decide) (by decide) (by decide))

/-! ## The encoder's two weight matrices: input arrays of the encoder region -/

theorem W6_main_arg4 : W6 m c A (Proc.devRef .tc main_arg4) = m ((c : Thread nD τ).loc main_arg4) :=
  calc W6 m c A (Proc.devRef .tc main_arg4)
    _ = W5 m c (Proc.devRef .tc main_arg4) := W6_of_ne m c A main_arg4 (by decide)
    _ = (dat0 (E0 m) c).arrAt 3 cfg0.N := W5_arr m c 3
    _ = E0 m c main_arg4 := ((dat0 (E0 m) c).arrAt_in 3 rfl _).trans (A_eq0 (E0 m) c 3)
    _ = m ((c : Thread nD τ).loc main_arg4) := V4_to_m m c main_arg4 (by decide) (by decide) (by decide) (by decide)

theorem W6_main_arg6 : W6 m c A (Proc.devRef .tc main_arg6) = m ((c : Thread nD τ).loc main_arg6) :=
  calc W6 m c A (Proc.devRef .tc main_arg6)
    _ = W5 m c (Proc.devRef .tc main_arg6) := W6_of_ne m c A main_arg6 (by decide)
    _ = (dat0 (E0 m) c).arrAt 5 cfg0.N := W5_arr m c 5
    _ = E0 m c main_arg6 := ((dat0 (E0 m) c).arrAt_in 5 rfl _).trans (A_eq0 (E0 m) c 5)
    _ = m ((c : Thread nD τ).loc main_arg6) := V4_to_m m c main_arg6 (by decide) (by decide) (by decide) (by decide)

/-! ## The decoder's table: an input array of the decoder region -/

theorem W6_main_arg8 (hA : (rdats m fgt 1 c).ArrAt 1 cfg1.N (A 1)) :
    W6 m c A (Proc.devRef .tc main_arg8) = m ((c : Thread nD τ).loc main_arg8) :=
  calc W6 m c A (Proc.devRef .tc main_arg8)
    _ = A 1 := W6_arr m c A 1
    _ = (Dec.dat1 (E1 m) c).A 1 :=
      Eq.mp (congrFun (((Dec.dat1 (E1 m) c).toRForget fgt).ArrAt_in 1 rfl cfg1.N) (A 1)) hA
    _ = E1 m c main_arg8 := Dec.A_eq1 (E1 m) c 1
    _ = V4 m c (Proc.devRef .tc main_arg8) := W5_of_ne m c main_arg8 (by decide)
    _ = m ((c : Thread nD τ).loc main_arg8) := V4_to_m m c main_arg8 (by decide) (by decide) (by decide) (by decide)

/-! ## The result: the decoder region's output array -/

theorem W6_main_v14 (h3 : fgt 3 = false) (hA : (rdats m fgt 1 c).ArrAt 3 cfg1.N (A 3)) :
    W6 m c A (Proc.devRef .tc main_v14) = (Dec.dat1 (E1 m) c).arrAt 3 cfg1.N :=
  (W6_arr m c A 3).trans (((Dec.dat1 (E1 m) c).toRForget_arrAt_iff h3 cfg1.N (A 3)).mp hA)

end LastBoundary

/-! ## The frame and the result -/

/-- Every weakly fair execution terminates, and the ten argument arrays end as launched. -/
theorem frame_gen (fgt : Fin cfg1.W → Bool)
    (hb1 : ∀ c, Pipeline.BodyObligationLoose (Dec.dat1 (E1 m) c) (defs₀ (F := F)) Variants.none () Set.univ fgt) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨A, hA, hm⟩ := h c
    exact ⟨(hm _ (mem_uc main_arg0 (by decide))).trans (W6_main_arg0 m c A),
      (hm _ (mem_uc main_arg1 (by decide))).trans (W6_main_arg1 m c A),
      (hm _ (mem_uc main_arg2 (by decide))).trans (W6_main_arg2 m c A),
      (hm _ (mem_uc main_arg3 (by decide))).trans (W6_main_arg3 m c A),
      (hm _ (mem_uc main_arg4 (by decide))).trans (W6_main_arg4 m c A),
      (hm _ (mem_uc main_arg5 (by decide))).trans (W6_main_arg5 m c A),
      (hm _ (mem_uc main_arg6 (by decide))).trans (W6_main_arg6 m c A),
      (hm _ (mem_uc main_arg7 (by decide))).trans (W6_main_arg7 m c A),
      (hm _ (mem_uc main_arg8 (by decide))).trans (W6_main_arg8 m fgt c A (hA 1)),
      (hm _ (mem_uc main_arg9 (by decide))).trans (W6_main_arg9 m c A)⟩)
    (run_gen m ρ fgt hb1)

/-- The same run with the result named: when the output window is not forgotten, the result array ends holding the
    decoder region's written-back blocks, and the ten argument arrays end as launched. -/
theorem result_gen (fgt : Fin cfg1.W → Bool)
    (hb1 : ∀ c, Pipeline.BodyObligationLoose (Dec.dat1 (E1 m) c) (defs₀ (F := F)) Variants.none () Set.univ fgt)
    (h3 : fgt 3 = false) :
    θ_run defs (onTc (τ := τ) (main (F := F))) ⟨m, fun _ => 0, ρ⟩ (fun r => ∀ c : Dev nD,
      r.2.mem ((c.tc : Thread nD τ).loc main_v14) = (Dec.dat1 (E1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => by
    obtain ⟨A, hA, hm⟩ := h c
    exact ⟨(hm _ (mem_uc main_v14 (by decide))).trans (W6_main_v14 m fgt c A h3 (hA 3)),
      (hm _ (mem_uc main_arg0 (by decide))).trans (W6_main_arg0 m c A),
      (hm _ (mem_uc main_arg1 (by decide))).trans (W6_main_arg1 m c A),
      (hm _ (mem_uc main_arg2 (by decide))).trans (W6_main_arg2 m c A),
      (hm _ (mem_uc main_arg3 (by decide))).trans (W6_main_arg3 m c A),
      (hm _ (mem_uc main_arg4 (by decide))).trans (W6_main_arg4 m c A),
      (hm _ (mem_uc main_arg5 (by decide))).trans (W6_main_arg5 m c A),
      (hm _ (mem_uc main_arg6 (by decide))).trans (W6_main_arg6 m c A),
      (hm _ (mem_uc main_arg7 (by decide))).trans (W6_main_arg7 m c A),
      (hm _ (mem_uc main_arg8 (by decide))).trans (W6_main_arg8 m fgt c A (hA 1)),
      (hm _ (mem_uc main_arg9 (by decide))).trans (W6_main_arg9 m c A)⟩)
    (run_gen m ρ fgt hb1)

end Cert.KernelIdeal.Run

end
-- ==== Proof.DecPay.lean ====
/-
  The decoder body's value at one entry, over the extended reals: entry `(m, n)` of the stored 512 × 4096 block
  is `Σ_k code[m,k] · table[n,k] + bias[0,n]` — row `m` of the code matrix against row `n` of the table block (the
  contraction is over the second axis of both), plus entry `n` of the bias row, which is broadcast down the rows.
  Rounding to bf16 is the identity here, and the product accumulates onto zero.
-/
import proofs.«178345_j73899207295094_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.DecValue

open Cert.KernelIdeal Cert.KernelIdeal.Gen
open Idealize.ShloMosaic Idealize.ShloMosaic.ValueIdx

/-- The decoder product's dimension numbers: both operands contracted along their second axis. -/
abbrev D := dot_S512x256_S4096x256_S512x4096_1_1_0_0_n_n

/-! ## The product's operand indices, coordinate by coordinate -/

theorem lhs_0 (i : S512x4096.Idx) (q : D.contr.Idx) : (D.lhsIdx i q 0).val = (i 0).val := by
  unfold DotDims.lhsIdx
  rw [dif_neg (show ¬(0 : Fin S512x256.rank) ∈ D.lhsBatch by decide), dif_pos (show (0 : Fin S512x256.rank) ∈ D.lhsNonContracting by decide)]
  rfl
theorem lhs_1 (i : S512x4096.Idx) (q : D.contr.Idx) : (D.lhsIdx i q 1).val = (q ⟨0, by decide⟩).val :=
  D.lhsIdx_val_of_single rfl i q
theorem rhs_0 (i : S512x4096.Idx) (q : D.contr.Idx) : (D.rhsIdx i q 0).val = (i 1).val := by
  unfold DotDims.rhsIdx
  rw [dif_neg (show ¬(0 : Fin S4096x256.rank) ∈ D.rhsBatch by decide), dif_pos (show (0 : Fin S4096x256.rank) ∈ D.rhsNonContracting by decide)]
  rfl
theorem rhs_1 (i : S512x4096.Idx) (q : D.contr.Idx) : (D.rhsIdx i q 1).val = (q ⟨0, by decide⟩).val :=
  D.rhsIdx_val_of_single rfl i q

/-- The product onto zero at entry `(m, n)`: row `m` of the left operand against row `n` of the right. -/
theorem matmul_at {φ₁ φ₂ : FTy} (A : FVec Ideal S512x256 φ₁) (B : FVec Ideal S4096x256 φ₂) (m : Fin 512) (n : Fin 4096) :
    FloatOps.matmul D none A B (constant (F := Ideal) S512x4096 .f32 0x00000000#32) (ix2 m n)
      = ∑ k : Fin 256, A (ix2 m k) * B (ix2 n k) := by
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 m n) ((contrEquiv1 D 256 rfl rfl).symm k) = ix2 m k := funext fun a => Fin.ext (by
    match a with
    | ⟨0, _⟩ => exact lhs_0 _ _
    | ⟨1, _⟩ => exact (lhs_1 _ _).trans hk)
  have er : D.rhsIdx (ix2 m n) ((contrEquiv1 D 256 rfl rfl).symm k) = ix2 n k := funext fun a => Fin.ext (by
    match a with
    | ⟨0, _⟩ => exact rhs_0 _ _
    | ⟨1, _⟩ => exact (rhs_1 _ _).trans hk)
  rw [el, er]

/-- The bias row broadcast down the 512 rows, at entry `(m, n)`: entry `n` of the row. -/
theorem bias_at (x2 : S1x4096.Idx → EReal) (h : S1x4096.Broadcasts S512x4096) (m : Fin 512) (n : Fin 4096) :
    broadcastTo S512x4096 x2 h (ix2 m n) = x2 (ix2 0 n) :=
  broadcastTo_apply x2 h (ix2 m n) (ix2 0 n) (fun a => by
    match a with
    | ⟨0, _⟩ => rfl
    | ⟨1, _⟩ => rfl)

/-- The body's value at entry `(m, n)`. -/
theorem pay_apply (x0 : Vec Ideal S512x256 .f32) (x1 : Vec Ideal S4096x256 .f32) (x2 : Vec Ideal S1x4096 .f32)
    (m : Fin 512) (n : Fin 4096) :
    k1_pay1 (F := Ideal) x0 x1 x2 (ix2 m n) = (∑ k : Fin 256, x0 (ix2 m k) * x1 (ix2 n k)) + x2 (ix2 0 n) := by
  unfold k1_pay1
  refine (addf_apply _ _ (ix2 m n)).trans ?_
  refine congrArg₂ (· + ·) ?_ ?_
  · refine (matmul_at _ _ m n).trans ?_
    refine Finset.sum_congr rfl fun k _ => ?_
    rw [truncf_apply, truncf_apply, shapeCast_self]
  · refine (bias_at _ _ m n).trans ?_
    rw [shapeCast_self]

end Cert.KernelIdeal.DecValue

end
-- ==== Proof.Spec.lean ====
/-
  The function both programs compute, over the extended reals, index by index.

  A batch row `b` of the sparse input `x` (512 × 20000) meets the gathered embedding rows `w` (20000 × 256):
  `a₁[b,e] = Σ_k x[b,k]·w[k,e]`, then three times "add a bias row, apply selu": `z₁ = selu(a₁ + b₀)`,
  `z₂ = selu(z₁·W₁ᵀ + b₁)` (512 hidden units), `z₃ = selu(z₂·W₂ᵀ + b₂)` (256 units), and the result is the
  decode `out[b,n] = Σ_e z₃[b,e]·D[n,e] + d[n]` against every row `n` of the 200000-row table `D`.
  `selu x = λ·(x if x > 0 else α·(eˣ − 1))` with the two constants at their binary32 values.
  Every sum is a finite sum in the commutative monoid of extended reals under addition, so neither its order
  nor its grouping matters.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals over a rank-2 box. -/
abbrev Arr2 (n0 n1 : Nat) : Type := (⟨2, ![n0, n1]⟩ : Shape).Idx → EReal
/-- An array of extended reals over a rank-1 box. -/
abbrev Arr1 (n : Nat) : Type := (⟨1, ![n]⟩ : Shape).Idx → EReal

/-- The scaled exponential linear unit at one extended real: `λ·x` for `x > 0`, else `λ·α·(eˣ − 1)`; the
    constants `λ`, `α`, `1` and `0` are the binary32 values the programs spell. -/
def selu (x : EReal) : EReal :=
  Ideal.ofBits .f32 0x3F867D5F#32 *
    Scalar.select (FloatOps.cmpf (F := Ideal) (φ := .f32) .ogt x (Ideal.ofBits .f32 0x00000000#32)) x
      (Ideal.ofBits .f32 0x3FD62D7D#32 * (Ideal.exp x - Ideal.ofBits .f32 0x3F800000#32))

/-- First layer: row `b` of the input against column `e` of the gathered rows, plus the bias, through selu. -/
def z1 (x : Arr2 512 20000) (w : Arr2 20000 256) (b0 : Arr1 256) (b : Fin 512) (e : Fin 256) : EReal :=
  selu ((∑ k : Fin 20000, x (ix2 b k) * w (ix2 k e)) + b0 (ix1 e))

/-- Second layer: 256 → 512 units, the weight matrix read transposed. -/
def z2 (x : Arr2 512 20000) (w : Arr2 20000 256) (b0 : Arr1 256) (W1 : Arr2 512 256) (b1 : Arr1 512)
    (b : Fin 512) (h : Fin 512) : EReal :=
  selu ((∑ e : Fin 256, z1 x w b0 b e * W1 (ix2 h e)) + b1 (ix1 h))

/-- Third layer: 512 → 256 units, the weight matrix read transposed. -/
def z3 (x : Arr2 512 20000) (w : Arr2 20000 256) (b0 : Arr1 256) (W1 : Arr2 512 256) (b1 : Arr1 512)
    (W2 : Arr2 256 512) (b2 : Arr1 256) (b : Fin 512) (e : Fin 256) : EReal :=
  selu ((∑ h : Fin 512, z2 x w b0 W1 b1 b h * W2 (ix2 e h)) + b2 (ix1 e))

/-- The decode of one code matrix `z` (512 × 256, by coordinates) against the table `D` and the bias `d`. -/
def decode (z : Fin 512 → Fin 256 → EReal) (D : Arr2 200000 256) (d : Arr1 200000) : Arr2 512 200000 :=
  fun i => (∑ e : Fin 256, z (i 0) e * D (ix2 (i 1) e)) + d (ix1 (i 1))

/-- The whole function: entry `(b, n)` of the result. -/
def out (x : Arr2 512 20000) (w : Arr2 20000 256) (b0 : Arr1 256) (W1 : Arr2 512 256) (b1 : Arr1 512)
    (W2 : Arr2 256 512) (b2 : Arr1 256) (D : Arr2 200000 256) (d : Arr1 200000) : Arr2 512 200000 :=
  decode (z3 x w b0 W1 b1 W2 b2) D d

end Cert.Spec

end
-- ==== Proof.DecValue.lean ====
/-
  What the decoder call leaves in the output array, over the extended reals.

  Point `t` of the grid handles output columns `4096·t … 4096·t + 4095`; the last point's block overhangs the
  200000 columns by 704 and only its first 3392 columns are written back. Entry `(b, n)` of the array therefore
  comes from point `n / 4096`, in-block column `n % 4096`, and is `Σ_e code[b,e] · table[n,e] + bias[n]`: it reads
  row `n` of the table and entry `n` of the bias only. That locality is also why the words the cut fetches
  leave past the arrays' ends (rows ≥ 3392 of the last table block) never reach a written-back entry.
-/
import proofs.«178345_j73899207295094_2_alg».proof.Proof.Dec
import proofs.«178345_j73899207295094_2_alg».proof.Proof.DecPay
import proofs.«178345_j73899207295094_2_alg».proof.Proof.Spec
import Idealize.ShloMosaic.Lib.Pipeline.Value

set_option maxRecDepth 16384

noncomputable section

open scoped BigOperators

namespace Cert.KernelIdeal.DecValue

open Cert.KernelIdeal Cert.KernelIdeal.Gen
open Idealize.ShloMosaic Idealize.ShloMosaic.TcCoe Idealize.ShloMosaic.ValueIdx
open Idealize.ShloMosaic.Pipeline (Dat Cfg Window BodyObligationLoose)

/-! ## The index maps and cuts over the grid -/

/-- Decided over the 49 points: the code matrix's block never moves; the table's, the bias's and the output's block
    index is the point; the three cut windows are cut alike (the table's rows as the output's columns), to 4096
    columns, or at the last point to 3392, and never past column 200000. -/
theorem grid_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_1.xsize (grid1.coords t) (0 : Fin 2) = win1_3.xsize (grid1.coords t) (1 : Fin 2)
    ∧ win1_1.xsize (grid1.coords t) (1 : Fin 2) = 256
    ∧ win1_2.xsize (grid1.coords t) (0 : Fin 2) = 1
    ∧ win1_2.xsize (grid1.coords t) (1 : Fin 2) = win1_3.xsize (grid1.coords t) (1 : Fin 2)
    ∧ win1_3.xsize (grid1.coords t) (0 : Fin 2) = 512
    ∧ (win1_3.xsize (grid1.coords t) (1 : Fin 2) = 4096 ∨ (t.val = 48 ∧ win1_3.xsize (grid1.coords t) (1 : Fin 2) = 3392))
    ∧ t.val * 4096 + win1_3.xsize (grid1.coords t) (1 : Fin 2) ≤ 200000 :=
  (by decide +kernel : ∀ t : Fin grid1.N, _)

/-- A filled-out block at an entry the transfer moves is the block's entry, whatever fills the rest. -/
theorem fill_of_moved {G : Pipeline.Grid} (w : Window sig G) {α : Type} (i : G.Coords) (d : w.block.Idx → α)
    (g : (w.xblock i).Idx → α) (j : w.block.Idx) (h : w.moved i j = true) :
    w.fill i d g j = g fun a => ⟨(j a).val, (w.moved_iff i j).mp h a⟩ := by
  unfold Window.fill; rw [dif_pos h]

/-- Row `n` of the table's buffer, `n` below the cut, is moved: all of its 256 entries. -/
theorem moved1 (t : Fin cfg1.N) (n : Fin 4096) (k : Fin 256) (hn : n.val < win1_3.xsize (grid1.coords t) (1 : Fin 2)) :
    win1_1.moved (grid1.coords t) (ix2 n k) = true := by
  obtain ⟨-, -, -, -, -, -, -, -, f8, f9, -, -, -, -, -⟩ := grid_facts t
  refine (win1_1.moved_iff _ _).mpr fun a => ?_
  match a with
  | ⟨0, _⟩ => show n.val < win1_1.xsize (grid1.coords t) (0 : Fin 2); omega
  | ⟨1, _⟩ => show k.val < win1_1.xsize (grid1.coords t) (1 : Fin 2); have := k.isLt; omega

/-- Entry `n` of the bias's buffer, `n` below the cut, is moved. -/
theorem moved2 (t : Fin cfg1.N) (n : Fin 4096) (hn : n.val < win1_3.xsize (grid1.coords t) (1 : Fin 2)) :
    win1_2.moved (grid1.coords t) (ix2 (0 : Fin 1) n) = true := by
  obtain ⟨-, -, -, -, -, -, -, -, -, -, f10, f11, -, -, -⟩ := grid_facts t
  refine (win1_2.moved_iff _ _).mpr fun a => ?_
  match a with
  | ⟨0, _⟩ => show (0 : Fin 1).val < win1_2.xsize (grid1.coords t) (0 : Fin 2); rw [f10]; exact Nat.one_pos
  | ⟨1, _⟩ => show n.val < win1_2.xsize (grid1.coords t) (1 : Fin 2); omega

/-! ## The written-back part ignores the unnamed words -/

/-- An entry of the output block's part inside the array, by its coordinates. -/
theorem xinj3 (t : Fin cfg1.N) (j : (win1_3.xblock (grid1.coords t)).Idx) :
    ∃ (m : Fin 512) (n : Fin 4096), win1_3.xinj (grid1.coords t) j = ix2 m n ∧ m.val = (j 0).val ∧ n.val = (j 1).val
      ∧ n.val < win1_3.xsize (grid1.coords t) (1 : Fin 2) := by
  have h1 : (j 1).val < win1_3.xsize (grid1.coords t) (1 : Fin 2) := (j 1).isLt
  refine ⟨win1_3.xinj (grid1.coords t) j 0, win1_3.xinj (grid1.coords t) j 1, eq_ix2 _, rfl, rfl, h1⟩

theorem payCut : Dec.PayCut (F := Ideal) := by
  intro t x0 b1 b2 d1 d1' d2 d2'
  funext j
  obtain ⟨m, n, e, -, -, hn⟩ := xinj3 t j
  show k1_pay1 (F := Ideal) x0 _ _ (win1_3.xinj (grid1.coords t) j) = k1_pay1 (F := Ideal) x0 _ _ (win1_3.xinj (grid1.coords t) j)
  rw [e, pay_apply, pay_apply]
  refine congrArg₂ (· + ·) (Finset.sum_congr rfl fun k _ => ?_) ?_
  · rw [fill_of_moved win1_1 _ d1 b1 _ (moved1 t n k hn), fill_of_moved win1_1 _ d1' b1 _ (moved1 t n k hn)]
  · rw [fill_of_moved win1_2 _ d2 b2 _ (moved2 t n hn), fill_of_moved win1_2 _ d2' b2 _ (moved2 t n hn)]

/-- The body obligation of the decoder call in full, over the extended reals. -/
theorem body_obligation1 (V : (c : Dev nD) → (b : Ref sig .tc) → Buf (Elt Ideal) ((c : Thread nD τ).loc b)) (c : Dev nD) :
    BodyObligationLoose (Dec.dat1 (F := Ideal) V c) (defs₀ (F := Ideal)) Variants.none () Set.univ :=
  Dec.body_obligation1_of V payCut c

variable (V : (c : Dev nD) → (b : Ref sig .tc) → Buf (Elt Ideal) ((c : Thread nD τ).loc b))

/-! ## The three blocks the body reads, entry by entry -/

/-- The code matrix's block is the matrix. -/
theorem cblk_at (c : Dev nD) (t : Fin cfg1.N) (m : Fin 512) (k : Fin 256) :
    Dec.iblk1 V c 0 t (ix2 m k) = V c main_v13 (ix2 m k) := by
  obtain ⟨f0, f1, -, -, -, -, -, -, -, -, -, -, -, -, -⟩ := grid_facts t
  unfold Dec.iblk1
  show V c main_v13 (((cfg1.win 0).blk t).view.emb (ix2 m k)) = _
  refine congrArg (V c main_v13) (funext fun a => Fin.ext ?_)
  match a with
  | ⟨0, _⟩ => show win1_0.index t (0 : Fin 2) * 512 + 1 * m.val = m.val; omega
  | ⟨1, _⟩ => show win1_0.index t (1 : Fin 2) * 256 + 1 * k.val = k.val; omega

/-- Row `n` of the table's block at point `t`, `n` below the cut, is row `4096·t + n` of the table. -/
theorem tblk_at (c : Dev nD) (t : Fin cfg1.N) (n : Fin 4096) (k : Fin 256)
    (hn : n.val < win1_3.xsize (grid1.coords t) (1 : Fin 2)) (hb : t.val * 4096 + n.val < 200000) :
    Dec.tblk V c t (ix2 n k) = V c main_arg8 (ix2 (⟨t.val * 4096 + n.val, hb⟩ : Fin 200000) k) := by
  obtain ⟨-, -, f2, f3, -, -, -, -, -, -, -, -, -, -, -⟩ := grid_facts t
  unfold Dec.tblk
  rw [fill_of_moved win1_1 _ _ _ _ (moved1 t n k hn)]
  unfold Dec.iblk1
  show V c main_arg8 (((cfg1.win 1).blk t).view.emb _) = _
  refine congrArg (V c main_arg8) (funext fun a => Fin.ext ?_)
  match a with
  | ⟨0, _⟩ => show win1_1.index t (0 : Fin 2) * 4096 + 1 * n.val = t.val * 4096 + n.val; omega
  | ⟨1, _⟩ => show win1_1.index t (1 : Fin 2) * 256 + 1 * k.val = k.val; omega

/-- Entry `n` of the bias's block at point `t`, `n` below the cut, is entry `4096·t + n` of the bias row. -/
theorem bblk_at (c : Dev nD) (t : Fin cfg1.N) (n : Fin 4096)
    (hn : n.val < win1_3.xsize (grid1.coords t) (1 : Fin 2)) (hb : t.val * 4096 + n.val < 200000) :
    Dec.bblk V c t (ix2 (0 : Fin 1) n) = V c main_v10 (ix2 (0 : Fin 1) (⟨t.val * 4096 + n.val, hb⟩ : Fin 200000)) := by
  obtain ⟨-, -, -, -, f4, f5, -, -, -, -, -, -, -, -, -⟩ := grid_facts t
  unfold Dec.bblk
  rw [fill_of_moved win1_2 _ _ _ _ (moved2 t n hn)]
  unfold Dec.iblk1
  show V c main_v10 (((cfg1.win 2).blk t).view.emb _) = _
  refine congrArg (V c main_v10) (funext fun a => Fin.ext ?_)
  match a with
  | ⟨0, _⟩ => show win1_2.index t (0 : Fin 2) * 1 + 1 * (0 : Fin 1).val = (0 : Fin 1).val; omega
  | ⟨1, _⟩ => show win1_2.index t (1 : Fin 2) * 4096 + 1 * n.val = t.val * 4096 + n.val; omega

/-! ## From blocks to the array -/

/-- What the output array ends holding: the decode of the code matrix against the table and the bias row, as the call
    finds them. -/
abbrev G3 (c : Dev nD) : S512x200000.Idx → EReal :=
  Cert.Spec.decode (fun b e => V c main_v13 (ix2 b e)) (V c main_arg8) (fun j => V c main_v10 (ix2 (0 : Fin 1) (j 0)))

/-- The output block's entry `(m, n)`, `n` below the cut, is entry `(m, 4096·t + n)` of the decode. -/
theorem oblk_at (c : Dev nD) (t : Fin cfg1.N) (m : Fin 512) (n : Fin 4096)
    (hn : n.val < win1_3.xsize (grid1.coords t) (1 : Fin 2)) (hb : t.val * 4096 + n.val < 200000) :
    Dec.oblk V c t (ix2 m n) = G3 V c (ix2 m (⟨t.val * 4096 + n.val, hb⟩ : Fin 200000)) := by
  unfold Dec.oblk
  rw [pay_apply]
  let z : Fin 512 → Fin 256 → EReal := fun b e => V c main_v13 (ix2 b e)
  let Dm : Cert.Spec.Arr2 200000 256 := V c main_arg8
  let dv : Cert.Spec.Arr2 1 200000 := V c main_v10
  show _ = (∑ e : Fin 256, z m e * Dm (ix2 (⟨t.val * 4096 + n.val, hb⟩ : Fin 200000) e))
    + dv (ix2 (0 : Fin 1) (⟨t.val * 4096 + n.val, hb⟩ : Fin 200000))
  refine congrArg₂ (· + ·) (Finset.sum_congr rfl fun k _ => ?_) ?_
  · first
      | (rw [cblk_at V c t m k, tblk_at V c t n k hn hb]; done)
      | (rw [cblk_at V c t m k, tblk_at V c t n k hn hb]; rfl)
  · first
      | (rw [bblk_at V c t n hn hb]; done)
      | (rw [bblk_at V c t n hn hb]; rfl)

/-- What point `t` writes back is block `t` of the decode, cut at the array's end. -/
theorem flushed3_eq (c : Dev nD) (t : Fin cfg1.N) :
    (Dec.dat1 V c).flushed 3 t = ((cfg1.win 3).blk t).view.read (Elt Ideal) (G3 V c) := by
  show (cfg1.win 3).cut (grid1.coords t) ((Dec.dat1 V c).after 3 t) = _
  rw [Dec.after1_3]
  funext j
  obtain ⟨m, n, e, hm, hnj, hn⟩ := xinj3 t j
  obtain ⟨-, -, -, -, -, -, f6, f7, -, -, -, -, -, -, f14⟩ := grid_facts t
  have hb : t.val * 4096 + n.val < 200000 := by omega
  have e2 : ((cfg1.win 3).blk t).view.emb j = ix2 m (⟨t.val * 4096 + n.val, hb⟩ : Fin 200000) := funext fun a => Fin.ext (by
    match a with
    | ⟨0, _⟩ => show win1_3.index t (0 : Fin 2) * 512 + 1 * (j 0).val = m.val; omega
    | ⟨1, _⟩ => show win1_3.index t (1 : Fin 2) * 4096 + 1 * (j 1).val = t.val * 4096 + n.val; omega)
  show Dec.oblk V c t (win1_3.xinj (grid1.coords t) j) = G3 V c (((cfg1.win 3).blk t).view.emb j)
  rw [e, e2]
  exact oblk_at V c t m n hn hb

/-- An entry of the array is in point `t`'s block iff each coordinate is in the block's range, cut at the array's end. -/
theorem mem_blk3 (t : Fin cfg1.N) (i : S512x200000.Idx) :
    i ∈ ((cfg1.win 3).blk t).view.set ↔ ∀ a : Fin 2, win1_3.index t a * S512x4096.size a ≤ (i a).val
      ∧ (i a).val < win1_3.index t a * S512x4096.size a + win1_3.xsize (grid1.coords t) a := by
  show i ∈ ((View.whole main_v14).slice (win1_3.rect t)).set ↔ _
  rw [View.set_slice_whole, Rect.mem_set_unit]
  exact Iff.rfl

/-- Every entry of the array is in the block of the point its column names: column `n` in block `n / 4096`. -/
theorem cover3 (i : S512x200000.Idx) :
    ∃ t : Fin cfg1.N, (cfg1.win 3).flush t = true ∧ i ∈ ((cfg1.win 3).blk t).view.set := by
  have h0 : (i 0).val < 512 := (i 0).isLt
  have h1 : (i 1).val < 200000 := (i 1).isLt
  have hN : grid1.N = 49 := N_1
  have ht : (i 1).val / 4096 < cfg1.N := by show _ < grid1.N; omega
  obtain ⟨-, -, -, -, -, -, f6, f7, -, -, -, -, f12, f13, f14⟩ := grid_facts ⟨(i 1).val / 4096, ht⟩
  refine ⟨⟨(i 1).val / 4096, ht⟩, flush1_3 _, ?_⟩
  rw [mem_blk3]
  intro a
  match a with
  | ⟨0, _⟩ =>
    show win1_3.index ⟨(i 1).val / 4096, ht⟩ (0 : Fin 2) * 512 ≤ (i 0).val
      ∧ (i 0).val < win1_3.index ⟨(i 1).val / 4096, ht⟩ (0 : Fin 2) * 512 + win1_3.xsize (grid1.coords ⟨(i 1).val / 4096, ht⟩) (0 : Fin 2)
    omega
  | ⟨1, _⟩ =>
    show win1_3.index ⟨(i 1).val / 4096, ht⟩ (1 : Fin 2) * 4096 ≤ (i 1).val
      ∧ (i 1).val < win1_3.index ⟨(i 1).val / 4096, ht⟩ (1 : Fin 2) * 4096 + win1_3.xsize (grid1.coords ⟨(i 1).val / 4096, ht⟩) (1 : Fin 2)
    have hv : (⟨(i 1).val / 4096, ht⟩ : Fin cfg1.N).val = (i 1).val / 4096 := rfl
    omega

/-- The output array after the call: the decode, all 512 × 200000 entries. -/
theorem final3 (c : Dev nD) : (Dec.dat1 V c).arrAt 3 cfg1.N = G3 V c :=
  (Dec.dat1 V c).arrAt_eq_of_cover 3 (G3 V c) (fun t _ => flushed3_eq V c t) cover3

/-- The three input arrays end as the call found them. -/
theorem final_in0 (c : Dev nD) : (Dec.dat1 V c).arrAt 0 cfg1.N = V c (Pipeline.arrRef spec1 0) :=
  ((Dec.dat1 V c).arrAt_in 0 rfl _).trans (Dec.A_eq1 V c 0)
theorem final_in1 (c : Dev nD) : (Dec.dat1 V c).arrAt 1 cfg1.N = V c (Pipeline.arrRef spec1 1) :=
  ((Dec.dat1 V c).arrAt_in 1 rfl _).trans (Dec.A_eq1 V c 1)
theorem final_in2 (c : Dev nD) : (Dec.dat1 V c).arrAt 2 cfg1.N = V c (Pipeline.arrRef spec1 2) :=
  ((Dec.dat1 V c).arrAt_in 2 rfl _).trans (Dec.A_eq1 V c 2)

end Cert.KernelIdeal.DecValue

end
-- ==== Proof.EncBlk.lean ====
/-
  The encoder's input blocks read at one entry of the arrays they are cut from.

  At grid point `t = 5·h + k` the input window's block is rows `256·h …` and columns `4096·k …` of the padded input,
  the embedding window's block is rows `4096·k …` of the padded embedding rows, and the five small operands
  (three bias rows, two weight matrices) are whole arrays. A block's coordinate in its array is always
  block index × block size + the coordinate inside the block.
-/
import proofs.«178345_j73899207295094_2_alg».proof.Proof.EncDefs
import Idealize.ShloMosaic.Lib.ValueIdx
import Idealize.ShloMosaic.Lib.Pipeline.Value

noncomputable section

namespace Cert.KernelIdeal.EncValue

open Idealize.ShloMosaic Idealize.ShloMosaic.TcCoe Idealize.ShloMosaic.ValueIdx
open Idealize.SL Idealize.SL.Sem
open Cert.KernelIdeal Cert.KernelIdeal.Gen Cert.KernelIdeal.Enc

variable (V : (c : Dev nD) → (b : Ref sig .tc) → Buf (Elt Ideal) ((c : Thread nD τ).loc b))

/-! ## The seven arrays the region reads, each as a function on its literal index box -/

/-- The padded input, 512 × 20480. -/
abbrev arrX (c : Dev nD) : S512x20480.Idx → EReal := V c main_v11
/-- The padded embedding rows, 20480 × 256. -/
abbrev arrW (c : Dev nD) : S20480x256.Idx → EReal := V c main_v12
/-- The first bias as a row, 1 × 256. -/
abbrev arrB0 (c : Dev nD) : S1x256.Idx → EReal := V c main_v7
/-- The first weight matrix, 512 × 256. -/
abbrev arrW1 (c : Dev nD) : S512x256.Idx → EReal := V c main_arg4
/-- The second bias as a row, 1 × 512. -/
abbrev arrB1 (c : Dev nD) : S1x512.Idx → EReal := V c main_v8
/-- The second weight matrix, 256 × 512. -/
abbrev arrW2 (c : Dev nD) : S256x512.Idx → EReal := V c main_arg6
/-- The third bias as a row, 1 × 256. -/
abbrev arrB2 (c : Dev nD) : S1x256.Idx → EReal := V c main_v9

/-- The eight index maps over the ten grid points: the batch half is `t / 5`, the K-tile `t % 5`. -/
theorem idx_facts : ∀ t : Fin cfg0.N,
    win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 5 ∧ win0_7.index t (1 : Fin 2) = 0 :=
  (by decide +kernel : ∀ t : Fin grid0.N, _)

/-- The input tile at point `t`: entry `(r, j)` is entry `(256·(t/5) + r, 4096·(t%5) + j)` of the padded input. -/
theorem blk0_apply (c : Dev nD) (t : Fin cfg0.N) (r : Fin 256) (j : Fin 4096) (b : Fin 512) (k : Fin 20480)
    (hb : b.val = 256 * (t.val / 5) + r.val) (hk : k.val = 4096 * (t.val % 5) + j.val) :
    (iblk0 V c 0 t : Vec Ideal S256x4096 .f32) (ix2 r j) = arrX V c (ix2 b k) := by
  obtain ⟨e0, e1, -⟩ := idx_facts t
  unfold iblk0
  rw [View.read_apply]
  show V c main_v11 _ = V c main_v11 _
  congr 1
  funext a
  apply Fin.ext
  match a with
  | ⟨0, _⟩ => show win0_0.index t (0 : Fin 2) * 256 + 1 * r.val = b.val; rw [e0, hb]; omega
  | ⟨1, _⟩ => show win0_0.index t (1 : Fin 2) * 4096 + 1 * j.val = k.val; rw [e1, hk]; omega

/-- The embedding tile at point `t`: entry `(j, e)` is entry `(4096·(t%5) + j, e)` of the padded embedding rows. -/
theorem blk1_apply (c : Dev nD) (t : Fin cfg0.N) (j : Fin 4096) (e : Fin 256) (k : Fin 20480)
    (hk : k.val = 4096 * (t.val % 5) + j.val) :
    (iblk0 V c 1 t : Vec Ideal S4096x256 .f32) (ix2 j e) = arrW V c (ix2 k e) := by
  obtain ⟨-, -, e0, e1, -⟩ := idx_facts t
  unfold iblk0
  rw [View.read_apply]
  show V c main_v12 _ = V c main_v12 _
  congr 1
  funext a
  apply Fin.ext
  match a with
  | ⟨0, _⟩ => show win0_1.index t (0 : Fin 2) * 4096 + 1 * j.val = k.val; rw [e0, hk]; omega
  | ⟨1, _⟩ => show win0_1.index t (1 : Fin 2) * 256 + 1 * e.val = e.val; rw [e1]; omega

/-- The first bias row, whole at every point. -/
theorem blk2_apply (c : Dev nD) (t : Fin cfg0.N) (u : Fin 1) (e : Fin 256) :
    (iblk0 V c 2 t : Vec Ideal S1x256 .f32) (ix2 u e) = arrB0 V c (ix2 u e) := by
  obtain ⟨-, -, -, -, e0, e1, -⟩ := idx_facts t
  unfold iblk0
  rw [View.read_apply]
  show V c main_v7 _ = V c main_v7 _
  congr 1
  funext a
  apply Fin.ext
  match a with
  | ⟨0, _⟩ => show win0_2.index t (0 : Fin 2) * 1 + 1 * u.val = u.val; rw [e0]; omega
  | ⟨1, _⟩ => show win0_2.index t (1 : Fin 2) * 256 + 1 * e.val = e.val; rw [e1]; omega

/-- The first weight matrix, whole at every point. -/
theorem blk3_apply (c : Dev nD) (t : Fin cfg0.N) (h : Fin 512) (e : Fin 256) :
    (iblk0 V c 3 t : Vec Ideal S512x256 .f32) (ix2 h e) = arrW1 V c (ix2 h e) := by
  obtain ⟨-, -, -, -, -, -, e0, e1, -⟩ := idx_facts t
  unfold iblk0
  rw [View.read_apply]
  show V c main_arg4 _ = V c main_arg4 _
  congr 1
  funext a
  apply Fin.ext
  match a with
  | ⟨0, _⟩ => show win0_3.index t (0 : Fin 2) * 512 + 1 * h.val = h.val; rw [e0]; omega
  | ⟨1, _⟩ => show win0_3.index t (1 : Fin 2) * 256 + 1 * e.val = e.val; rw [e1]; omega

/-- The second bias row, whole at every point. -/
theorem blk4_apply (c : Dev nD) (t : Fin cfg0.N) (u : Fin 1) (h : Fin 512) :
    (iblk0 V c 4 t : Vec Ideal S1x512 .f32) (ix2 u h) = arrB1 V c (ix2 u h) := by
  obtain ⟨-, -, -, -, -, -, -, -, e0, e1, -⟩ := idx_facts t
  unfold iblk0
  rw [View.read_apply]
  show V c main_v8 _ = V c main_v8 _
  congr 1
  funext a
  apply Fin.ext
  match a with
  | ⟨0, _⟩ => show win0_4.index t (0 : Fin 2) * 1 + 1 * u.val = u.val; rw [e0]; omega
  | ⟨1, _⟩ => show win0_4.index t (1 : Fin 2) * 512 + 1 * h.val = h.val; rw [e1]; omega

/-- The second weight matrix, whole at every point. -/
theorem blk5_apply (c : Dev nD) (t : Fin cfg0.N) (e : Fin 256) (h : Fin 512) :
    (iblk0 V c 5 t : Vec Ideal S256x512 .f32) (ix2 e h) = arrW2 V c (ix2 e h) := by
  obtain ⟨-, -, -, -, -, -, -, -, -, -, e0, e1, -⟩ := idx_facts t
  unfold iblk0
  rw [View.read_apply]
  show V c main_arg6 _ = V c main_arg6 _
  congr 1
  funext a
  apply Fin.ext
  match a with
  | ⟨0, _⟩ => show win0_5.index t (0 : Fin 2) * 256 + 1 * e.val = e.val; rw [e0]; omega
  | ⟨1, _⟩ => show win0_5.index t (1 : Fin 2) * 512 + 1 * h.val = h.val; rw [e1]; omega

/-- The third bias row, whole at every point. -/
theorem blk6_apply (c : Dev nD) (t : Fin cfg0.N) (u : Fin 1) (e : Fin 256) :
    (iblk0 V c 6 t : Vec Ideal S1x256 .f32) (ix2 u e) = arrB2 V c (ix2 u e) := by
  obtain ⟨-, -, -, -, -, -, -, -, -, -, -, -, e0, e1, -⟩ := idx_facts t
  unfold iblk0
  rw [View.read_apply]
  show V c main_v9 _ = V c main_v9 _
  congr 1
  funext a
  apply Fin.ext
  match a with
  | ⟨0, _⟩ => show win0_6.index t (0 : Fin 2) * 1 + 1 * u.val = u.val; rw [e0]; omega
  | ⟨1, _⟩ => show win0_6.index t (1 : Fin 2) * 256 + 1 * e.val = e.val; rw [e1]; omega

end Cert.KernelIdeal.EncValue

end
-- ==== Proof.EncEntry.lean ====
/-
  What the encoder finds in its operands' arrays, in terms of the launch memory.

  Before the region the host fixes the row indices up (a negative index has 200000 added), gathers the 20000 active
  embedding rows, reshapes the four bias vectors to one-row matrices, and pads the input's columns and the gathered
  rows' rows from 20000 to 20480 with the integer zero converted to a float, which is the extended real zero. The
  two weight matrices and the decode table are untouched.
-/
import proofs.«178345_j73899207295094_2_alg».proof.Proof.Entry
import proofs.«178345_j73899207295094_2_alg».proof.Proof.EncBlk
import Idealize.ShloMosaic.Lib.KernelVsHost
import Idealize.ShloMosaic.Lib.ValueLayout
import Idealize.ShloMosaic.Lib.StableHlo.Run

noncomputable section

namespace Cert.KernelIdeal.EncValue

open Idealize.ShloMosaic Idealize.ShloMosaic.TcCoe Idealize.ShloMosaic.ValueIdx
open Idealize.SL Idealize.SL.Sem
open Idealize.ShloMosaic.StableHlo
open Cert.KernelIdeal Cert.KernelIdeal.Gen Cert.KernelIdeal.Enc

/-- The gathered embedding rows, as the host operations before the region compute them from the table `E` and the
    index vector `idx`: indices below zero have 200000 added, the result is laid out as a column of start indices,
    and the gather takes one whole row of the table per index. -/
def wK (E : Vec Ideal S200000x256 .f32) (idx : IVec S20000 32) : Vec Ideal S20000x256 .f32 :=
  Host.gather gather_S200000x256_S20000x1_S20000x256_1_0_n_n_0_1_1256 E
    (broadcastInDim S20000x1 ![0] bcast_S20000_S20000x1_0
      (select (cmpi .slt idx (broadcastInDim S20000 ![] bcast_S_S20000 (constantI S_ 32 0#32)))
        (addi idx (broadcastInDim S20000 ![] bcast_S_S20000 (constantI S_ 32 200000#32))) idx))

variable (m : (ℓ : Loc nD τ sig) → Buf (Elt Ideal) ℓ)

/-- The input at launch, as a function on its literal index box. -/
abbrev argX (c : Dev nD) : S512x20000.Idx → EReal := m ((c : Thread nD τ).loc main_arg0)

/-! ## The untouched operands -/

theorem E0_arg4 (c : Dev nD) : E0 m c main_arg4 = m ((c : Thread nD τ).loc main_arg4) :=
  (V4_of m c main_arg4 (by decide)).trans <| (V3_of m c main_arg4 (by decide)).trans <| (V2_of m c main_arg4 (by decide)).trans <| (V1_of m c main_arg4 (by decide)).trans rfl
theorem E0_arg6 (c : Dev nD) : E0 m c main_arg6 = m ((c : Thread nD τ).loc main_arg6) :=
  (V4_of m c main_arg6 (by decide)).trans <| (V3_of m c main_arg6 (by decide)).trans <| (V2_of m c main_arg6 (by decide)).trans <| (V1_of m c main_arg6 (by decide)).trans rfl
theorem E0_arg8 (c : Dev nD) : E0 m c main_arg8 = m ((c : Thread nD τ).loc main_arg8) :=
  (V4_of m c main_arg8 (by decide)).trans <| (V3_of m c main_arg8 (by decide)).trans <| (V2_of m c main_arg8 (by decide)).trans <| (V1_of m c main_arg8 (by decide)).trans rfl

/-! ## The reshaped biases -/

theorem E0_v7 (c : Dev nD) : (E0 m c main_v7 : S1x256.Idx → EReal) = shapeCast S1x256 (m ((c : Thread nD τ).loc main_arg3)) shapeCasts_S256_S1x256 := by
  refine (V4_of m c main_v7 (by decide)).trans <| (V3_of m c main_v7 (by decide)).trans <| (V2_of m c main_v7 (by decide)).trans ?_
  show StableHlo.after hostOps0 (V0 m c) (Proc.devRef .tc main_v7) = _
  after_results
  rfl
theorem E0_v8 (c : Dev nD) : (E0 m c main_v8 : S1x512.Idx → EReal) = shapeCast S1x512 (m ((c : Thread nD τ).loc main_arg5)) shapeCasts_S512_S1x512 := by
  refine (V4_of m c main_v8 (by decide)).trans <| (V3_of m c main_v8 (by decide)).trans <| (V2_of m c main_v8 (by decide)).trans ?_
  show StableHlo.after hostOps0 (V0 m c) (Proc.devRef .tc main_v8) = _
  after_results
  rfl
theorem E0_v9 (c : Dev nD) : (E0 m c main_v9 : S1x256.Idx → EReal) = shapeCast S1x256 (m ((c : Thread nD τ).loc main_arg7)) shapeCasts_S256_S1x256 := by
  refine (V4_of m c main_v9 (by decide)).trans <| (V3_of m c main_v9 (by decide)).trans <| (V2_of m c main_v9 (by decide)).trans ?_
  show StableHlo.after hostOps0 (V0 m c) (Proc.devRef .tc main_v9) = _
  after_results
  rfl
theorem E0_v10 (c : Dev nD) : (E0 m c main_v10 : S1x200000.Idx → EReal) = shapeCast S1x200000 (m ((c : Thread nD τ).loc main_arg9)) shapeCasts_S200000_S1x200000 := by
  refine (V4_of m c main_v10 (by decide)).trans <| (V3_of m c main_v10 (by decide)).trans <| (V2_of m c main_v10 (by decide)).trans ?_
  show StableHlo.after hostOps0 (V0 m c) (Proc.devRef .tc main_v10) = _
  after_results
  rfl

/-! ## The two paddings -/

/-- The one element of the padding value: the integer zero converted, the extended real zero. -/
theorem padval_zero (i : S_.Idx) : (sitofp .f32 (constantI S_ 32 0#32) : FVec Ideal S_ .f32) i = 0 := sitofp_zero

/-- The input's padding, over any contents of the buffers it reads. -/
theorem after1_v11 (G : Valuation τ sig (Elt Ideal)) :
    (StableHlo.after hostOps0_1 G (Proc.devRef .tc main_v11) : S512x20480.Idx → EReal)
      = pad S512x20480 ![0, 0] ![0, 480] ![0, 0] (G (Proc.devRef .tc main_arg0) : S512x20000.Idx → EReal)
          (sitofp .f32 (G (Proc.devRef .tc main_c_1) : IVec S_ 32) : FVec Ideal S_ .f32) pads_S512x20000_S512x20480_000_04800 h_S_ := by
  after_results
  rfl

/-- The gathered rows' padding, over any contents of the buffers it reads. -/
theorem after3_v12 (G : Valuation τ sig (Elt Ideal)) :
    (StableHlo.after hostOps0_3 G (Proc.devRef .tc main_v12) : S20480x256.Idx → EReal)
      = pad S20480x256 ![0, 0] ![480, 0] ![0, 0] (G (Proc.devRef .tc main_v6) : S20000x256.Idx → EReal)
          (sitofp .f32 (G (Proc.devRef .tc main_c_2) : IVec S_ 32) : FVec Ideal S_ .f32) pads_S20000x256_S20480x256_04800_000 h_S_ := by
  after_results
  rfl

/-- The constant the second padding converts. -/
theorem after2_c2 (G : Valuation τ sig (Elt Ideal)) :
    (StableHlo.after hostOps0_2 G (Proc.devRef .tc main_c_2) : IVec S_ 32) = constantI S_ 32 0#32 := by
  after_results

/-- The constant the first padding converts, and the gathered rows, after the first stretch. -/
theorem V1_c1 (c : Dev nD) : (V1 m c (Proc.devRef .tc main_c_1) : IVec S_ 32) = constantI S_ 32 0#32 := by
  show StableHlo.after hostOps0 (V0 m c) (Proc.devRef .tc main_c_1) = _
  after_results
theorem V1_v6 (c : Dev nD) : (V1 m c (Proc.devRef .tc main_v6) : S20000x256.Idx → EReal)
    = wK (m ((c : Thread nD τ).loc main_arg2)) (m ((c : Thread nD τ).loc main_arg1)) := by
  show StableHlo.after hostOps0 (V0 m c) (Proc.devRef .tc main_v6) = _
  after_results
  rfl

/-- THE PADDED INPUT the region finds. -/
theorem E0_v11 (c : Dev nD) : (E0 m c main_v11 : S512x20480.Idx → EReal)
    = pad S512x20480 ![0, 0] ![0, 480] ![0, 0] (m ((c : Thread nD τ).loc main_arg0) : S512x20000.Idx → EReal)
        (sitofp .f32 (constantI S_ 32 0#32) : FVec Ideal S_ .f32) pads_S512x20000_S512x20480_000_04800 h_S_ := by
  refine (V4_of m c main_v11 (by decide)).trans <| (V3_of m c main_v11 (by decide)).trans ?_
  refine (after1_v11 (V1 m c)).trans ?_
  rw [V1_c1 m c, V1_of m c main_arg0 (by decide)]

/-- THE PADDED GATHERED ROWS the region finds. -/
theorem E0_v12 (c : Dev nD) : (E0 m c main_v12 : S20480x256.Idx → EReal)
    = pad S20480x256 ![0, 0] ![480, 0] ![0, 0] (wK (m ((c : Thread nD τ).loc main_arg2)) (m ((c : Thread nD τ).loc main_arg1)))
        (sitofp .f32 (constantI S_ 32 0#32) : FVec Ideal S_ .f32) pads_S20000x256_S20480x256_04800_000 h_S_ := by
  refine (after3_v12 (V3 m c)).trans ?_
  have h6 : (V3 m c (Proc.devRef .tc main_v6) : S20000x256.Idx → EReal)
      = wK (m ((c : Thread nD τ).loc main_arg2)) (m ((c : Thread nD τ).loc main_arg1)) :=
    (V3_of m c main_v6 (by decide)).trans <| (V2_of m c main_v6 (by decide)).trans (V1_v6 m c)
  have hc : (V3 m c (Proc.devRef .tc main_c_2) : IVec S_ 32) = constantI S_ 32 0#32 := after2_c2 (V2 m c)
  rw [h6, hc]

/-! ## Read at an entry -/

/-- Padded input entry `(b, k)`: the input there inside the 20000 columns, zero in the padding. -/
theorem arrX_apply (c : Dev nD) (b : Fin 512) (k : Fin 20480) :
    arrX (E0 m) c (ix2 b k)
      = if h : k.val < 20000 then argX m c (ix2 b ⟨k.val, h⟩) else 0 := by
  show (E0 m c main_v11 : S512x20480.Idx → EReal) (ix2 b k) = _
  rw [E0_v11]
  split
  · rename_i h
    exact pad_apply_of_inside _ _ _ _ _ pads_S512x20000_S512x20480_000_04800 h_S_ (ix2 b k) (ix2 b ⟨k.val, h⟩) fun a => by
      match a with
      | ⟨0, _⟩ => show b.val = 0 + b.val * (0 + 1); omega
      | ⟨1, _⟩ => show k.val = 0 + k.val * (0 + 1); omega
  · rename_i h
    refine (pad_apply_of_not_inside _ _ _ _ _ pads_S512x20000_S512x20480_000_04800 h_S_ (ix2 b k) (1 : Fin 2) ?_).trans (padval_zero _)
    show ¬(0 ≤ k.val ∧ (k.val - 0) % (0 + 1) = 0 ∧ (k.val - 0) / (0 + 1) < 20000)
    omega

/-- Padded embedding entry `(k, e)`: the gathered row there inside the 20000 rows, zero in the padding. -/
theorem arrW_apply (c : Dev nD) (k : Fin 20480) (e : Fin 256) :
    arrW (E0 m) c (ix2 k e)
      = if h : k.val < 20000 then wK (m ((c : Thread nD τ).loc main_arg2)) (m ((c : Thread nD τ).loc main_arg1)) (ix2 ⟨k.val, h⟩ e) else 0 := by
  show (E0 m c main_v12 : S20480x256.Idx → EReal) (ix2 k e) = _
  rw [E0_v12]
  split
  · rename_i h
    exact pad_apply_of_inside _ _ _ _ _ pads_S20000x256_S20480x256_04800_000 h_S_ (ix2 k e) (ix2 ⟨k.val, h⟩ e) fun a => by
      match a with
      | ⟨0, _⟩ => show k.val = 0 + k.val * (0 + 1); omega
      | ⟨1, _⟩ => show e.val = 0 + e.val * (0 + 1); omega
  · rename_i h
    refine (pad_apply_of_not_inside _ _ _ _ _ pads_S20000x256_S20480x256_04800_000 h_S_ (ix2 k e) (0 : Fin 2) ?_).trans (padval_zero _)
    show ¬(0 ≤ k.val ∧ (k.val - 0) % (0 + 1) = 0 ∧ (k.val - 0) / (0 + 1) < 20000)
    omega

/-- The three bias rows the region reads, and the decoder's, at an entry: the bias vectors. -/
theorem arrB0_apply (c : Dev nD) (u : Fin 1) (e : Fin 256) :
    arrB0 (E0 m) c (ix2 u e) = (m ((c : Thread nD τ).loc main_arg3) : S256.Idx → EReal) (ix1 e) := by
  show (E0 m c main_v7 : S1x256.Idx → EReal) (ix2 u e) = _
  rw [E0_v7]
  exact shapeCast_a_1a_apply _ _ u e
theorem arrB1_apply (c : Dev nD) (u : Fin 1) (h : Fin 512) :
    arrB1 (E0 m) c (ix2 u h) = (m ((c : Thread nD τ).loc main_arg5) : S512.Idx → EReal) (ix1 h) := by
  show (E0 m c main_v8 : S1x512.Idx → EReal) (ix2 u h) = _
  rw [E0_v8]
  exact shapeCast_a_1a_apply _ _ u h
theorem arrB2_apply (c : Dev nD) (u : Fin 1) (e : Fin 256) :
    arrB2 (E0 m) c (ix2 u e) = (m ((c : Thread nD τ).loc main_arg7) : S256.Idx → EReal) (ix1 e) := by
  show (E0 m c main_v9 : S1x256.Idx → EReal) (ix2 u e) = _
  rw [E0_v9]
  exact shapeCast_a_1a_apply _ _ u e
theorem E0_v10_apply (c : Dev nD) (u : Fin 1) (n : Fin 200000) :
    (E0 m c main_v10 : S1x200000.Idx → EReal) (ix2 u n) = (m ((c : Thread nD τ).loc main_arg9) : S200000.Idx → EReal) (ix1 n) := by
  rw [E0_v10]
  exact shapeCast_a_1a_apply _ _ u n

/-- The two weight matrices the region reads are the launch arrays. -/
theorem arrW1_eq (c : Dev nD) : arrW1 (E0 m) c = m ((c : Thread nD τ).loc main_arg4) := E0_arg4 m c
theorem arrW2_eq (c : Dev nD) : arrW2 (E0 m) c = m ((c : Thread nD τ).loc main_arg6) := E0_arg6 m c

end Cert.KernelIdeal.EncValue

end
-- ==== Proof.EncPay.lean ====
/-
  The encoder body's four pure values read at one entry, over the extended reals.

  The accumulator update at entry `(r, e)` is the old entry plus the 4096-term product sum of row `r` of the input
  tile with column `e` of the embedding tile; the reset value is zero everywhere; the two dense layers contract a
  selu'd row against a weight matrix read transposed; and the closing value adds a bias row and applies selu.
  A change of float format is the identity on extended reals, so the bf16 casts in front of each product vanish.
-/
import proofs.«178345_j73899207295094_2_alg».proof.Proof.Gen.KernelIdeal.Skeleton
import proofs.«178345_j73899207295094_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.EncValue

open Idealize.ShloMosaic Idealize.ShloMosaic.ValueIdx
open Cert.KernelIdeal Cert.KernelIdeal.Gen

/-! ## The three products at an entry -/

abbrev D1 : DotDims S256x4096 S4096x256 S256x256 := dot_S256x4096_S4096x256_S256x256_1_0_0_1_n_n
abbrev D2 : DotDims S256x256 S512x256 S256x512 := dot_S256x256_S512x256_S256x512_1_1_0_0_n_n
abbrev D3 : DotDims S256x512 S256x512 S256x256 := dot_S256x512_S256x512_S256x256_1_1_0_0_n_n

theorem D1_lhs0 (i : S256x256.Idx) (q : D1.contr.Idx) : (D1.lhsIdx i q 0).val = (i 0).val := by
  unfold DotDims.lhsIdx
  rw [dif_neg (show ¬(0 : Fin S256x4096.rank) ∈ D1.lhsBatch by decide), dif_pos (show (0 : Fin S256x4096.rank) ∈ D1.lhsNonContracting by decide)]
  rfl
theorem D1_rhs1 (i : S256x256.Idx) (q : D1.contr.Idx) : (D1.rhsIdx i q 1).val = (i 1).val := by
  unfold DotDims.rhsIdx
  rw [dif_neg (show ¬(1 : Fin S4096x256.rank) ∈ D1.rhsBatch by decide), dif_pos (show (1 : Fin S4096x256.rank) ∈ D1.rhsNonContracting by decide)]
  rfl
theorem D2_lhs0 (i : S256x512.Idx) (q : D2.contr.Idx) : (D2.lhsIdx i q 0).val = (i 0).val := by
  unfold DotDims.lhsIdx
  rw [dif_neg (show ¬(0 : Fin S256x256.rank) ∈ D2.lhsBatch by decide), dif_pos (show (0 : Fin S256x256.rank) ∈ D2.lhsNonContracting by decide)]
  rfl
theorem D2_rhs0 (i : S256x512.Idx) (q : D2.contr.Idx) : (D2.rhsIdx i q 0).val = (i 1).val := by
  unfold DotDims.rhsIdx
  rw [dif_neg (show ¬(0 : Fin S512x256.rank) ∈ D2.rhsBatch by decide), dif_pos (show (0 : Fin S512x256.rank) ∈ D2.rhsNonContracting by decide)]
  rfl
theorem D3_lhs0 (i : S256x256.Idx) (q : D3.contr.Idx) : (D3.lhsIdx i q 0).val = (i 0).val := by
  unfold DotDims.lhsIdx
  rw [dif_neg (show ¬(0 : Fin S256x512.rank) ∈ D3.lhsBatch by decide), dif_pos (show (0 : Fin S256x512.rank) ∈ D3.lhsNonContracting by decide)]
  rfl
theorem D3_rhs0 (i : S256x256.Idx) (q : D3.contr.Idx) : (D3.rhsIdx i q 0).val = (i 1).val := by
  unfold DotDims.rhsIdx
  rw [dif_neg (show ¬(0 : Fin S256x512.rank) ∈ D3.rhsBatch by decide), dif_pos (show (0 : Fin S256x512.rank) ∈ D3.rhsNonContracting by decide)]
  rfl

/-- Input tile against embedding tile: entry `(r, e)` is the sum over the tile's 4096 columns. -/
theorem mm1_apply (x : FVec Ideal S256x4096 .bf16) (w : FVec Ideal S4096x256 .bf16) (r e : Fin 256) :
    matmul D1 none x w (constant S256x256 .f32 0x00000000#32) (ix2 r e) = ∑ j : Fin 4096, x (ix2 r j) * w (ix2 j e) := by
  simp only [matmul]
  rw [Ideal.matmul_constant_zero_apply, ← Equiv.sum_comp (contrEquiv1 D1 4096 rfl rfl).symm]
  refine Finset.sum_congr rfl fun k _ => ?_
  have hk := contrEquiv1_symm_val D1 4096 rfl rfl k
  have el : D1.lhsIdx (ix2 r e) ((contrEquiv1 D1 4096 rfl rfl).symm k) = ix2 r k := funext fun a => Fin.ext (by
    match a with
    | ⟨0, _⟩ => exact D1_lhs0 _ _
    | ⟨1, _⟩ => exact (D1.lhsIdx_val_of_single rfl _ _).trans hk)
  have er : D1.rhsIdx (ix2 r e) ((contrEquiv1 D1 4096 rfl rfl).symm k) = ix2 k e := funext fun a => Fin.ext (by
    match a with
    | ⟨0, _⟩ => exact (D1.rhsIdx_val_of_single rfl _ _).trans hk
    | ⟨1, _⟩ => exact D1_rhs1 _ _)
  rw [el, er]

/-- A 256-wide row against a 512 × 256 weight matrix read transposed: entry `(r, h)`. -/
theorem mm2_apply (z : FVec Ideal S256x256 .bf16) (W : FVec Ideal S512x256 .bf16) (r : Fin 256) (h : Fin 512) :
    matmul D2 none z W (constant S256x512 .f32 0x00000000#32) (ix2 r h) = ∑ e : Fin 256, z (ix2 r e) * W (ix2 h e) := by
  simp only [matmul]
  rw [Ideal.matmul_constant_zero_apply, ← Equiv.sum_comp (contrEquiv1 D2 256 rfl rfl).symm]
  refine Finset.sum_congr rfl fun k _ => ?_
  have hk := contrEquiv1_symm_val D2 256 rfl rfl k
  have el : D2.lhsIdx (ix2 r h) ((contrEquiv1 D2 256 rfl rfl).symm k) = ix2 r k := funext fun a => Fin.ext (by
    match a with
    | ⟨0, _⟩ => exact D2_lhs0 _ _
    | ⟨1, _⟩ => exact (D2.lhsIdx_val_of_single rfl _ _).trans hk)
  have er : D2.rhsIdx (ix2 r h) ((contrEquiv1 D2 256 rfl rfl).symm k) = ix2 h k := funext fun a => Fin.ext (by
    match a with
    | ⟨0, _⟩ => exact D2_rhs0 _ _
    | ⟨1, _⟩ => exact (D2.rhsIdx_val_of_single rfl _ _).trans hk)
  rw [el, er]

/-- A 512-wide row against a 256 × 512 weight matrix read transposed: entry `(r, e)`. -/
theorem mm3_apply (z : FVec Ideal S256x512 .bf16) (W : FVec Ideal S256x512 .bf16) (r e : Fin 256) :
    matmul D3 none z W (constant S256x256 .f32 0x00000000#32) (ix2 r e) = ∑ h : Fin 512, z (ix2 r h) * W (ix2 e h) := by
  simp only [matmul]
  rw [Ideal.matmul_constant_zero_apply, ← Equiv.sum_comp (contrEquiv1 D3 512 rfl rfl).symm]
  refine Finset.sum_congr rfl fun k _ => ?_
  have hk := contrEquiv1_symm_val D3 512 rfl rfl k
  have el : D3.lhsIdx (ix2 r e) ((contrEquiv1 D3 512 rfl rfl).symm k) = ix2 r k := funext fun a => Fin.ext (by
    match a with
    | ⟨0, _⟩ => exact D3_lhs0 _ _
    | ⟨1, _⟩ => exact (D3.lhsIdx_val_of_single rfl _ _).trans hk)
  have er : D3.rhsIdx (ix2 r e) ((contrEquiv1 D3 512 rfl rfl).symm k) = ix2 e k := funext fun a => Fin.ext (by
    match a with
    | ⟨0, _⟩ => exact D3_rhs0 _ _
    | ⟨1, _⟩ => exact (D3.rhsIdx_val_of_single rfl _ _).trans hk)
  rw [el, er]

/-! ## The payloads at an entry -/

/-- The reset value is zero everywhere. -/
theorem pay1_apply (i : S256x256.Idx) : k0_pay1 (F := Ideal) i = 0 := by
  unfold k0_pay1
  simp only [shapeCast_self]
  exact Ideal.ofBits_zero_f32

/-- The accumulator update: the old entry plus the tile's product sum. -/
theorem pay2_apply (x : Vec Ideal S256x4096 .f32) (w : Vec Ideal S4096x256 .f32) (acc : Vec Ideal S256x256 .f32) (r e : Fin 256) :
    k0_pay2 x w acc (ix2 r e) = acc (ix2 r e) + ∑ j : Fin 4096, x (ix2 r j) * w (ix2 j e) := by
  unfold k0_pay2
  simp only [shapeCast_self]
  exact congrArg (acc (ix2 r e) + ·) (mm1_apply _ _ r e)

/-- A bias row added to a value and selu applied, at an entry. -/
theorem selu_row_apply {n : Nat} (v : FVec Ideal ⟨2, ![256, n]⟩ .f32) (b : FVec Ideal ⟨2, ![1, n]⟩ .f32)
    (hb : (⟨2, ![1, n]⟩ : Shape).Broadcasts ⟨2, ![256, n]⟩) (r : Fin 256) (e : Fin n) :
    mulf (broadcast ⟨2, ![256, n]⟩ (Scalar.ofBits .f32 0x3F867D5F#32))
      (select (cmpf .ogt (addf v (broadcastTo ⟨2, ![256, n]⟩ b hb)) (broadcast ⟨2, ![256, n]⟩ (Scalar.ofBits .f32 0x00000000#32)))
        (addf v (broadcastTo ⟨2, ![256, n]⟩ b hb))
        (mulf (broadcast ⟨2, ![256, n]⟩ (Scalar.ofBits .f32 0x3FD62D7D#32))
          (subf (exp (addf v (broadcastTo ⟨2, ![256, n]⟩ b hb))) (broadcast ⟨2, ![256, n]⟩ (Scalar.ofBits .f32 0x3F800000#32))))) (ix2 r e)
      = Cert.Spec.selu (v (ix2 r e) + b (ix2 (0 : Fin 1) e)) := by
  have hbr : broadcastTo ⟨2, ![256, n]⟩ b hb (ix2 r e) = b (ix2 (0 : Fin 1) e) := broadcastTo_1b_ab_apply b hb r e
  show Ideal.ofBits .f32 0x3F867D5F#32 *
    Scalar.select (FloatOps.cmpf (F := Ideal) (φ := .f32) .ogt (v (ix2 r e) + broadcastTo ⟨2, ![256, n]⟩ b hb (ix2 r e)) (Ideal.ofBits .f32 0x00000000#32))
      (v (ix2 r e) + broadcastTo ⟨2, ![256, n]⟩ b hb (ix2 r e))
      (Ideal.ofBits .f32 0x3FD62D7D#32 * (Ideal.exp (v (ix2 r e) + broadcastTo ⟨2, ![256, n]⟩ b hb (ix2 r e)) - Ideal.ofBits .f32 0x3F800000#32)) = _
  rw [hbr]
  rfl

/-- The closing value: the bias row added and selu applied. -/
theorem pay3_apply (v : FVec Ideal S256x256 .f32) (b2 : Vec Ideal S1x256 .f32) (r e : Fin 256) :
    k0_pay3 v b2 (ix2 r e) = Cert.Spec.selu (v (ix2 r e) + b2 (ix2 (0 : Fin 1) e)) := by
  unfold k0_pay3
  simp only [shapeCast_self]
  exact selu_row_apply (n := 256) v b2 _ r e

/-- The two dense layers over the accumulator: at `(r, e)`, the 512 hidden units of row `r` against row `e` of the
    second weight matrix, each hidden unit the selu of the 256 first-layer units against its row of the first. -/
theorem pay4_apply (acc : Vec Ideal S256x256 .f32) (b0 : Vec Ideal S1x256 .f32) (W1 : Vec Ideal S512x256 .f32)
    (b1 : Vec Ideal S1x512 .f32) (W2 : Vec Ideal S256x512 .f32) (r e : Fin 256) :
    k0_pay4 acc b0 W1 b1 W2 (ix2 r e)
      = ∑ h : Fin 512, Cert.Spec.selu ((∑ e' : Fin 256, Cert.Spec.selu (acc (ix2 r e') + b0 (ix2 (0 : Fin 1) e')) * W1 (ix2 h e'))
          + b1 (ix2 (0 : Fin 1) h)) * W2 (ix2 e h) := by
  unfold k0_pay4
  simp only [shapeCast_self]
  refine (mm3_apply _ _ r e).trans ?_
  refine Finset.sum_congr rfl fun h _ => ?_
  refine congrArg (· * W2 (ix2 e h)) ?_
  refine (selu_row_apply (n := 512) _ b1 _ r h).trans ?_
  refine congrArg (fun s => Cert.Spec.selu (s + b1 (ix2 (0 : Fin 1) h))) ?_
  refine (mm2_apply _ _ r h).trans ?_
  refine Finset.sum_congr rfl fun e' _ => ?_
  exact congrArg (· * W1 (ix2 h e')) (selu_row_apply (n := 256) acc b0 _ r e')

/-! ## The three layers as one function of a row of first-layer sums -/

/-- Entry `e` of the three selu layers over one row `a` of first-layer sums: the bias rows are `[1, n]` arrays,
    the weight matrices are read transposed. -/
def layers (a : Fin 256 → EReal) (b0 : S1x256.Idx → EReal) (W1 : S512x256.Idx → EReal) (b1 : S1x512.Idx → EReal)
    (W2 : S256x512.Idx → EReal) (b2 : S1x256.Idx → EReal) (e : Fin 256) : EReal :=
  Cert.Spec.selu ((∑ h : Fin 512, Cert.Spec.selu ((∑ e' : Fin 256, Cert.Spec.selu (a e' + b0 (ix2 (0 : Fin 1) e')) * W1 (ix2 h e'))
      + b1 (ix2 (0 : Fin 1) h)) * W2 (ix2 e h)) + b2 (ix2 (0 : Fin 1) e))

/-- The output block's entry `(r, e)` is the three layers over row `r` of the accumulator, whatever arrays the five
    small operands agree with on the entries read. -/
theorem out_of (acc : Vec Ideal S256x256 .f32) (b0 : Vec Ideal S1x256 .f32) (W1 : Vec Ideal S512x256 .f32)
    (b1 : Vec Ideal S1x512 .f32) (W2 : Vec Ideal S256x512 .f32) (b2 : Vec Ideal S1x256 .f32)
    (b0' : S1x256.Idx → EReal) (W1' : S512x256.Idx → EReal) (b1' : S1x512.Idx → EReal)
    (W2' : S256x512.Idx → EReal) (b2' : S1x256.Idx → EReal)
    (h0 : ∀ e : Fin 256, b0 (ix2 (0 : Fin 1) e) = b0' (ix2 (0 : Fin 1) e))
    (h1 : ∀ (h : Fin 512) (e : Fin 256), W1 (ix2 h e) = W1' (ix2 h e))
    (h2 : ∀ h : Fin 512, b1 (ix2 (0 : Fin 1) h) = b1' (ix2 (0 : Fin 1) h))
    (h3 : ∀ (e : Fin 256) (h : Fin 512), W2 (ix2 e h) = W2' (ix2 e h))
    (h4 : ∀ e : Fin 256, b2 (ix2 (0 : Fin 1) e) = b2' (ix2 (0 : Fin 1) e)) (r e : Fin 256) :
    k0_pay3 (k0_pay4 acc b0 W1 b1 W2) b2 (ix2 r e) = layers (fun e' => acc (ix2 r e')) b0' W1' b1' W2' b2' e := by
  refine (pay3_apply _ b2 r e).trans ?_
  unfold layers
  rw [h4 e, pay4_apply acc b0 W1 b1 W2 r e]
  refine congrArg (fun s => Cert.Spec.selu (s + b2' (ix2 (0 : Fin 1) e))) (Finset.sum_congr rfl fun h _ => ?_)
  rw [h3 e h, h2 h]
  refine congrArg (fun s => Cert.Spec.selu (s + b1' (ix2 (0 : Fin 1) h)) * W2' (ix2 e h)) (Finset.sum_congr rfl fun e' _ => ?_)
  rw [h1 h e', h0 e']

end Cert.KernelIdeal.EncValue

end
-- ==== Proof.EncSum.lean ====
/-
  Sums over the padded contraction axis, in a commutative additive monoid (no finiteness is used anywhere).

  The 20480 padded positions are five tiles of 4096. A function on the positions is extended by zero to all
  naturals so that partial sums over the first `k` tiles are sums over a range: adding tile `k` to the sum over
  the first `k` tiles gives the sum over the first `k + 1`; the sum over all five is the sum over the positions;
  and when the function vanishes on the 480 padding positions that is the sum over the first 20000.
-/
import Mathlib.Algebra.BigOperators.Fin
import Mathlib.Algebra.BigOperators.Group.Finset.Basic

open scoped BigOperators

namespace Cert.KernelIdeal.EncValue

variable {M : Type*} [AddCommMonoid M]

/-- A function on the 20480 padded positions, extended by zero. -/
def ext0 (f : Fin 20480 → M) (i : ℕ) : M := if h : i < 20480 then f ⟨i, h⟩ else 0

theorem ext0_val (f : Fin 20480 → M) (k : Fin 20480) : ext0 f k.val = f k := dif_pos k.isLt

/-- The sum over the first `k` tiles. -/
def tiles (f : Fin 20480 → M) (k : ℕ) : M := ∑ i ∈ Finset.range (4096 * k), ext0 f i

theorem tiles_zero (f : Fin 20480 → M) : tiles f 0 = 0 := by
  unfold tiles; rw [Nat.mul_zero, Finset.range_zero, Finset.sum_empty]

/-- One more tile: the sum over the first `k` tiles plus the 4096 positions of tile `k`. -/
theorem tiles_succ (f : Fin 20480 → M) (k : ℕ) (hk : k < 5) :
    tiles f k + ∑ j : Fin 4096, f ⟨4096 * k + j.val, by have := j.isLt; omega⟩ = tiles f (k + 1) := by
  unfold tiles
  rw [Nat.mul_succ, Finset.sum_range_add, Finset.sum_range (fun j => ext0 f (4096 * k + j))]
  refine congrArg (_ + ·) (Finset.sum_congr rfl fun j _ => ?_)
  have hj : 4096 * k + j.val < 20480 := by have := j.isLt; omega
  show f ⟨4096 * k + j.val, _⟩ = ext0 f (4096 * k + j.val)
  unfold ext0
  rw [dif_pos hj]

/-- All five tiles are all positions. -/
theorem tiles_five (f : Fin 20480 → M) : tiles f 5 = ∑ k : Fin 20480, f k := by
  unfold tiles
  rw [show 4096 * 5 = 20480 from rfl, Finset.sum_range]
  exact Finset.sum_congr rfl fun k _ => ext0_val f k

/-- A function that vanishes on the padding sums over the first 20000 positions only. -/
theorem sum_pad (f : Fin 20480 → M) (hz : ∀ k : Fin 20480, 20000 ≤ k.val → f k = 0) :
    ∑ k : Fin 20480, f k = ∑ k : Fin 20000, f ⟨k.val, by have := k.isLt; omega⟩ := by
  rw [← tiles_five]
  unfold tiles
  rw [show 4096 * 5 = 20000 + 480 from rfl, Finset.sum_range_add, Finset.sum_range]
  have hpad : ∑ j ∈ Finset.range 480, ext0 f (20000 + j) = 0 := Finset.sum_eq_zero fun j hj => by
    have hj' : j < 480 := Finset.mem_range.mp hj
    unfold ext0
    rw [dif_pos (by omega)]
    exact hz _ (by show 20000 ≤ 20000 + j; omega)
  rw [hpad, add_zero]
  refine Finset.sum_congr rfl fun k _ => ?_
  have hk : k.val < 20480 := by have := k.isLt; omega
  show ext0 f k.val = f ⟨k.val, _⟩
  unfold ext0
  rw [dif_pos hk]

end Cert.KernelIdeal.EncValue
-- ==== Proof.EncAcc.lean ====
/-
  The encoder's accumulator and output block at one entry, in terms of the arrays the region finds.

  Write `t = 5·h + k`. After point `t` the accumulator's entry `(r, e)` is the sum, over the first `k + 1` tiles of
  the padded contraction axis, of input entry `(256·h + r, ·)` times embedding entry `(·, e)`: the first tile of a
  batch half starts from zero, every later tile adds its 4096 products to what the point before left, and the
  row of the input does not change inside a batch half. At the last tile the sum runs over all 20480 positions,
  and the output block is the three selu layers over that row of sums.
-/
import proofs.«178345_j73899207295094_2_alg».proof.Proof.EncPay
import proofs.«178345_j73899207295094_2_alg».proof.Proof.EncBlk
import proofs.«178345_j73899207295094_2_alg».proof.Proof.EncSum

noncomputable section

open scoped BigOperators

namespace Cert.KernelIdeal.EncValue

open Idealize.ShloMosaic Idealize.ShloMosaic.TcCoe Idealize.ShloMosaic.ValueIdx
open Idealize.SL Idealize.SL.Sem
open Cert.KernelIdeal Cert.KernelIdeal.Gen Cert.KernelIdeal.Enc

variable (V : (c : Dev nD) → (b : Ref sig .tc) → Buf (Elt Ideal) ((c : Thread nD τ).loc b))

/-- One product of the first contraction: padded input entry `(b, k)` times padded embedding entry `(k, e)`. -/
def term (c : Dev nD) (b : Fin 512) (e : Fin 256) (k : Fin 20480) : EReal :=
  arrX V c (ix2 b k) * arrW V c (ix2 k e)

/-- The input row that row `r` of the block at point `n` is: `256·(n / 5) + r`. -/
def rowAt (n : ℕ) (hn : n < cfg0.N) (r : Fin 256) : Fin 512 :=
  ⟨256 * (n / 5) + r.val, by have hN : cfg0.N = 10 := N_0; have := r.isLt; omega⟩

/-- One accumulator update at an entry: the old entry plus the point's tile of products. -/
theorem step_apply (c : Dev nD) (t : Fin cfg0.N) (acc : Vec Ideal S256x256 .f32) (r e : Fin 256) :
    k0_pay2 (iblk0 V c 0 t) (iblk0 V c 1 t) acc (ix2 r e)
      = acc (ix2 r e) + ∑ j : Fin 4096, term V c (rowAt t.val t.isLt r) e
          ⟨4096 * (t.val % 5) + j.val, by have := j.isLt; omega⟩ := by
  refine (pay2_apply (iblk0 V c 0 t) (iblk0 V c 1 t) acc r e).trans ?_
  refine congrArg (acc (ix2 r e) + ·) (Finset.sum_congr rfl fun j _ => ?_)
  have hj : 4096 * (t.val % 5) + j.val < 20480 := by have := j.isLt; omega
  exact congrArg₂ (fun (p q : EReal) => p * q) (blk0_apply V c t r j (rowAt t.val t.isLt r) ⟨4096 * (t.val % 5) + j.val, hj⟩ rfl rfl)
    (blk1_apply V c t j e ⟨4096 * (t.val % 5) + j.val, hj⟩ rfl)

/-- An update of an accumulator that holds the first `t % 5` tiles leaves the first `t % 5 + 1`. -/
theorem step_tiles (c : Dev nD) (t : Fin cfg0.N) (acc : Vec Ideal S256x256 .f32) (r e : Fin 256)
    (hacc : acc (ix2 r e) = tiles (term V c (rowAt t.val t.isLt r) e) (t.val % 5)) :
    k0_pay2 (iblk0 V c 0 t) (iblk0 V c 1 t) acc (ix2 r e) = tiles (term V c (rowAt t.val t.isLt r) e) (t.val % 5 + 1) := by
  refine (step_apply V c t acc r e).trans ?_
  rw [hacc]
  exact tiles_succ _ _ (Nat.mod_lt _ (by decide))

/-- THE ACCUMULATOR AFTER POINT `n`, at entry `(r, e)`: the first `n % 5 + 1` tiles of row `256·(n/5) + r`. -/
theorem accAt_apply (c : Dev nD) (n : ℕ) : ∀ (hn : n < cfg0.N) (r e : Fin 256),
    accAt V c n hn (ix2 r e) = tiles (term V c (rowAt n hn r) e) (n % 5 + 1) := by
  induction n with
  | zero =>
    intro hn r e
    refine (congrFun (accAt_reset V c ⟨0, hn⟩ rfl) (ix2 r e)).trans ?_
    exact step_tiles V c ⟨0, hn⟩ _ r e ((pay1_apply _).trans (tiles_zero _).symm)
  | succ n ih =>
    intro hn r e
    by_cases h0 : (n + 1) % 5 = 0
    · refine (congrFun (accAt_reset V c ⟨n + 1, hn⟩ h0) (ix2 r e)).trans ?_
      refine step_tiles V c ⟨n + 1, hn⟩ _ r e ((pay1_apply _).trans ?_)
      show (0 : EReal) = tiles _ ((n + 1) % 5)
      rw [h0]
      exact (tiles_zero _).symm
    · refine (congrFun (accAt_step V c ⟨n + 1, hn⟩ h0) (ix2 r e)).trans ?_
      refine step_tiles V c ⟨n + 1, hn⟩ _ r e ?_
      refine (ih (Nat.lt_of_succ_lt hn) r e).trans ?_
      have e1 : rowAt n (Nat.lt_of_succ_lt hn) r = rowAt (n + 1) hn r :=
        Fin.ext (by show 256 * (n / 5) + r.val = 256 * ((n + 1) / 5) + r.val; omega)
      have e2 : n % 5 + 1 = (n + 1) % 5 := by omega
      rw [e1, e2]

/-- At the last tile of a batch half the accumulator holds the sum over all 20480 padded positions. -/
theorem accAt_last (c : Dev nD) (t : Fin cfg0.N) (h4 : t.val % 5 = 4) (r e : Fin 256) :
    accAt V c t.val t.isLt (ix2 r e) = ∑ k : Fin 20480, term V c (rowAt t.val t.isLt r) e k := by
  rw [accAt_apply V c t.val t.isLt r e, h4]
  exact tiles_five _

/-- THE OUTPUT BLOCK AT POINT `t`, at entry `(r, e)`: the three layers over row `r` of the accumulator, with the
    bias rows and weight matrices the region finds. -/
theorem outAt_apply (c : Dev nD) (t : Fin cfg0.N) (r e : Fin 256) :
    outAt V c t (ix2 r e)
      = layers (fun e' => accAt V c t.val t.isLt (ix2 r e')) (arrB0 V c) (arrW1 V c) (arrB1 V c) (arrW2 V c)
          (arrB2 V c) e := by
  unfold outAt
  exact out_of (accAt V c t.val t.isLt) (iblk0 V c 2 t) (iblk0 V c 3 t) (iblk0 V c 4 t) (iblk0 V c 5 t) (iblk0 V c 6 t)
    (arrB0 V c) (arrW1 V c) (arrB1 V c) (arrW2 V c) (arrB2 V c)
    (fun e => blk2_apply V c t 0 e) (fun h e => blk3_apply V c t h e) (fun h => blk4_apply V c t 0 h)
    (fun e h => blk5_apply V c t e h) (fun e => blk6_apply V c t 0 e) r e

/-- At a point that writes the block back: the three layers over the full sums of row `256·(t/5) + r`. -/
theorem outAt_last (c : Dev nD) (t : Fin cfg0.N) (h4 : t.val % 5 = 4) (r e : Fin 256) :
    outAt V c t (ix2 r e)
      = layers (fun e' => ∑ k : Fin 20480, term V c (rowAt t.val t.isLt r) e' k) (arrB0 V c) (arrW1 V c) (arrB1 V c)
          (arrW2 V c) (arrB2 V c) e := by
  rw [outAt_apply V c t r e]
  exact congrArg (fun a => layers a (arrB0 V c) (arrW1 V c) (arrB1 V c) (arrW2 V c) (arrB2 V c) e)
    (funext fun e' => accAt_last V c t h4 r e')

end Cert.KernelIdeal.EncValue

end
-- ==== Proof.EncArr.lean ====
/-
  From the encoder's output blocks to its output array.

  The output window writes its 256 × 256 block back at the last K-tile of each batch half only (points 4 and 9),
  at rows `256·(t/5) …` of the 512 × 256 array; the two blocks tile the array (row `b` lies in the block written at
  point `5·(b/256) + 4`). What each of those points writes is the three selu layers over the full 20480-term sums
  of its rows, so the array ends holding exactly that, entry by entry.
-/
import proofs.«178345_j73899207295094_2_alg».proof.Proof.EncAcc
import Idealize.ShloMosaic.Lib.Pipeline.Value

noncomputable section

open scoped BigOperators

namespace Cert.KernelIdeal.EncValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Enc

variable (V : (c : Dev nD) → (b : Ref sig .tc) → Buf (Elt Ideal) ((c : Thread nD τ).loc b))

/-- Entry `(b, e)` of the encoder's result: the three layers over the sums, along all 20480 padded positions, of
    input row `b` against the embedding columns. -/
def encEntry (c : Dev nD) (b : Fin 512) (e : Fin 256) : EReal :=
  layers (fun e' => ∑ k : Fin 20480, term V c b e' k) (arrB0 V c) (arrW1 V c) (arrB1 V c) (arrW2 V c)
    (arrB2 V c) e

/-- The encoder's result array. -/
def encArr (c : Dev nD) : S512x256.Idx → EReal := fun i => encEntry V c (i 0) (i 1)

/-- An index of the array is in point `t`'s block iff each coordinate is in the block's range on its axis. -/
theorem mem_blk7 (t : Fin cfg0.N) (i : S512x256.Idx) :
    i ∈ ((cfg0.win 7).blk t).view.set ↔ ∀ a : Fin 2, win0_7.index t a * S256x256.size a ≤ (i a).val ∧ (i a).val < win0_7.index t a * S256x256.size a + S256x256.size a := by
  show i ∈ ((View.whole main_v13).slice (win0_7.rect t)).set ↔ _
  rw [View.set_slice_whole, Rect.mem_set_unit]
  exact Iff.rfl

/-- What a point that writes back writes is its block of the result array. -/
theorem flushed7_eq {c : Dev nD} (dat : Dat τ (Elt Ideal) Unit ℕ (UR sig nD τ) ℕ cfg0 c)
    (hafter : ∀ t : Fin cfg0.N, (cfg0.win 7).flush t = true → dat.after 7 t = outAt V c t)
    (t : Fin cfg0.N) (hf : (cfg0.win 7).flush t = true) :
    dat.flushed 7 t = ((cfg0.win 7).blk t).view.read (Elt Ideal) (encArr V c) := by
  have h4 : t.val % 5 = 4 := (flush0_7 t).mp hf
  obtain ⟨-, -, -, -, -, -, -, -, -, -, -, -, -, -, e0, e1⟩ := idx_facts t
  show (cfg0.win 7).cut (grid0.coords t) (dat.after 7 t) = _
  rw [hafter t hf]
  funext j
  obtain ⟨r, e, rfl⟩ : ∃ (r e : Fin 256), j = ix2 r e := ⟨j 0, j 1, eq_ix2 j⟩
  show outAt V c t (ix2 r e) = encArr V c (((cfg0.win 7).blk t).view.emb (ix2 r e))
  have hemb : ((cfg0.win 7).blk t).view.emb (ix2 r e) = (ix2 (rowAt t.val t.isLt r) e : S512x256.Idx) := by
    funext a
    apply Fin.ext
    match a with
    | ⟨0, _⟩ => show win0_7.index t (0 : Fin 2) * 256 + 1 * r.val = 256 * (t.val / 5) + r.val; rw [e0]; omega
    | ⟨1, _⟩ => show win0_7.index t (1 : Fin 2) * 256 + 1 * e.val = e.val; rw [e1]; omega
  rw [hemb]
  exact outAt_last V c t h4 r e

/-- THE ENCODER'S RESULT ARRAY after the region: the three layers over the full sums, entry by entry. Only what the
    body leaves at the points that write back is used. -/
theorem enc_array_of {c : Dev nD} (dat : Dat τ (Elt Ideal) Unit ℕ (UR sig nD τ) ℕ cfg0 c)
    (hafter : ∀ t : Fin cfg0.N, (cfg0.win 7).flush t = true → dat.after 7 t = outAt V c t) :
    dat.arrAt 7 cfg0.N = encArr V c :=
  dat.arrAt_eq_of_cover 7 (encArr V c) (flushed7_eq V dat hafter) fun i => by
    have hN : cfg0.N = 10 := N_0
    have hi0 : (i 0).val < 512 := idx2_lt0 i
    have hi1 : (i 1).val < 256 := idx2_lt1 i
    obtain ⟨t, ht⟩ : ∃ t : Fin cfg0.N, t.val = 5 * ((i 0).val / 256) + 4 := ⟨⟨5 * ((i 0).val / 256) + 4, by omega⟩, rfl⟩
    obtain ⟨-, -, -, -, -, -, -, -, -, -, -, -, -, -, e0, e1⟩ := idx_facts t
    refine ⟨t, (flush0_7 t).mpr (by omega), ?_⟩
    rw [mem_blk7]
    intro a
    match a with
    | ⟨0, _⟩ => show win0_7.index t (0 : Fin 2) * 256 ≤ (i 0).val ∧ (i 0).val < win0_7.index t (0 : Fin 2) * 256 + 256; rw [e0]; omega
    | ⟨1, _⟩ => show win0_7.index t (1 : Fin 2) * 256 ≤ (i 1).val ∧ (i 1).val < win0_7.index t (1 : Fin 2) * 256 + 256; rw [e1]; omega

/-- The same from the two facts a proof of the region has at hand: the entry contents of the windows' arrays and what
    the body leaves in the output's staging buffer at every point. -/
theorem enc_array {c : Dev nD} (dat : Dat τ (Elt Ideal) Unit ℕ (UR sig nD τ) ℕ cfg0 c)
    (hA : ∀ w, dat.A w = V c (Pipeline.arrRef spec0 w)) (hafter : ∀ t, dat.after 7 t = outAt V c t) :
    dat.arrAt 7 cfg0.N = encArr V c :=
  enc_array_of V dat fun t _ => hafter t

end Cert.KernelIdeal.EncValue

end
-- ==== Proof.EncSpec.lean ====
/-
  The encoder's result array is the specification's third layer.

  Under the entry contents the padded sums lose their padding: the 480 padding positions contribute
  `0 · 0 = 0` each (the extended reals are a monoid with zero under multiplication, and their addition is a
  commutative monoid, so no finiteness is needed), and the 20000 real positions contribute the input entry times
  the gathered embedding entry. The one-row bias matrices read the bias vectors, and the two weight matrices are the
  launch arrays.
-/
import proofs.«178345_j73899207295094_2_alg».proof.Proof.EncArr
import proofs.«178345_j73899207295094_2_alg».proof.Proof.EncEntry

noncomputable section

open scoped BigOperators

namespace Cert.KernelIdeal.EncValue

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Enc

/-- The three layers over a row of first-layer sums are the specification's third layer, once the sums are the
    specification's and the one-row bias matrices read the bias vectors. -/
theorem layers_eq_z3 (x : Cert.Spec.Arr2 512 20000) (w : Cert.Spec.Arr2 20000 256) (b0 : Cert.Spec.Arr1 256)
    (W1 : Cert.Spec.Arr2 512 256) (b1 : Cert.Spec.Arr1 512) (W2 : Cert.Spec.Arr2 256 512) (b2 : Cert.Spec.Arr1 256)
    (a : Fin 256 → EReal) (B0 : S1x256.Idx → EReal) (W1' : S512x256.Idx → EReal) (B1 : S1x512.Idx → EReal)
    (W2' : S256x512.Idx → EReal) (B2 : S1x256.Idx → EReal) (b : Fin 512) (e : Fin 256)
    (ha : ∀ e' : Fin 256, a e' = ∑ k : Fin 20000, x (ix2 b k) * w (ix2 k e'))
    (h0 : ∀ e' : Fin 256, B0 (ix2 (0 : Fin 1) e') = b0 (ix1 e')) (hW1 : W1' = W1)
    (h1 : ∀ h : Fin 512, B1 (ix2 (0 : Fin 1) h) = b1 (ix1 h)) (hW2 : W2' = W2)
    (h2 : ∀ e' : Fin 256, B2 (ix2 (0 : Fin 1) e') = b2 (ix1 e')) :
    layers a B0 W1' B1 W2' B2 e = Cert.Spec.z3 x w b0 W1 b1 W2 b2 b e := by
  subst hW1 hW2
  unfold layers Cert.Spec.z3 Cert.Spec.z2 Cert.Spec.z1
  simp only [ha, h0, h1, h2]

variable (m : (ℓ : Loc nD τ sig) → Buf (Elt Ideal) ℓ)

/-- The padded first-layer sum is the sum over the 20000 real positions of input times gathered embedding entry. -/
theorem first_sum (c : Dev nD) (b : Fin 512) (e : Fin 256) :
    ∑ k : Fin 20480, term (E0 m) c b e k
      = ∑ k : Fin 20000, argX m c (ix2 b k)
          * wK (m ((c : Thread nD τ).loc main_arg2)) (m ((c : Thread nD τ).loc main_arg1)) (ix2 k e) := by
  have hz : ∀ k : Fin 20480, 20000 ≤ k.val → term (E0 m) c b e k = 0 := fun k hk => by
    show arrX (E0 m) c (ix2 b k) * arrW (E0 m) c (ix2 k e) = 0
    rw [arrX_apply m c b k, dif_neg (by omega), zero_mul]
  rw [sum_pad _ hz]
  refine Finset.sum_congr rfl fun k _ => ?_
  have hk : k.val < 20000 := k.isLt
  show arrX (E0 m) c (ix2 b ⟨k.val, _⟩) * arrW (E0 m) c (ix2 ⟨k.val, _⟩ e) = _
  rw [arrX_apply m c b ⟨k.val, _⟩, arrW_apply m c ⟨k.val, _⟩ e, dif_pos hk, dif_pos hk]

/-- Entry `(b, e)` of the encoder's result under the entry contents is the specification's `z3`. -/
theorem encEntry_eq (c : Dev nD) (b : Fin 512) (e : Fin 256) :
    encEntry (E0 m) c b e
      = Cert.Spec.z3 (m ((c : Thread nD τ).loc main_arg0)) (wK (m ((c : Thread nD τ).loc main_arg2)) (m ((c : Thread nD τ).loc main_arg1)))
          (m ((c : Thread nD τ).loc main_arg3)) (m ((c : Thread nD τ).loc main_arg4)) (m ((c : Thread nD τ).loc main_arg5))
          (m ((c : Thread nD τ).loc main_arg6)) (m ((c : Thread nD τ).loc main_arg7)) b e := by
  unfold encEntry
  exact layers_eq_z3 _ _ _ _ _ _ _ _ _ _ _ _ _ b e (fun e' => first_sum m c b e') (fun e' => arrB0_apply m c 0 e') (arrW1_eq m c)
    (fun h => arrB1_apply m c 0 h) (arrW2_eq m c) (fun e' => arrB2_apply m c 0 e')

/-- THE ENCODER'S RESULT: after the first region its output array holds the specification's third layer of the launch
    arrays, for any proof data of the region whose output staging contents are the body's at every point. -/
theorem enc_spec {c : Dev nD} (dat : Dat τ (Elt Ideal) Unit ℕ (UR sig nD τ) ℕ cfg0 c)
    (hA : ∀ w, dat.A w = E0 m c (Pipeline.arrRef spec0 w)) (hafter : ∀ t, dat.after 7 t = outAt (E0 m) c t) :
    dat.arrAt 7 cfg0.N = fun i =>
      Cert.Spec.z3 (m ((c : Thread nD τ).loc main_arg0)) (wK (m ((c : Thread nD τ).loc main_arg2)) (m ((c : Thread nD τ).loc main_arg1)))
        (m ((c : Thread nD τ).loc main_arg3)) (m ((c : Thread nD τ).loc main_arg4)) (m ((c : Thread nD τ).loc main_arg5))
        (m ((c : Thread nD τ).loc main_arg6)) (m ((c : Thread nD τ).loc main_arg7)) (i 0) (i 1) :=
  (enc_array (E0 m) dat hA hafter).trans (funext fun i => encEntry_eq m c (i 0) (i 1))

end Cert.KernelIdeal.EncValue

end
-- ==== Proof.Final.lean ====
/-
  The kernel program's result, over the extended reals, as one function of the launch arrays.

  The encoder region leaves the code matrix `z₃` (three selu layers of the padded product) in its output array; the
  decoder region finds it there, finds the decode table as launched (nothing writes it) and the bias row as the
  one-row reshape of the bias vector, and leaves `z₃ · Dᵀ + d` in the result array: the specification's `out`.
-/
import proofs.«178345_j73899207295094_2_alg».proof.Proof.RunFrame
import proofs.«178345_j73899207295094_2_alg».proof.Proof.DecValue
import proofs.«178345_j73899207295094_2_alg».proof.Proof.EncEntry
import proofs.«178345_j73899207295094_2_alg».proof.Proof.EncSpec
import proofs.«178345_j73899207295094_2_alg».proof.Proof.Spec

set_option maxRecDepth 16384

noncomputable section

namespace Cert.KernelIdeal.Final

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The result as the specification states it, of the launch arrays on core `c`. -/
abbrev outK (c : Dev nD) : S512x200000.Idx → EReal :=
  Cert.Spec.out (m ((c : Thread nD τ).loc main_arg0)) (EncValue.wK (m ((c : Thread nD τ).loc main_arg2)) (m ((c : Thread nD τ).loc main_arg1)))
    (m ((c : Thread nD τ).loc main_arg3)) (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

/-- The code matrix the decoder region finds: what the encoder region's write-backs left. -/
theorem code_arr (c : Dev nD) : (Run.E1 m c main_v13 : S512x256.Idx → EReal) = fun i =>
    Cert.Spec.z3 (m ((c : Thread nD τ).loc main_arg0)) (EncValue.wK (m ((c : Thread nD τ).loc main_arg2)) (m ((c : Thread nD τ).loc main_arg1)))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (i 1) :=
  (Run.W5_arr m c 7).trans
    (EncValue.enc_spec m (Enc.dat0 (Enc.E0 m) c) (Enc.A_eq0 (Enc.E0 m) c) (Enc.after0_7 (Enc.E0 m) c))

theorem code_eq (c : Dev nD) (b : Fin 512) (e : Fin 256) :
    (Run.E1 m c main_v13 : S512x256.Idx → EReal) (ix2 b e) = Cert.Spec.z3 (m ((c : Thread nD τ).loc main_arg0)) (EncValue.wK (m ((c : Thread nD τ).loc main_arg2)) (m ((c : Thread nD τ).loc main_arg1)))
    (m ((c : Thread nD τ).loc main_arg3)) (m ((c : Thread nD τ).loc main_arg4)) (m ((c : Thread nD τ).loc main_arg5))
    (m ((c : Thread nD τ).loc main_arg6)) (m ((c : Thread nD τ).loc main_arg7)) b e :=
  congrFun (code_arr m c) (ix2 b e)

/-- The decode table the decoder region finds is the launch array: no host operation and no region writes it. -/
theorem table_eq (c : Dev nD) : Run.E1 m c main_arg8 = m ((c : Thread nD τ).loc main_arg8) :=
  (Run.W5_of_ne m c main_arg8 (by decide)).trans (EncValue.E0_arg8 m c)

/-- The bias row the decoder region finds is the bias vector laid out as one row. -/
theorem bias_eq (c : Dev nD) (n : Fin 200000) :
    (Run.E1 m c main_v10 : S1x200000.Idx → EReal) (ix2 (0 : Fin 1) n) = (m ((c : Thread nD τ).loc main_arg9) : S200000.Idx → EReal) (ix1 n) :=
  (congrFun (Run.W5_of_ne m c main_v10 (by decide)) (ix2 (0 : Fin 1) n)).trans (EncValue.E0_v10_apply m c 0 n)

/-- The result array after the decoder region is the specification's `out` of the launch arrays. -/
theorem result_eq (c : Dev nD) : (Dec.dat1 (Run.E1 m) c).arrAt 3 cfg1.N = outK m c := by
  have h1 : (fun (b : Fin 512) (e : Fin 256) => (Run.E1 m c main_v13 : S512x256.Idx → EReal) (ix2 b e))
      = Cert.Spec.z3 (m ((c : Thread nD τ).loc main_arg0)) (EncValue.wK (m ((c : Thread nD τ).loc main_arg2)) (m ((c : Thread nD τ).loc main_arg1)))
    (m ((c : Thread nD τ).loc main_arg3)) (m ((c : Thread nD τ).loc main_arg4)) (m ((c : Thread nD τ).loc main_arg5))
    (m ((c : Thread nD τ).loc main_arg6)) (m ((c : Thread nD τ).loc main_arg7)) :=
    funext fun b => funext fun e => code_eq m c b e
  have h3 : (fun j : S200000.Idx => (Run.E1 m c main_v10 : S1x200000.Idx → EReal) (ix2 (0 : Fin 1) (j 0)))
      = (m ((c : Thread nD τ).loc main_arg9) : S200000.Idx → EReal) :=
    funext fun j => (bias_eq m c (j 0)).trans (congrArg (m ((c : Thread nD τ).loc main_arg9) : S200000.Idx → EReal) (eq_ix1 j).symm)
  refine (DecValue.final3 (Run.E1 m) c).trans ?_
  have key : ∀ (z z' : Fin 512 → Fin 256 → EReal) (D D' : Cert.Spec.Arr2 200000 256) (d d' : Cert.Spec.Arr1 200000),
      z = z' → D = D' → d = d' → Cert.Spec.decode z D d = Cert.Spec.decode z' D' d' := by
    intro z z' D D' d d' e1 e2 e3; rw [e1, e2, e3]
  exact key _ _ _ _ _ _ h1 (table_eq m c) h3

/-- The kernel program's run: every weakly fair execution terminates, the result array ends holding `out` of the launch
    arrays, and the ten argument arrays end as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m c), (h c).2⟩)
    (Run.result_gen m ρ (fun _ => false) (fun c => DecValue.body_obligation1 (Run.E1 m) c) rfl)

end Cert.KernelIdeal.Final

end
-- ==== Proof.RefOps.lean ====
/-
  The reference program as one straight line.

  The reference's @main calls the scaled exponential linear unit three times, and each call in turn calls the
  exponential linear unit, which calls two selections. A call executes the callee's body on the caller's
  buffers, so with every call replaced by its body @main is a single list of eighty-five tensor operations:
  thirteen that gather the 20000 active embedding rows and form the first product and bias sum, nineteen for
  each unit (the constants, two comparisons with zero, the inner selection feeding exp(x) − 1, the scaling by
  α, the outer selection, the scaling by λ), five between consecutive units (a transpose, a product, the bias
  broadcast twice, the sum) and the same five for the decode.
-/
import proofs.«178345_j73899207295094_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's eighty-five operations in order, every call replaced by the callee's operations over that call's
    buffers. -/
abbrev ops : List (HloOp τ sig (Elt F)) :=
  [ nullary main_c (constantI S_ 32 0#32),
    unary main_c main_v0 (broadcastInDim S20000 ![] bcast_S_S20000 : (⟨S_, .i32⟩ : BufTy).Contents (Elt F) → (⟨S20000, .i32⟩ : BufTy).Contents (Elt F)),
    binary main_arg1 main_v0 main_v1 (cmpi .slt : (⟨S20000, .i32⟩ : BufTy).Contents (Elt F) → (⟨S20000, .i32⟩ : BufTy).Contents (Elt F) → (⟨S20000, .i1⟩ : BufTy).Contents (Elt F)),
    nullary main_c_0 (constantI S_ 32 200000#32),
    unary main_c_0 main_v2 (broadcastInDim S20000 ![] bcast_S_S20000 : (⟨S_, .i32⟩ : BufTy).Contents (Elt F) → (⟨S20000, .i32⟩ : BufTy).Contents (Elt F)),
    binary main_arg1 main_v2 main_v3 (addi : (⟨S20000, .i32⟩ : BufTy).Contents (Elt F) → (⟨S20000, .i32⟩ : BufTy).Contents (Elt F) → (⟨S20000, .i32⟩ : BufTy).Contents (Elt F)),
    ternary main_v1 main_v3 main_arg1 main_v4 (select : (⟨S20000, .i1⟩ : BufTy).Contents (Elt F) → (⟨S20000, .i32⟩ : BufTy).Contents (Elt F) → (⟨S20000, .i32⟩ : BufTy).Contents (Elt F) → (⟨S20000, .i32⟩ : BufTy).Contents (Elt F)),
    unary main_v4 main_v5 (broadcastInDim S20000x1 ![0] bcast_S20000_S20000x1_0 : (⟨S20000, .i32⟩ : BufTy).Contents (Elt F) → (⟨S20000x1, .i32⟩ : BufTy).Contents (Elt F)),
    binary main_arg2 main_v5 main_v6 ((fun x i => Host.gather gather_S200000x256_S20000x1_S20000x256_1_0_n_n_0_1_1256 x i) : (⟨S200000x256, .f32⟩ : BufTy).Contents (Elt F) → (⟨S20000x1, .i32⟩ : BufTy).Contents (Elt F) → (⟨S20000x256, .f32⟩ : BufTy).Contents (Elt F)),
    binary main_arg0 main_v6 main_v7 ((fun l r => Host.dotGeneral dot_S512x20000_S20000x256_S512x256_1_0_0_1_n_n none l r) : (⟨S512x20000, .f32⟩ : BufTy).Contents (Elt F) → (⟨S20000x256, .f32⟩ : BufTy).Contents (Elt F) → (⟨S512x256, .f32⟩ : BufTy).Contents (Elt F)),
    unary main_arg3 main_v8 (broadcastInDim S1x256 ![1] bcast_S256_S1x256_1 : (⟨S256, .f32⟩ : BufTy).Contents (Elt F) → (⟨S1x256, .f32⟩ : BufTy).Contents (Elt F)),
    unary main_v8 main_v9 (broadcastInDim S512x256 ![0, 1] bcast_S1x256_S512x256_0_1 : (⟨S1x256, .f32⟩ : BufTy).Contents (Elt F) → (⟨S512x256, .f32⟩ : BufTy).Contents (Elt F)),
    binary main_v7 main_v9 main_v10 (addf : (⟨S512x256, .f32⟩ : BufTy).Contents (Elt F) → (⟨S512x256, .f32⟩ : BufTy).Contents (Elt F) → (⟨S512x256, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S512x256 ![] bcast_S_S512x256),
    TRef.binary (.of main_v10) main_call0.call0.v0 main_call0.call0.v1 (cmpf .ogt),
    TRef.nullary main_call0.call0.cst_0 (constant S_ .f32 0x00000000#32),
    TRef.unary main_call0.call0.cst_0 main_call0.call0.v2 (broadcastInDim S512x256 ![] bcast_S_S512x256),
    TRef.binary (.of main_v10) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S512x256 ![] bcast_S_S512x256),
    TRef.ternary main_call0.call0.v3 main_call0.call0.call0.v1 (.of main_v10) main_call0.call0.call0.v2 select,
    TRef.unary main_call0.call0.call0.v2 main_call0.call0.v5 Host.expm1,
    TRef.unary main_call0.cst main_call0.call0.v6 id,
    TRef.unary main_call0.call0.v6 main_call0.call0.v7 (broadcastInDim S512x256 ![] bcast_S_S512x256),
    TRef.binary main_call0.call0.v7 main_call0.call0.v5 main_call0.call0.v8 mulf,
    TRef.ternary main_call0.call0.v1 (.of main_v10) main_call0.call0.v8 main_call0.call0.call1.v0 select,
    TRef.nullary main_call0.cst_0 (constant S_ .f32 0x3F867D5F#32),
    TRef.unary main_call0.cst_0 main_call0.v1 (broadcastInDim S512x256 ![] bcast_S_S512x256),
    TRef.binary main_call0.v1 main_call0.call0.call1.v0 main_call0.v2 mulf,
    unary main_arg4 main_v12 ((transpose S256x512 [1, 0] · transposes_S512x256_S256x512_1_0) : (⟨S512x256, .f32⟩ : BufTy).Contents (Elt F) → (⟨S256x512, .f32⟩ : BufTy).Contents (Elt F)),
    binary main_v11 main_v12 main_v13 ((fun l r => Host.dotGeneral dot_S512x256_S256x512_S512x512_1_0_0_1_n_n none l r) : (⟨S512x256, .f32⟩ : BufTy).Contents (Elt F) → (⟨S256x512, .f32⟩ : BufTy).Contents (Elt F) → (⟨S512x512, .f32⟩ : BufTy).Contents (Elt F)),
    unary main_arg5 main_v14 (broadcastInDim S1x512 ![1] bcast_S512_S1x512_1 : (⟨S512, .f32⟩ : BufTy).Contents (Elt F) → (⟨S1x512, .f32⟩ : BufTy).Contents (Elt F)),
    unary main_v14 main_v15 (broadcastInDim S512x512 ![0, 1] bcast_S1x512_S512x512_0_1 : (⟨S1x512, .f32⟩ : BufTy).Contents (Elt F) → (⟨S512x512, .f32⟩ : BufTy).Contents (Elt F)),
    binary main_v13 main_v15 main_v16 (addf : (⟨S512x512, .f32⟩ : BufTy).Contents (Elt F) → (⟨S512x512, .f32⟩ : BufTy).Contents (Elt F) → (⟨S512x512, .f32⟩ : BufTy).Contents (Elt F)),
    TRef.nullary main_call1.cst (constant S_ .f32 0x3FD62D7D#32),
    TRef.nullary main_call1.call0.cst (constant S_ .f32 0x00000000#32),
    TRef.unary main_call1.call0.cst main_call1.call0.v0 (broadcastInDim S512x512 ![] bcast_S_S512x512),
    TRef.binary (.of main_v16) main_call1.call0.v0 main_call1.call0.v1 (cmpf .ogt),
    TRef.nullary main_call1.call0.cst_0 (constant S_ .f32 0x00000000#32),
    TRef.unary main_call1.call0.cst_0 main_call1.call0.v2 (broadcastInDim S512x512 ![] bcast_S_S512x512),
    TRef.binary (.of main_v16) main_call1.call0.v2 main_call1.call0.v3 (cmpf .ogt),
    TRef.nullary main_call1.call0.cst_1 (constant S_ .f32 0x00000000#32),
    TRef.unary main_call1.call0.cst_1 main_call1.call0.call0.v0 id,
    TRef.unary main_call1.call0.call0.v0 main_call1.call0.call0.v1 (broadcastInDim S512x512 ![] bcast_S_S512x512),
    TRef.ternary main_call1.call0.v3 main_call1.call0.call0.v1 (.of main_v16) main_call1.call0.call0.v2 select,
    TRef.unary main_call1.call0.call0.v2 main_call1.call0.v5 Host.expm1,
    TRef.unary main_call1.cst main_call1.call0.v6 id,
    TRef.unary main_call1.call0.v6 main_call1.call0.v7 (broadcastInDim S512x512 ![] bcast_S_S512x512),
    TRef.binary main_call1.call0.v7 main_call1.call0.v5 main_call1.call0.v8 mulf,
    TRef.ternary main_call1.call0.v1 (.of main_v16) main_call1.call0.v8 main_call1.call0.call1.v0 select,
    TRef.nullary main_call1.cst_0 (constant S_ .f32 0x3F867D5F#32),
    TRef.unary main_call1.cst_0 main_call1.v1 (broadcastInDim S512x512 ![] bcast_S_S512x512),
    TRef.binary main_call1.v1 main_call1.call0.call1.v0 main_call1.v2 mulf,
    unary main_arg6 main_v18 ((transpose S512x256 [1, 0] · transposes_S256x512_S512x256_1_0) : (⟨S256x512, .f32⟩ : BufTy).Contents (Elt F) → (⟨S512x256, .f32⟩ : BufTy).Contents (Elt F)),
    binary main_v17 main_v18 main_v19 ((fun l r => Host.dotGeneral dot_S512x512_S512x256_S512x256_1_0_0_1_n_n none l r) : (⟨S512x512, .f32⟩ : BufTy).Contents (Elt F) → (⟨S512x256, .f32⟩ : BufTy).Contents (Elt F) → (⟨S512x256, .f32⟩ : BufTy).Contents (Elt F)),
    unary main_arg7 main_v20 (broadcastInDim S1x256 ![1] bcast_S256_S1x256_1 : (⟨S256, .f32⟩ : BufTy).Contents (Elt F) → (⟨S1x256, .f32⟩ : BufTy).Contents (Elt F)),
    unary main_v20 main_v21 (broadcastInDim S512x256 ![0, 1] bcast_S1x256_S512x256_0_1 : (⟨S1x256, .f32⟩ : BufTy).Contents (Elt F) → (⟨S512x256, .f32⟩ : BufTy).Contents (Elt F)),
    binary main_v19 main_v21 main_v22 (addf : (⟨S512x256, .f32⟩ : BufTy).Contents (Elt F) → (⟨S512x256, .f32⟩ : BufTy).Contents (Elt F) → (⟨S512x256, .f32⟩ : BufTy).Contents (Elt F)),
    TRef.nullary main_call2.cst (constant S_ .f32 0x3FD62D7D#32),
    TRef.nullary main_call2.call0.cst (constant S_ .f32 0x00000000#32),
    TRef.unary main_call2.call0.cst main_call2.call0.v0 (broadcastInDim S512x256 ![] bcast_S_S512x256),
    TRef.binary (.of main_v22) main_call2.call0.v0 main_call2.call0.v1 (cmpf .ogt),
    TRef.nullary main_call2.call0.cst_0 (constant S_ .f32 0x00000000#32),
    TRef.unary main_call2.call0.cst_0 main_call2.call0.v2 (broadcastInDim S512x256 ![] bcast_S_S512x256),
    TRef.binary (.of main_v22) main_call2.call0.v2 main_call2.call0.v3 (cmpf .ogt),
    TRef.nullary main_call2.call0.cst_1 (constant S_ .f32 0x00000000#32),
    TRef.unary main_call2.call0.cst_1 main_call2.call0.call0.v0 id,
    TRef.unary main_call2.call0.call0.v0 main_call2.call0.call0.v1 (broadcastInDim S512x256 ![] bcast_S_S512x256),
    TRef.ternary main_call2.call0.v3 main_call2.call0.call0.v1 (.of main_v22) main_call2.call0.call0.v2 select,
    TRef.unary main_call2.call0.call0.v2 main_call2.call0.v5 Host.expm1,
    TRef.unary main_call2.cst main_call2.call0.v6 id,
    TRef.unary main_call2.call0.v6 main_call2.call0.v7 (broadcastInDim S512x256 ![] bcast_S_S512x256),
    TRef.binary main_call2.call0.v7 main_call2.call0.v5 main_call2.call0.v8 mulf,
    TRef.ternary main_call2.call0.v1 (.of main_v22) main_call2.call0.v8 main_call2.call0.call1.v0 select,
    TRef.nullary main_call2.cst_0 (constant S_ .f32 0x3F867D5F#32),
    TRef.unary main_call2.cst_0 main_call2.v1 (broadcastInDim S512x256 ![] bcast_S_S512x256),
    TRef.binary main_call2.v1 main_call2.call0.call1.v0 main_call2.v2 mulf,
    unary main_arg8 main_v24 ((transpose S256x200000 [1, 0] · transposes_S200000x256_S256x200000_1_0) : (⟨S200000x256, .f32⟩ : BufTy).Contents (Elt F) → (⟨S256x200000, .f32⟩ : BufTy).Contents (Elt F)),
    binary main_v23 main_v24 main_v25 ((fun l r => Host.dotGeneral dot_S512x256_S256x200000_S512x200000_1_0_0_1_n_n none l r) : (⟨S512x256, .f32⟩ : BufTy).Contents (Elt F) → (⟨S256x200000, .f32⟩ : BufTy).Contents (Elt F) → (⟨S512x200000, .f32⟩ : BufTy).Contents (Elt F)),
    unary main_arg9 main_v26 (broadcastInDim S1x200000 ![1] bcast_S200000_S1x200000_1 : (⟨S200000, .f32⟩ : BufTy).Contents (Elt F) → (⟨S1x200000, .f32⟩ : BufTy).Contents (Elt F)),
    unary main_v26 main_v27 (broadcastInDim S512x200000 ![0, 1] bcast_S1x200000_S512x200000_0_1 : (⟨S1x200000, .f32⟩ : BufTy).Contents (Elt F) → (⟨S512x200000, .f32⟩ : BufTy).Contents (Elt F)),
    binary main_v25 main_v27 main_v28 (addf : (⟨S512x200000, .f32⟩ : BufTy).Contents (Elt F) → (⟨S512x200000, .f32⟩ : BufTy).Contents (Elt F) → (⟨S512x200000, .f32⟩ : BufTy).Contents (Elt F)) ]

/-- @main is that line: unfolding each function at its call, the sequencing of a call's operations with what
    follows re-associates by computation, and both sides are the same chain of steps. -/
theorem main_eq (c : Dev nD) : main (F := F) c = seq ops := rfl

/-- The program scopes no buffer and no semaphore: it has tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., unary_bufs_sub ..,
    binary_bufs_sub .., nullary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., unary_bufs_sub .., unary_bufs_sub .., binary_bufs_sub .., ternary_bufs_sub .., nullary_bufs_sub ..,
    unary_bufs_sub .., binary_bufs_sub .., unary_bufs_sub .., binary_bufs_sub .., unary_bufs_sub .., unary_bufs_sub ..,
    binary_bufs_sub .., nullary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., unary_bufs_sub .., unary_bufs_sub .., binary_bufs_sub .., ternary_bufs_sub .., nullary_bufs_sub ..,
    unary_bufs_sub .., binary_bufs_sub .., unary_bufs_sub .., binary_bufs_sub .., unary_bufs_sub .., unary_bufs_sub ..,
    binary_bufs_sub .., nullary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., unary_bufs_sub .., unary_bufs_sub .., binary_bufs_sub .., ternary_bufs_sub .., nullary_bufs_sub ..,
    unary_bufs_sub .., binary_bufs_sub .., unary_bufs_sub .., binary_bufs_sub .., unary_bufs_sub .., unary_bufs_sub ..,
    binary_bufs_sub ..⟩

end Cert.ReferenceIdeal.Hand

end
-- ==== Proof.RefRun.lean ====
/-
  What the reference computes, as one term of its ten arguments, and its run.

  The gathered rows: an index below zero is first moved up by the table's 200000 rows (the wrap-around of a
  negative index), and the gather then reads the table's row at the index, clamped into the table. The first
  layer is the product of the input with the gathered rows plus the bias row, through the scaled exponential
  linear unit; the second and third layers multiply by a transposed weight matrix, add a bias row and apply
  the unit again; the result is the product with the transposed decode table plus its bias row.

  The unit on a whole array is λ · select(x > 0, x, α · expm1(select(x > 0, 0, x))): the inner selection
  replaces the positive entries by zero before the exponential is taken, the outer one keeps the positive
  entries themselves.

  The run: the program is a straight line of tensor operations, so every weakly fair execution ends, and the
  result buffer then holds the fold of the operations over the launch contents, which is that term; no
  operation writes an argument buffer.
-/
import proofs.«178345_j73899207295094_2_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The gathered embedding rows, 20000 × 256: row `k` is the table's row at index `idx k`, a negative index
    first raised by 200000, the start index then clamped into the table by the gather. -/
def wRef (E : FVec F S200000x256 .f32) (idx : IVec S20000 32) : FVec F S20000x256 .f32 :=
  Host.gather gather_S200000x256_S20000x1_S20000x256_1_0_n_n_0_1_1256 E
    (broadcastInDim S20000x1 ![0] bcast_S20000_S20000x1_0
      (select (cmpi .slt idx (broadcastInDim S20000 ![] bcast_S_S20000 (constantI S_ 32 0#32)))
        (addi idx (broadcastInDim S20000 ![] bcast_S_S20000 (constantI S_ 32 200000#32))) idx))

/-- The scaled exponential linear unit on an array of any shape `S`, as the reference spells it. -/
def seluT (S : Shape) (hb : S_.BroadcastsInDim S (![] : Fin 0 → Fin S.rank)) (x : FVec F S .f32) : FVec F S .f32 :=
  mulf (broadcastInDim S ![] hb (constant S_ .f32 0x3F867D5F#32))
    (select (cmpf .ogt x (broadcastInDim S ![] hb (constant S_ .f32 0x00000000#32))) x
      (mulf (broadcastInDim S ![] hb (constant S_ .f32 0x3FD62D7D#32))
        (Host.expm1 (select (cmpf .ogt x (broadcastInDim S ![] hb (constant S_ .f32 0x00000000#32)))
          (broadcastInDim S ![] hb (constant S_ .f32 0x00000000#32)) x))))

/-- First layer, 512 × 256: the input times the gathered rows, plus the bias row, through the unit. -/
def layer1 (x : FVec F S512x20000 .f32) (idx : IVec S20000 32) (E : FVec F S200000x256 .f32) (b0 : FVec F S256 .f32) :
    FVec F S512x256 .f32 :=
  seluT S512x256 bcast_S_S512x256
    (addf (Host.dotGeneral dot_S512x20000_S20000x256_S512x256_1_0_0_1_n_n none x (wRef E idx))
      (broadcastInDim S512x256 ![0, 1] bcast_S1x256_S512x256_0_1 (broadcastInDim S1x256 ![1] bcast_S256_S1x256_1 b0)))

/-- Second layer, 512 × 512: times the transposed weights, plus the bias row, through the unit. -/
def layer2 (z : FVec F S512x256 .f32) (W1 : FVec F S512x256 .f32) (b1 : FVec F S512 .f32) : FVec F S512x512 .f32 :=
  seluT S512x512 bcast_S_S512x512
    (addf (Host.dotGeneral dot_S512x256_S256x512_S512x512_1_0_0_1_n_n none z
        (transpose S256x512 [1, 0] W1 transposes_S512x256_S256x512_1_0))
      (broadcastInDim S512x512 ![0, 1] bcast_S1x512_S512x512_0_1 (broadcastInDim S1x512 ![1] bcast_S512_S1x512_1 b1)))

/-- Third layer, 512 × 256: times the transposed weights, plus the bias row, through the unit. -/
def layer3 (z : FVec F S512x512 .f32) (W2 : FVec F S256x512 .f32) (b2 : FVec F S256 .f32) : FVec F S512x256 .f32 :=
  seluT S512x256 bcast_S_S512x256
    (addf (Host.dotGeneral dot_S512x512_S512x256_S512x256_1_0_0_1_n_n none z
        (transpose S512x256 [1, 0] W2 transposes_S256x512_S512x256_1_0))
      (broadcastInDim S512x256 ![0, 1] bcast_S1x256_S512x256_0_1 (broadcastInDim S1x256 ![1] bcast_S256_S1x256_1 b2)))

/-- The decode, 512 × 200000: the code times the transposed table, plus the bias row. -/
def decodeT (z : FVec F S512x256 .f32) (D : FVec F S200000x256 .f32) (d : FVec F S200000 .f32) : FVec F S512x200000 .f32 :=
  addf (Host.dotGeneral dot_S512x256_S256x200000_S512x200000_1_0_0_1_n_n none z
      (transpose S256x200000 [1, 0] D transposes_S200000x256_S256x200000_1_0))
    (broadcastInDim S512x200000 ![0, 1] bcast_S1x200000_S512x200000_0_1
      (broadcastInDim S1x200000 ![1] bcast_S200000_S1x200000_1 d))

/-- The reference's whole result as one term of its ten arguments, in @main's order. -/
def refOut (x : FVec F S512x20000 .f32) (idx : IVec S20000 32) (E : FVec F S200000x256 .f32) (b0 : FVec F S256 .f32)
    (W1 : FVec F S512x256 .f32) (b1 : FVec F S512 .f32) (W2 : FVec F S256x512 .f32) (b2 : FVec F S256 .f32)
    (D : FVec F S200000x256 .f32) (d : FVec F S200000 .f32) : FVec F S512x200000 .f32 :=
  decodeT (layer3 (layer2 (layer1 x idx E b0) W1 b1) W2 b2) D d

/-- The fold of the eighty-five operations at the result buffer is that term of the argument buffers' contents:
    each operation's value at its own buffer is its function of its operands' contents, and the chain of these
    from the result back to the arguments is the term, by computation. -/
theorem out_eq (V : Valuation τ sig (Elt F)) :
    after ops V (main_v28 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) := by
  after_results_simp
  rfl

/-- No operation writes argument 0. -/
theorem arg0_eq (V : Valuation τ sig (Elt F)) : after ops V (main_arg0 : DevRef τ sig) = V (main_arg0 : DevRef τ sig) := by
  after_results_simp
/-- No operation writes argument 1. -/
theorem arg1_eq (V : Valuation τ sig (Elt F)) : after ops V (main_arg1 : DevRef τ sig) = V (main_arg1 : DevRef τ sig) := by
  after_results_simp
/-- No operation writes argument 2. -/
theorem arg2_eq (V : Valuation τ sig (Elt F)) : after ops V (main_arg2 : DevRef τ sig) = V (main_arg2 : DevRef τ sig) := by
  after_results_simp
/-- No operation writes argument 3. -/
theorem arg3_eq (V : Valuation τ sig (Elt F)) : after ops V (main_arg3 : DevRef τ sig) = V (main_arg3 : DevRef τ sig) := by
  after_results_simp
/-- No operation writes argument 4. -/
theorem arg4_eq (V : Valuation τ sig (Elt F)) : after ops V (main_arg4 : DevRef τ sig) = V (main_arg4 : DevRef τ sig) := by
  after_results_simp
/-- No operation writes argument 5. -/
theorem arg5_eq (V : Valuation τ sig (Elt F)) : after ops V (main_arg5 : DevRef τ sig) = V (main_arg5 : DevRef τ sig) := by
  after_results_simp
/-- No operation writes argument 6. -/
theorem arg6_eq (V : Valuation τ sig (Elt F)) : after ops V (main_arg6 : DevRef τ sig) = V (main_arg6 : DevRef τ sig) := by
  after_results_simp
/-- No operation writes argument 7. -/
theorem arg7_eq (V : Valuation τ sig (Elt F)) : after ops V (main_arg7 : DevRef τ sig) = V (main_arg7 : DevRef τ sig) := by
  after_results_simp
/-- No operation writes argument 8. -/
theorem arg8_eq (V : Valuation τ sig (Elt F)) : after ops V (main_arg8 : DevRef τ sig) = V (main_arg8 : DevRef τ sig) := by
  after_results_simp
/-- No operation writes argument 9. -/
theorem arg9_eq (V : Valuation τ sig (Elt F)) : after ops V (main_arg9 : DevRef τ sig) = V (main_arg9 : DevRef τ sig) := by
  after_results_simp

/-- On every device, for any float values, from any memory with zero counters: every weakly fair execution of
    @main terminates with the result buffer at `refOut` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.Hand

end
-- ==== Proof.RefSpec.lean ====
/-
  The reference's term is the specification, index by index.

  Read at an index, every stage of the reference is the specification's formula: a product of two matrices is the
  sum over the contracted coordinate of the products of the entries; a transposed matrix reads the other way round;
  a bias row broadcast to every row reads the row; and the scaled exponential linear unit is applied entry by
  entry. For the unit the two spellings differ only where they agree in value: where `x > 0` both take `x`; elsewhere
  the reference's inner selection hands `x` itself to exp(·) − 1, which is the specification's `eˣ − 1` once the
  binary32 word of the literal one is read as the number one.
-/
import proofs.«178345_j73899207295094_2_alg».proof.Proof.RefRun
import proofs.«178345_j73899207295094_2_alg».proof.Proof.Spec
import Idealize.ShloMosaic.Lib.StackMember
import Idealize.ShloMosaic.Lib.ValueLayout
import Idealize.ShloMosaic.Lib.Pipeline.Value

noncomputable section

open scoped BigOperators

namespace Cert.ReferenceIdeal.Hand

open Cert.ReferenceIdeal Cert.ReferenceIdeal.Gen Idealize.ShloMosaic Idealize.ShloMosaic.ValueIdx

/-- The binary32 word of `1.0` denotes the number one. -/
theorem ofBits_one : Ideal.ofBits .f32 0x3F800000#32 = 1 := by
  simp [Ideal.ofBits, Ideal.ieee, -EReal.coe_mul]; norm_num

/-- The unit on an array, read at an index, is the specification's unit at that entry. -/
theorem seluT_apply (S : Shape) (hb : S_.BroadcastsInDim S (![] : Fin 0 → Fin S.rank)) (x : FVec Ideal S .f32) (i : S.Idx) :
    seluT (F := Ideal) S hb x i = Cert.Spec.selu (x i) := by
  show Ideal.ofBits .f32 0x3F867D5F#32 *
      Scalar.select (FloatOps.cmpf (F := Ideal) (φ := .f32) .ogt (x i) (Ideal.ofBits .f32 0x00000000#32)) (x i)
        (Ideal.ofBits .f32 0x3FD62D7D#32 *
          FloatOps.hostUnary (F := Ideal) (φ := .f32) .expm1
            (Scalar.select (FloatOps.cmpf (F := Ideal) (φ := .f32) .ogt (x i) (Ideal.ofBits .f32 0x00000000#32))
              (Ideal.ofBits .f32 0x00000000#32) (x i))) = _
  unfold Cert.Spec.selu
  by_cases hc : FloatOps.cmpf (F := Ideal) (φ := .f32) .ogt (x i) (Ideal.ofBits .f32 0x00000000#32) = 1#1
  · rw [hc, select_one, select_one]
  · rw [eq_zero_of_ne_one hc, select_zero, select_zero, select_zero, Ideal.hostUnary_expm1_def, ofBits_one]

/-- A product of an m × k by a k × n matrix, read at an index: the sum over the contracted coordinate. -/
theorem dot_ix2 {m k n : Nat} (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (⟨[1], [0], [0], [1], [], [], w⟩ : DotDims _ _ _) none A B (ix2 a b)
      = ∑ c : Fin k, A (ix2 a c) * B (ix2 c b) :=
  StackMember.dotGeneral_plain_apply none A B a b

/-- A row made a one-row matrix and then copied to every row, read at `(a, b)`: the row's entry `b`. -/
theorem bias_ix2 {α : Type} {m n : Nat}
    (h1 : (⟨1, ![n]⟩ : Shape).BroadcastsInDim ⟨2, ![1, n]⟩ ![1])
    (h2 : (⟨2, ![1, n]⟩ : Shape).BroadcastsInDim ⟨2, ![m, n]⟩ ![0, 1])
    (v : (⟨1, ![n]⟩ : Shape).Idx → α) (a : Fin m) (b : Fin n) :
    broadcastInDim ⟨2, ![m, n]⟩ ![0, 1] h2 (broadcastInDim ⟨2, ![1, n]⟩ ![1] h1 v) (ix2 a b) = v (ix1 b) := by
  rw [broadcastInDim_apply ![0, 1] h2 _ (ix2 a b) (ix2 (0 : Fin 1) b) (fun c => by
      match c with
      | ⟨0, _⟩ => rfl
      | ⟨1, _⟩ =>
        show b.val = if n = 1 then 0 else b.val
        split_ifs with h
        · have := b.isLt; omega
        · rfl),
    broadcastInDim_apply ![1] h1 v (ix2 (0 : Fin 1) b) (ix1 b) (fun c => by
      match c with
      | ⟨0, _⟩ =>
        show b.val = if n = 1 then 0 else b.val
        split_ifs with h
        · have := b.isLt; omega
        · rfl)]

/-- The first layer at `(b, e)`. -/
theorem layer1_apply (x : FVec Ideal S512x20000 .f32) (idx : IVec S20000 32) (E : FVec Ideal S200000x256 .f32)
    (b0 : FVec Ideal S256 .f32) (b : Fin 512) (e : Fin 256) :
    layer1 (F := Ideal) x idx E b0 (ix2 b e) = Cert.Spec.z1 x (wRef E idx) b0 b e := by
  unfold layer1 Cert.Spec.z1
  rw [seluT_apply]
  refine congrArg Cert.Spec.selu ?_
  show Host.dotGeneral dot_S512x20000_S20000x256_S512x256_1_0_0_1_n_n none x (wRef E idx) (ix2 b e)
      + broadcastInDim S512x256 ![0, 1] bcast_S1x256_S512x256_0_1 (broadcastInDim S1x256 ![1] bcast_S256_S1x256_1 b0) (ix2 b e) = _
  rw [bias_ix2]
  exact congrArg (· + b0 (ix1 e)) (dot_ix2 _ x (wRef E idx) b e)

/-- The second layer at `(b, h)`, over any first-layer code. -/
theorem layer2_apply (z : FVec Ideal S512x256 .f32) (W1 : FVec Ideal S512x256 .f32) (b1 : FVec Ideal S512 .f32)
    (b : Fin 512) (h : Fin 512) :
    layer2 (F := Ideal) z W1 b1 (ix2 b h)
      = Cert.Spec.selu ((∑ e : Fin 256, z (ix2 b e) * W1 (ix2 h e)) + b1 (ix1 h)) := by
  unfold layer2
  rw [seluT_apply]
  refine congrArg Cert.Spec.selu ?_
  show Host.dotGeneral dot_S512x256_S256x512_S512x512_1_0_0_1_n_n none z
        (transpose S256x512 [1, 0] W1 transposes_S512x256_S256x512_1_0) (ix2 b h)
      + broadcastInDim S512x512 ![0, 1] bcast_S1x512_S512x512_0_1 (broadcastInDim S1x512 ![1] bcast_S512_S1x512_1 b1) (ix2 b h) = _
  rw [bias_ix2]
  refine congrArg (· + b1 (ix1 h)) ((dot_ix2 _ z _ b h).trans (Finset.sum_congr rfl fun e _ => ?_))
  rw [transpose_ix2_apply]

/-- The third layer at `(b, e)`, over any second-layer code. -/
theorem layer3_apply (z : FVec Ideal S512x512 .f32) (W2 : FVec Ideal S256x512 .f32) (b2 : FVec Ideal S256 .f32)
    (b : Fin 512) (e : Fin 256) :
    layer3 (F := Ideal) z W2 b2 (ix2 b e)
      = Cert.Spec.selu ((∑ h : Fin 512, z (ix2 b h) * W2 (ix2 e h)) + b2 (ix1 e)) := by
  unfold layer3
  rw [seluT_apply]
  refine congrArg Cert.Spec.selu ?_
  show Host.dotGeneral dot_S512x512_S512x256_S512x256_1_0_0_1_n_n none z
        (transpose S512x256 [1, 0] W2 transposes_S256x512_S512x256_1_0) (ix2 b e)
      + broadcastInDim S512x256 ![0, 1] bcast_S1x256_S512x256_0_1 (broadcastInDim S1x256 ![1] bcast_S256_S1x256_1 b2) (ix2 b e) = _
  rw [bias_ix2]
  refine congrArg (· + b2 (ix1 e)) ((dot_ix2 _ z _ b e).trans (Finset.sum_congr rfl fun h _ => ?_))
  rw [transpose_ix2_apply]

/-- The decode at `(b, n)`, over any code. -/
theorem decodeT_apply (z : FVec Ideal S512x256 .f32) (D : FVec Ideal S200000x256 .f32) (d : FVec Ideal S200000 .f32)
    (b : Fin 512) (n : Fin 200000) :
    decodeT (F := Ideal) z D d (ix2 b n) = (∑ e : Fin 256, z (ix2 b e) * D (ix2 n e)) + d (ix1 n) := by
  unfold decodeT
  show Host.dotGeneral dot_S512x256_S256x200000_S512x200000_1_0_0_1_n_n none z
        (transpose S256x200000 [1, 0] D transposes_S200000x256_S256x200000_1_0) (ix2 b n)
      + broadcastInDim S512x200000 ![0, 1] bcast_S1x200000_S512x200000_0_1
          (broadcastInDim S1x200000 ![1] bcast_S200000_S1x200000_1 d) (ix2 b n) = _
  rw [bias_ix2]
  refine congrArg (· + d (ix1 n)) ((dot_ix2 _ z _ b n).trans (Finset.sum_congr rfl fun e _ => ?_))
  rw [transpose_ix2_apply]

/-- The reference's term is the specification at the gathered rows. -/
theorem refOut_eq_spec (x : FVec Ideal S512x20000 .f32) (idx : IVec S20000 32) (E : FVec Ideal S200000x256 .f32)
    (b0 : FVec Ideal S256 .f32) (W1 : FVec Ideal S512x256 .f32) (b1 : FVec Ideal S512 .f32)
    (W2 : FVec Ideal S256x512 .f32) (b2 : FVec Ideal S256 .f32) (D : FVec Ideal S200000x256 .f32)
    (d : FVec Ideal S200000 .f32) :
    refOut (F := Ideal) x idx E b0 W1 b1 W2 b2 D d = Cert.Spec.out x (wRef E idx) b0 W1 b1 W2 b2 D d := by
  funext i
  obtain ⟨b, n, rfl⟩ : ∃ (b : Fin 512) (n : Fin 200000), i = ix2 b n := ⟨i 0, i 1, eq_ix2 i⟩
  unfold refOut Cert.Spec.out Cert.Spec.decode
  rw [decodeT_apply]
  refine congrArg (· + d (ix1 n)) (Finset.sum_congr rfl fun e _ => ?_)
  refine congrArg (· * D (ix2 n e)) ?_
  rw [layer3_apply]
  unfold Cert.Spec.z3
  refine congrArg Cert.Spec.selu (congrArg (· + b2 (ix1 e)) (Finset.sum_congr rfl fun h _ => ?_))
  refine congrArg (· * W2 (ix2 e h)) ?_
  rw [layer2_apply]
  unfold Cert.Spec.z2
  refine congrArg Cert.Spec.selu (congrArg (· + b1 (ix1 h)) (Finset.sum_congr rfl fun e' _ => ?_))
  exact congrArg (· * W1 (ix2 h e')) (layer1_apply x idx E b0 b e')

end Cert.ReferenceIdeal.Hand

end
-- ==== Proof.Gather.lean ====
/-
  The gathered rows are one and the same term in both programs.

  The kernel's program and the reference prepare the 20000 active embedding rows by the same five operations on
  the index vector — compare with zero, add the table's 200000 rows, select, make the indices a column, gather —
  over shapes and dimension records that are spelled alike in the two programs. The records differ only in the
  proofs of their side conditions, so the two terms are equal by computation.
-/
import proofs.«178345_j73899207295094_2_alg».proof.Proof.Gen.KernelIdeal
import proofs.«178345_j73899207295094_2_alg».proof.Proof.RefRun
import Idealize.ShloMosaic.PureOps.Ideal

noncomputable section

namespace Cert.Proof

open Idealize.ShloMosaic

/-- The kernel program's gather of the active rows, over its own records, is the reference's `wRef`. -/
theorem gather_eq (E : FVec Ideal Cert.KernelIdeal.S200000x256 .f32) (idx : IVec Cert.KernelIdeal.S20000 32) :
    Host.gather Cert.KernelIdeal.gather_S200000x256_S20000x1_S20000x256_1_0_n_n_0_1_1256 E
        (broadcastInDim Cert.KernelIdeal.S20000x1 ![0] Cert.KernelIdeal.Gen.bcast_S20000_S20000x1_0
          (select
            (cmpi .slt idx
              (broadcastInDim Cert.KernelIdeal.S20000 ![] Cert.KernelIdeal.Gen.bcast_S_S20000
                (constantI Cert.KernelIdeal.S_ 32 0#32)))
            (addi idx
              (broadcastInDim Cert.KernelIdeal.S20000 ![] Cert.KernelIdeal.Gen.bcast_S_S20000
                (constantI Cert.KernelIdeal.S_ 32 200000#32)))
            idx))
      = Cert.ReferenceIdeal.Hand.wRef (F := Ideal) E idx :=
  rfl

end Cert.Proof

end
-- ==== Proof.lean ====
/-
  Kernel against reference: a sparse-batch autoencoder forward pass.

  Both programs gather the 20000 active rows `w` of the encoder table, form `a₁ = x·w` (512 × 20000 against
  20000 × 256), pass it through three layers "add a bias row, apply selu" (the middle ones through the 512 × 256 and
  256 × 512 weight matrices, read transposed) and decode the 512 × 256 code matrix `z₃` against every row of the
  200000-row decoder table, plus its bias. Over the extended reals a change of float format is the identity and
  `expm1 x` is `eˣ − 1`, so the two selu spellings agree, the reference's inner `where` only feeding the branch the
  outer one discards.

  The kernel differs from the reference only in how the sums are arranged. The first product is zero-padded from
  20000 to 20480 terms (the padded factors are both 0, so the extra terms vanish) and accumulated over five tiles of
  4096 terms in a buffer that restarts at the first tile of each batch half; the decode is computed in 49 column
  blocks of 4096, the last of which overhangs the table by 704 columns whose contents reach only the overhanging
  part of the result block, which is not written back. Addition of extended reals is commutative and associative, so
  no finiteness is needed and the precondition is never opened.

  The three frames: each program runs to the end, nothing faulting, its arguments unchanged. The kernel program is
  a chain of host stretches and two kernel regions; the reference is one stretch of host operations.
-/
import proofs.«178345_j73899207295094_2_alg».proof.Defs
import proofs.«178345_j73899207295094_2_alg».proof.Proof.Gen.Kernel
import proofs.«178345_j73899207295094_2_alg».proof.Proof.Gen.KernelIdeal
import proofs.«178345_j73899207295094_2_alg».proof.Proof.Gen.ReferenceIdeal
import proofs.«178345_j73899207295094_2_alg».proof.Proof.Gen.Pre_finite_inputs
import proofs.«178345_j73899207295094_2_alg».proof.Proof.KRunFrame
import proofs.«178345_j73899207295094_2_alg».proof.Proof.RunFrame
import proofs.«178345_j73899207295094_2_alg».proof.Proof.Final
import proofs.«178345_j73899207295094_2_alg».proof.Proof.RefSpec
import proofs.«178345_j73899207295094_2_alg».proof.Proof.Gather

noncomputable section

namespace Cert.Proof

open Idealize.ShloMosaic Idealize.SL.Sem

/-- The word-level kernel program runs and leaves its arguments unchanged: the decoder's result blocks are left
    unnamed (at the word level nothing says the overhanging operand rows do not reach them). -/
theorem frame_k : Cert.frame_Kernel := fun m ρ _ =>
  Cert.Kernel.Run.frame_gen m ρ Cert.Kernel.Dec.fgt1 (fun c => Cert.Kernel.Dec.body_obligation1_fgt (Cert.Kernel.Run.E1 m) c)

/-- The same for the idealized kernel program. -/
theorem frame_ki : Cert.frame_KernelIdeal := fun m ρ _ =>
  Cert.KernelIdeal.Run.frame_gen m ρ Cert.KernelIdeal.Dec.fgt1 (fun c => Cert.KernelIdeal.Dec.body_obligation1_fgt (Cert.KernelIdeal.Run.E1 m) c)

/-- The reference runs and leaves its arguments unchanged: its run with the result dropped. -/
theorem frame_ri : Cert.frame_ReferenceIdeal := fun m ρ _ =>
  (θ_run (Cert.ReferenceIdeal.defs (F := Ideal)) _ _).mono (fun _ h c => (h c).2) (Cert.ReferenceIdeal.Hand.run (F := Ideal) m ρ)

/-- Over the extended reals both programs end at `Spec.out` of the arguments: the kernel's gathered rows and the
    reference's are one term. -/
theorem algebraic : Cert.algebraic_KernelIdeal_ReferenceIdeal := by
  intro m ρ m' ρ' _ hagree
  refine ⟨fun c => Cert.KernelIdeal.Final.outK m c, Cert.KernelIdeal.Final.kernel_run m ρ, ?_⟩
  refine (θ_run (Cert.ReferenceIdeal.defs (F := Ideal)) _ _).mono (fun _ h c => ⟨(h c).1.trans ?_, (h c).2⟩)
    (Cert.ReferenceIdeal.Hand.run (F := Ideal) m' ρ')
  obtain ⟨h0, h1, h2, h3, h4, h5, h6, h7, h8, h9⟩ := hagree c
  rw [Cert.ReferenceIdeal.Hand.refOut_eq_spec, h0, h1, h2, h3, h4, h5, h6, h7, h8, h9]
  exact congrArg (fun w => Cert.Spec.out _ w _ _ _ _ _ _ _) (Cert.Proof.gather_eq _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
